-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096x128 : Shape := ⟨3, ![64, 4096, 128]⟩
abbrev S4096x128 : Shape := ⟨2, ![4096, 128]⟩
abbrev S4096 : Shape := ⟨1, ![4096]⟩
abbrev S_ : Shape := ⟨0, ![]⟩

class Facts : Prop where
  bcast_S_S64x4096x128 : S_.BroadcastsInDim S64x4096x128 (![] : Fin 0 → Fin S64x4096x128.rank)
  reducesTo_S64x4096x128_S_d0_1_2 : S64x4096x128.ReducesTo [0, 1, 2] S_
  h_S_ : 0 < S_.numel
  bcast_S_S4096x128 : S_.BroadcastsInDim S4096x128 (![] : Fin 0 → Fin S4096x128.rank)
  reducesTo_S4096x128_S_d0_1 : S4096x128.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S64x4096x128 .f32) (main_arg1 : FVec F S4096x128 .f32) (main_arg2 : FVec F S4096 .f32) : IVec S_ 1 :=
  let main_v0 : FVec F S64x4096x128 .f32 := Host.absf main_arg0
  let main_cst : FVec F S_ .f32 := constant S_ .f32 0x7F800000#32
  let main_v1 : FVec F S64x4096x128 .f32 := broadcastInDim S64x4096x128 ![] bcast_S_S64x4096x128 main_cst
  let main_v2 : IVec S64x4096x128 1 := cmpf .olt main_v0 main_v1
  let main_c : IVec S_ 1 := constantI S_ 1 1#1
  let main_v3 : IVec S_ 1 := (fun x v => Host.reduce IntOp.andi x v reducesTo_S64x4096x128_S_d0_1_2 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S64x4096x128 : Shape := ⟨3, ![64, 4096, 128]⟩
abbrev S4096x128 : Shape := ⟨2, ![4096, 128]⟩
abbrev S4096 : Shape := ⟨1, ![4096]⟩
abbrev S64x524288 : Shape := ⟨2, ![64, 524288]⟩
abbrev S1x524288 : Shape := ⟨2, ![1, 524288]⟩
abbrev S2x64x64 : Shape := ⟨3, ![2, 64, 64]⟩
abbrev S2x64x1 : Shape := ⟨3, ![2, 64, 1]⟩
abbrev S2x1x1 : Shape := ⟨3, ![2, 1, 1]⟩
abbrev S64x32768 : Shape := ⟨2, ![64, 32768]⟩
abbrev S1x32768 : Shape := ⟨2, ![1, 32768]⟩
abbrev S1x64x64 : Shape := ⟨3, ![1, 64, 64]⟩
abbrev S1x64x1 : Shape := ⟨3, ![1, 64, 1]⟩
abbrev S1x1x1 : Shape := ⟨3, ![1, 1, 1]⟩
abbrev S64x64 : Shape := ⟨2, ![64, 64]⟩
abbrev S64x1 : Shape := ⟨2, ![64, 1]⟩
abbrev S1x1 : Shape := ⟨2, ![1, 1]⟩
abbrev S64x8192 : Shape := ⟨2, ![64, 8192]⟩
abbrev S1x8192 : Shape := ⟨2, ![1, 8192]⟩
abbrev S64 : Shape := ⟨1, ![64]⟩
abbrev S1 : Shape := ⟨1, ![1]⟩
abbrev S1x64 : Shape := ⟨2, ![1, 64]⟩
abbrev S_ : Shape := ⟨0, ![]⟩

abbrev nBuf : Space → Nat
  | .hbm => 85
  | .vmem => 12
  | .smem => 0
  | _ => 0

abbrev bufTy : (tb : Table) → Fin (tcTables nBuf tb) → BufTy
  | .hbm, ⟨0, _⟩ => ⟨S64x4096x128, .f32⟩
  | .hbm, ⟨1, _⟩ => ⟨S4096x128, .f32⟩
  | .hbm, ⟨2, _⟩ => ⟨S4096, .f32⟩
  | .hbm, ⟨3, _⟩ => ⟨S64x524288, .f32⟩
  | .hbm, ⟨4, _⟩ => ⟨S1x524288, .f32⟩
  | .hbm, ⟨5, _⟩ => ⟨S2x64x64, .f32⟩
  | .hbm, ⟨6, _⟩ => ⟨S2x64x1, .f32⟩
  | .hbm, ⟨7, _⟩ => ⟨S2x1x1, .f32⟩
  | .hbm, ⟨8, _⟩ => ⟨S2x64x1, .f32⟩
  | .hbm, ⟨9, _⟩ => ⟨S1x64x64, .f32⟩
  | .hbm, ⟨10, _⟩ => ⟨S64x64, .f32⟩
  | .hbm, ⟨11, _⟩ => ⟨S1x64x64, .f32⟩
  | .hbm, ⟨12, _⟩ => ⟨S64x64, .f32⟩
  | .hbm, ⟨13, _⟩ => ⟨S64x64, .f32⟩
  | .hbm, ⟨14, _⟩ => ⟨S1x64x1, .f32⟩
  | .hbm, ⟨15, _⟩ => ⟨S64x1, .f32⟩
  | .hbm, ⟨16, _⟩ => ⟨S1x64x1, .f32⟩
  | .hbm, ⟨17, _⟩ => ⟨S64x1, .f32⟩
  | .hbm, ⟨18, _⟩ => ⟨S64x1, .f32⟩
  | .hbm, ⟨19, _⟩ => ⟨S1x1x1, .f32⟩
  | .hbm, ⟨20, _⟩ => ⟨S1x1, .f32⟩
  | .hbm, ⟨21, _⟩ => ⟨S1x1x1, .f32⟩
  | .hbm, ⟨22, _⟩ => ⟨S1x1, .f32⟩
  | .hbm, ⟨23, _⟩ => ⟨S1x1, .f32⟩
  | .hbm, ⟨24, _⟩ => ⟨S1x64x1, .f32⟩
  | .hbm, ⟨25, _⟩ => ⟨S64x1, .f32⟩
  | .hbm, ⟨26, _⟩ => ⟨S1x64x1, .f32⟩
  | .hbm, ⟨27, _⟩ => ⟨S64x1, .f32⟩
  | .hbm, ⟨28, _⟩ => ⟨S64x1, .f32⟩
  | .hbm, ⟨29, _⟩ => ⟨S64x64, .i32⟩
  | .hbm, ⟨30, _⟩ => ⟨S64x64, .i32⟩
  | .hbm, ⟨31, _⟩ => ⟨S64x64, .i1⟩
  | .hbm, ⟨32, _⟩ => ⟨S1x64, .f32⟩
  | .hbm, ⟨33, _⟩ => ⟨S64x64, .f32⟩
  | .hbm, ⟨34, _⟩ => ⟨S64x64, .f32⟩
  | .hbm, ⟨35, _⟩ => ⟨S64x64, .f32⟩
  | .hbm, ⟨36, _⟩ => ⟨S_, .f32⟩
  | .hbm, ⟨37, _⟩ => ⟨S64x64, .f32⟩
  | .hbm, ⟨38, _⟩ => ⟨S64x64, .f32⟩
  | .hbm, ⟨39, _⟩ => ⟨S64x64, .f32⟩
  | .hbm, ⟨40, _⟩ => ⟨S_, .f32⟩
  | .hbm, ⟨41, _⟩ => ⟨S64x64, .f32⟩
  | .hbm, ⟨42, _⟩ => ⟨S64x64, .f32⟩
  | .hbm, ⟨43, _⟩ => ⟨S_, .f32⟩
  | .hbm, ⟨44, _⟩ => ⟨S64x64, .f32⟩
  | .hbm, ⟨45, _⟩ => ⟨S64x64, .f32⟩
  | .hbm, ⟨46, _⟩ => ⟨S64x64, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S64x64, .f32⟩
  | .hbm, ⟨52, _⟩ => ⟨S64x64, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S64x1, .f32⟩
  | .hbm, ⟨62, _⟩ => ⟨S64x1, .f32⟩
  | .hbm, ⟨63, _⟩ => ⟨S64x1, .f32⟩
  | .hbm, ⟨64, _⟩ => ⟨S64x1, .f32⟩
  | .hbm, ⟨65, _⟩ => ⟨S64x1, .f32⟩
  | .hbm, ⟨66, _⟩ => ⟨S_, .f32⟩
  | .hbm, ⟨67, _⟩ => ⟨S64x1, .f32⟩
  | .hbm, ⟨68, _⟩ => ⟨S64x1, .f32⟩
  | .hbm, ⟨69, _⟩ => ⟨S_, .f32⟩
  | .hbm, ⟨70, _⟩ => ⟨S64x1, .f32⟩
  | .hbm, ⟨71, _⟩ => ⟨S64x1, .f32⟩
  | .hbm, ⟨72, _⟩ => ⟨S64x1, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .local _ .vmem, ⟨0, _⟩ => ⟨S64x32768, .f32⟩
  | .local _ .vmem, ⟨1, _⟩ => ⟨S64x32768, .f32⟩
  | .local _ .vmem, ⟨2, _⟩ => ⟨S1x32768, .f32⟩
  | .local _ .vmem, ⟨3, _⟩ => ⟨S1x32768, .f32⟩
  | .local _ .vmem, ⟨4, _⟩ => ⟨S1x64x64, .f32⟩
  | .local _ .vmem, ⟨5, _⟩ => ⟨S1x64x64, .f32⟩
  | .local _ .vmem, ⟨6, _⟩ => ⟨S1x64x1, .f32⟩
  | .local _ .vmem, ⟨7, _⟩ => ⟨S1x64x1, .f32⟩
  | .local _ .vmem, ⟨8, _⟩ => ⟨S1x1x1, .f32⟩
  | .local _ .vmem, ⟨9, _⟩ => ⟨S1x1x1, .f32⟩
  | .local _ .vmem, ⟨10, _⟩ => ⟨S1x64x1, .f32⟩
  | .local _ .vmem, ⟨11, _⟩ => ⟨S1x64x1, .f32⟩
  | _, _ => ⟨S64x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_0 : Ref sig .tc := ⟨.hbm, 40, rfl⟩
abbrev main_v33 : Ref sig .tc := ⟨.hbm, 41, rfl⟩
abbrev main_v34 : Ref sig .tc := ⟨.hbm, 42, rfl⟩
abbrev main_cst_1 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_2 : Ref sig .tc := ⟨.hbm, 47, rfl⟩
abbrev main_v38 : Ref sig .tc := ⟨.hbm, 48, rfl⟩
abbrev main_cst_3 : Ref sig .tc := ⟨.hbm, 49, rfl⟩
abbrev main_call0_v0 : Ref sig .tc := ⟨.hbm, 50, rfl⟩
abbrev main_call0_v1 : Ref sig .tc := ⟨.hbm, 51, rfl⟩
abbrev main_v39 : Ref sig .tc := ⟨.hbm, 52, rfl⟩
abbrev main_cst_4 : Ref sig .tc := ⟨.hbm, 53, rfl⟩
abbrev main_v40 : Ref sig .tc := ⟨.hbm, 54, rfl⟩
abbrev main_v41 : Ref sig .tc := ⟨.hbm, 55, rfl⟩
abbrev main_cst_5 : Ref sig .tc := ⟨.hbm, 56, rfl⟩
abbrev main_v42 : Ref sig .tc := ⟨.hbm, 57, rfl⟩
abbrev main_cst_6 : Ref sig .tc := ⟨.hbm, 58, rfl⟩
abbrev main_v43 : Ref sig .tc := ⟨.hbm, 59, rfl⟩
abbrev main_cst_7 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_8 : Ref sig .tc := ⟨.hbm, 66, rfl⟩
abbrev main_v49 : Ref sig .tc := ⟨.hbm, 67, rfl⟩
abbrev main_v50 : Ref sig .tc := ⟨.hbm, 68, rfl⟩
abbrev main_cst_9 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_10 : Ref sig .tc := ⟨.hbm, 73, rfl⟩
abbrev main_v54 : Ref sig .tc := ⟨.hbm, 74, rfl⟩
abbrev main_cst_11 : Ref sig .tc := ⟨.hbm, 75, rfl⟩
abbrev main_v55 : Ref sig .tc := ⟨.hbm, 76, rfl⟩
abbrev main_v56 : Ref sig .tc := ⟨.hbm, 77, rfl⟩
abbrev main_cst_12 : Ref sig .tc := ⟨.hbm, 78, rfl⟩
abbrev main_cst_13 : Ref sig .tc := ⟨.hbm, 79, rfl⟩
abbrev main_call1_v0 : Ref sig .tc := ⟨.hbm, 80, rfl⟩
abbrev main_call1_v1 : Ref sig .tc := ⟨.hbm, 81, rfl⟩
abbrev main_call1_v2 : Ref sig .tc := ⟨.hbm, 82, rfl⟩
abbrev main_v57 : Ref sig .tc := ⟨.hbm, 83, rfl⟩
abbrev main_v58 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x64x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x64x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S64x4096x128_S64x524288 : S64x4096x128.ShapeCasts S64x524288
  shapeCasts_S4096x128_S1x524288 : S4096x128.ShapeCasts S1x524288
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S64x64_S1x64x64 : S64x64.ShapeCasts S1x64x64
  inb_S1x64x1_S1x64x1_0_0_0 : ∀ a, (![0, 0, 0] : Fin 3 → Nat) a + S1x64x1.size a ≤ S1x64x1.size a
  h_S1x64x1 : 0 < S1x64x1.numel
  shapeCasts_S1x64x1_S64x1 : S1x64x1.ShapeCasts S64x1
  shapeCasts_S64x1_S1x64x1 : S64x1.ShapeCasts S1x64x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  inb_S64x32768_S64x8192_0_0 : ∀ a, (![0, 0] : Fin 2 → Nat) a + S64x8192.size a ≤ S64x32768.size a
  h_S64x8192 : 0 < S64x8192.numel
  shapeCasts_S64x8192_S64x8192 : S64x8192.ShapeCasts S64x8192
  inb_S1x32768_S1x8192_0_0 : ∀ a, (![0, 0] : Fin 2 → Nat) a + S1x8192.size a ≤ S1x32768.size a
  h_S1x8192 : 0 < S1x8192.numel
  shapeCasts_S1x8192_S1x8192 : S1x8192.ShapeCasts S1x8192
  bitsLt_bf16_f32 : FTy.bits .bf16 < FTy.bits .f32
  broadcasts_S1x8192_S64x8192 : S1x8192.Broadcasts S64x8192
  reduces_S64x8192_S64 : S64x8192.Reduces [1] S64
  shapeCasts_S64_S64x1 : S64.ShapeCasts S64x1
  reduces_S1x8192_S1 : S1x8192.Reduces [1] S1
  shapeCasts_S1_S1x1 : S1.ShapeCasts S1x1
  inb_S64x32768_S64x8192_0_8192 : ∀ a, (![0, 8192] : Fin 2 → Nat) a + S64x8192.size a ≤ S64x32768.size a
  inb_S1x32768_S1x8192_0_8192 : ∀ a, (![0, 8192] : Fin 2 → Nat) a + S1x8192.size a ≤ S1x32768.size a
  inb_S64x32768_S64x8192_0_16384 : ∀ a, (![0, 16384] : Fin 2 → Nat) a + S64x8192.size a ≤ S64x32768.size a
  inb_S1x32768_S1x8192_0_16384 : ∀ a, (![0, 16384] : Fin 2 → Nat) a + S1x8192.size a ≤ S1x32768.size a
  inb_S64x32768_S64x8192_0_24576 : ∀ a, (![0, 24576] : Fin 2 → Nat) a + S64x8192.size a ≤ S64x32768.size a
  inb_S1x32768_S1x8192_0_24576 : ∀ a, (![0, 24576] : Fin 2 → Nat) a + S1x8192.size a ≤ S1x32768.size a
  slices_S2x64x64_S1x64x64_0_0_0 : S2x64x64.Slices ![0, 0, 0] S1x64x64
  slices_S2x64x64_S1x64x64_1_0_0 : S2x64x64.Slices ![1, 0, 0] S1x64x64
  slices_S2x64x1_S1x64x1_0_0_0 : S2x64x1.Slices ![0, 0, 0] S1x64x1
  slices_S2x64x1_S1x64x1_1_0_0 : S2x64x1.Slices ![1, 0, 0] S1x64x1
  slices_S2x1x1_S1x1x1_0_0_0 : S2x1x1.Slices ![0, 0, 0] S1x1x1
  slices_S2x1x1_S1x1x1_1_0_0 : S2x1x1.Slices ![1, 0, 0] S1x1x1
  transposes_S64x1_S1x64_1_0 : S64x1.Transposes [1, 0] S1x64
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  reducesTo_S64x64_S_d0_1 : S64x64.ReducesTo [0, 1] S_
  h_S_ : 0 < S_.numel
  bcast_S_S64x1 : S_.BroadcastsInDim S64x1 (![] : Fin 0 → Fin S64x1.rank)
  bcast_S1x1_S64x1_0_1 : S1x1.BroadcastsInDim S64x1 (![0, 1] : Fin 2 → Fin S64x1.rank)
  reducesTo_S64x1_S_d0_1 : S64x1.ReducesTo [0, 1] S_
  shapeCasts_S_S_ : S_.ShapeCasts S_
  dot_S64x8192_S64x8192_S64x64_1_1_0_0_n_n_wf : DotDims.WF S64x8192 S64x8192 S64x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x32768.size a ≤ S64x524288.size a
  hwx0_0 : ∀ i : grid0.Coords, EltTy.bits .f32 = 32 ∨ (Rect.block (s := S64x524288) S64x32768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32768.size a ≤ S1x524288.size a
  hwx0_1 : ∀ i : grid0.Coords, EltTy.bits .f32 = 32 ∨ (Rect.block (s := S1x524288) S1x32768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x64.size a ≤ S2x64x64.size a
  hwx0_2 : ∀ i : grid0.Coords, EltTy.bits .f32 = 32 ∨ (Rect.block (s := S2x64x64) S1x64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x1.size a ≤ S2x64x1.size a
  hwx0_3 : ∀ i : grid0.Coords, EltTy.bits .f32 = 32 ∨ (Rect.block (s := S2x64x1) S1x64x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S2x1x1.size a
  hwx0_4 : ∀ i : grid0.Coords, EltTy.bits .f32 = 32 ∨ (Rect.block (s := S2x1x1) S1x1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x1.size a ≤ S2x64x1.size a
  hwx0_5 : ∀ i : grid0.Coords, EltTy.bits .f32 = 32 ∨ (Rect.block (s := S2x64x1) S1x64x1.size (cc0_transform_5 i) (hinb0_5 i)).WholeWords (EltTy.packing .f32)

variable [Facts₀]

def dot_S64x8192_S64x8192_S64x64_1_1_0_0_n_n : DotDims S64x8192 S64x8192 S64x64 where
  lhsContracting := [1]
  rhsContracting := [1]
  lhsNonContracting := [0]
  rhsNonContracting := [0]
  lhsBatch := []
  rhsBatch := []
  wf := dot_S64x8192_S64x8192_S64x64_1_1_0_0_n_n_wf

abbrev win0_0 : Pipeline.Window sig grid0 :=
  Pipeline.Window.ofSpec (Memref.whole main_v0) S64x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x32768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x64x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x64x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S1x1x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_3) S1x64x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x4096x128 : Shape := ⟨3, ![64, 4096, 128]⟩
abbrev S4096x128 : Shape := ⟨2, ![4096, 128]⟩
abbrev S4096 : Shape := ⟨1, ![4096]⟩
abbrev S64x524288 : Shape := ⟨2, ![64, 524288]⟩
abbrev S524288 : Shape := ⟨1, ![524288]⟩
abbrev S_ : Shape := ⟨0, ![]⟩
abbrev S64 : Shape := ⟨1, ![64]⟩
abbrev S524288x64 : Shape := ⟨2, ![524288, 64]⟩
abbrev S64x64 : Shape := ⟨2, ![64, 64]⟩
abbrev S64x1 : Shape := ⟨2, ![64, 1]⟩
abbrev S1x64 : Shape := ⟨2, ![1, 64]⟩
abbrev S1x524288 : Shape := ⟨2, ![1, 524288]⟩

abbrev nBuf : Space → Nat
  | .hbm => 65
  | .vmem => 0
  | .smem => 0
  | _ => 0

abbrev bufTy : (tb : Table) → Fin (tcTables nBuf tb) → BufTy
  | .hbm, ⟨0, _⟩ => ⟨S64x4096x128, .f32⟩
  | .hbm, ⟨1, _⟩ => ⟨S4096x128, .f32⟩
  | .hbm, ⟨2, _⟩ => ⟨S4096, .f32⟩
  | .hbm, ⟨3, _⟩ => ⟨S64x524288, .f32⟩
  | .hbm, ⟨4, _⟩ => ⟨S524288, .f32⟩
  | .hbm, ⟨5, _⟩ => ⟨S64x524288, .f32⟩
  | .hbm, ⟨6, _⟩ => ⟨S_, .f32⟩
  | .hbm, ⟨7, _⟩ => ⟨S64, .f32⟩
  | .hbm, ⟨8, _⟩ => ⟨S524288x64, .f32⟩
  | .hbm, ⟨9, _⟩ => ⟨S64x64, .f32⟩
  | .hbm, ⟨10, _⟩ => ⟨S64x1, .f32⟩
  | .hbm, ⟨11, _⟩ => ⟨S1x64, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S_, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S_, .f32⟩
  | .hbm, ⟨20, _⟩ => ⟨S64x64, .f32⟩
  | .hbm, ⟨21, _⟩ => ⟨S64x64, .f32⟩
  | .hbm, ⟨22, _⟩ => ⟨S_, .f32⟩
  | .hbm, ⟨23, _⟩ => ⟨S64x64, .f32⟩
  | .hbm, ⟨24, _⟩ => ⟨S64x64, .f32⟩
  | .hbm, ⟨25, _⟩ => ⟨S64x64, .f32⟩
  | .hbm, ⟨26, _⟩ => ⟨S_, .f32⟩
  | .hbm, ⟨27, _⟩ => ⟨S_, .f32⟩
  | .hbm, ⟨28, _⟩ => ⟨S64x64, .i32⟩
  | .hbm, ⟨29, _⟩ => ⟨S64x64, .i32⟩
  | .hbm, ⟨30, _⟩ => ⟨S_, .i32⟩
  | .hbm, ⟨31, _⟩ => ⟨S64x64, .i32⟩
  | .hbm, ⟨32, _⟩ => ⟨S64x64, .i32⟩
  | .hbm, ⟨33, _⟩ => ⟨S64x64, .i1⟩
  | .hbm, ⟨34, _⟩ => ⟨S_, .f32⟩
  | .hbm, ⟨35, _⟩ => ⟨S64x64, .f32⟩
  | .hbm, ⟨36, _⟩ => ⟨S64x64, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S1x524288, .f32⟩
  | .hbm, ⟨45, _⟩ => ⟨S64x524288, .f32⟩
  | .hbm, ⟨46, _⟩ => ⟨S64x524288, .f32⟩
  | .hbm, ⟨47, _⟩ => ⟨S64x524288, .f32⟩
  | .hbm, ⟨48, _⟩ => ⟨S_, .f32⟩
  | .hbm, ⟨49, _⟩ => ⟨S64, .f32⟩
  | .hbm, ⟨50, _⟩ => ⟨S_, .f32⟩
  | .hbm, ⟨51, _⟩ => ⟨S64, .f32⟩
  | .hbm, ⟨52, _⟩ => ⟨S64, .f32⟩
  | .hbm, ⟨53, _⟩ => ⟨S64, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | _, _ => ⟨S64x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_call0_v0 : Ref sig .tc := ⟨.hbm, 28, rfl⟩
abbrev main_call0_v1 : Ref sig .tc := ⟨.hbm, 29, rfl⟩
abbrev main_call0_c : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_cst : Ref sig .tc := ⟨.hbm, 34, rfl⟩
abbrev main_call0_v5 : Ref sig .tc := ⟨.hbm, 35, rfl⟩
abbrev main_call0_v6 : Ref sig .tc := ⟨.hbm, 36, rfl⟩
abbrev main_call0_cst_0 : Ref sig .tc := ⟨.hbm, 37, rfl⟩
abbrev main_v20 : Ref sig .tc := ⟨.hbm, 38, rfl⟩
abbrev main_v21 : Ref sig .tc := ⟨.hbm, 39, rfl⟩
abbrev main_cst_4 : Ref sig .tc := ⟨.hbm, 40, rfl⟩
abbrev main_v22 : Ref sig .tc := ⟨.hbm, 41, rfl⟩
abbrev main_cst_5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_6 : Ref sig .tc := ⟨.hbm, 48, rfl⟩
abbrev main_v28 : Ref sig .tc := ⟨.hbm, 49, rfl⟩
abbrev main_cst_7 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_8 : Ref sig .tc := ⟨.hbm, 54, rfl⟩
abbrev main_v32 : Ref sig .tc := ⟨.hbm, 55, rfl⟩
abbrev main_cst_9 : Ref sig .tc := ⟨.hbm, 56, rfl⟩
abbrev main_v33 : Ref sig .tc := ⟨.hbm, 57, rfl⟩
abbrev main_v34 : Ref sig .tc := ⟨.hbm, 58, rfl⟩
abbrev main_cst_10 : Ref sig .tc := ⟨.hbm, 59, rfl⟩
abbrev main_cst_11 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_v35 : Ref sig .tc := ⟨.hbm, 64, rfl⟩

abbrev nD : Nat := 1
abbrev τ : Topo := Topo.v7x

variable {F : FTy → Type} [FloatOps F]

class Facts₀ : Prop where
  shapeCasts_S64x4096x128_S64x524288 : S64x4096x128.ShapeCasts S64x524288
  shapeCasts_S4096x128_S524288 : S4096x128.ShapeCasts S524288
  reducesTo_S64x524288_S64_d1 : S64x524288.ReducesTo [1] S64
  h_S_ : 0 < S_.numel
  transposes_S64x524288_S524288x64_1_0 : S64x524288.Transposes [1, 0] S524288x64
  bcast_S64_S64x1_0 : S64.BroadcastsInDim S64x1 (![0] : Fin 1 → Fin S64x1.rank)
  bcast_S64_S1x64_1 : S64.BroadcastsInDim S1x64 (![1] : Fin 1 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  reducesTo_S64x64_S_d0_1 : S64x64.ReducesTo [0, 1] S_
  bcast_S524288_S1x524288_1 : S524288.BroadcastsInDim S1x524288 (![1] : Fin 1 → Fin S1x524288.rank)
  bcast_S1x524288_S64x524288_0_1 : S1x524288.BroadcastsInDim S64x524288 (![0, 1] : Fin 2 → Fin S64x524288.rank)
  bcast_S_S64 : S_.BroadcastsInDim S64 (![] : Fin 0 → Fin S64.rank)
  reducesTo_S64_S_d0 : S64.ReducesTo [0] S_
  dot_S64x524288_S524288x64_S64x64_1_0_0_1_n_n_wf : DotDims.WF S64x524288 S524288x64 S64x64 [1] [0] [0] [1] [] []

variable [Facts₀]

def dot_S64x524288_S524288x64_S64x64_1_0_0_1_n_n : DotDims S64x524288 S524288x64 S64x64 where
  lhsContracting := [1]
  rhsContracting := [0]
  lhsNonContracting := [0]
  rhsNonContracting := [1]
  lhsBatch := []
  rhsBatch := []
  wf := dot_S64x524288_S524288x64_S64x64_1_0_0_1_n_n_wf

class Facts : Prop extends Facts₀ where

variable [Facts]
-- ==== Proof.BitsAround.lean ====
/-
  @main of the score program around its one region: two reshapes flatten the samples to 64 × 524288 and the target to
  1 × 524288, the region accumulates the four partial sums per half of the lanes, and the lines after it add the halves
  and finish the score. Stated here: what each buffer holds when the region is entered, that the later lines touch only
  buffers of their own (never one of the region's six arrays, never an argument), the block of each window at a grid
  point, and how the frame claim follows from a run that ends at the library's frame post.
-/
import proofs.«113203_j56899726737831_2_alg».proof.Proof.Gen.Kernel.Launch
import proofs.«113203_j56899726737831_2_alg».proof.Proof.Gen.Kernel.Skeleton
import proofs.«113203_j56899726737831_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffers when the region is entered: the launch contents after the two reshapes. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The lines after the region, stretch by stretch: the halves' sums and the distance matrix, the masked diagonal,
    the two means, the clip, the final reshape. -/
abbrev tailOps : List (List (HloOp τ sig (Elt F))) := [hostOps1, hostOps1_1, hostOps1_2, hostOps1_3, hostOps1_4]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- No line after the region writes one of the region's six arrays: each writes its own result buffer. -/
theorem hostOps1_keeps : (hostOps1 : List (HloOp τ sig (Elt F))).Forall fun op => ∀ w, Proc.devRef .tc (Pipeline.arrRef spec0 w) ∉ op.writes := by
  simp only [hostOps1, List.Forall, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
theorem hostOps1_1_keeps : (hostOps1_1 : List (HloOp τ sig (Elt F))).Forall fun op => ∀ w, Proc.devRef .tc (Pipeline.arrRef spec0 w) ∉ op.writes := by
  simp only [hostOps1_1, List.Forall, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
theorem hostOps1_2_keeps : (hostOps1_2 : List (HloOp τ sig (Elt F))).Forall fun op => ∀ w, Proc.devRef .tc (Pipeline.arrRef spec0 w) ∉ op.writes := by
  simp only [hostOps1_2, List.Forall, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
theorem hostOps1_3_keeps : (hostOps1_3 : List (HloOp τ sig (Elt F))).Forall fun op => ∀ w, Proc.devRef .tc (Pipeline.arrRef spec0 w) ∉ op.writes := by
  simp only [hostOps1_3, List.Forall, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
theorem hostOps1_4_keeps : (hostOps1_4 : List (HloOp τ sig (Elt F))).Forall fun op => ∀ w, Proc.devRef .tc (Pipeline.arrRef spec0 w) ∉ op.writes := by
  simp only [hostOps1_4, List.Forall, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)

/-- @main is the two reshapes, the region, and the later lines: it reduces to the region continued by those lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

theorem sfx_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop

/-! ## The arguments, before and after -/

/-- No line before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No line after the region writes `main_arg0`, and it is none of the region's arrays: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ (List.forall_iff_forall_mem.mp (by
      simp only [tailOps, hostOps1, hostOps1_1, hostOps1_2, hostOps1_3, hostOps1_4, List.flatten_cons, List.flatten_nil, List.append_nil, List.cons_append, List.nil_append, List.Forall, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No line before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No line after the region writes `main_arg1`, and it is none of the region's arrays: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (List.forall_iff_forall_mem.mp (by
      simp only [tailOps, hostOps1, hostOps1_1, hostOps1_2, hostOps1_3, hostOps1_4, List.flatten_cons, List.flatten_nil, List.append_nil, List.cons_append, List.nil_append, List.Forall, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No line before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No line after the region writes `main_arg2`, and it is none of the region's arrays: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (List.forall_iff_forall_mem.mp (by
      simp only [tailOps, hostOps1, hostOps1_1, hostOps1_2, hostOps1_3, hostOps1_4, List.flatten_cons, List.flatten_nil, List.append_nil, List.cons_append, List.nil_append, List.Forall, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0 (the samples' 32768 lanes of the point's tile) is fetched at every point: its current staging
    buffer holds its block, for any proof data whose array is the region-entry one and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1 (the target's 32768 lanes of the point's tile) is fetched at every point: its current staging
    buffer holds its block, for any proof data whose array is the region-entry one and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a frame run -/

/-- A run that ends at the library's frame post, read at the three argument arrays: none is a window's array, so each
    is at the later lines' contents, which are the launch ones. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c)⟩) h

/-! ## The body's one branch -/

/-- The body resets its four accumulators when the tile coordinate is zero. -/
abbrev cond0_0 (i : grid0.Coords) : Prop := (Scalar.cmpi .ne (Scalar.extui (Scalar.cmpi .eq (BitVec.ofNat 32 (i 1).val) 0#32)) 0#32) = 1#1
/-- That is at the first of each half's eight points. -/
theorem hcond0_0 : ∀ t : Fin cfg0.N, cond0_0 (grid0.coords t) ↔ t.val % 8 = 0 :=
  (by decide +kernel : ∀ t : Fin grid0.N, cond0_0 (grid0.coords t) ↔ t.val % 8 = 0)

/-! ## Staging memrefs -/

/-- One staging buffer of output window 2, through which its contents are stated. -/
abbrev VO0_2 : View sig .tc .vmem S1x64x64 .f32 := (Memref.whole cc0_stg2_0 : Memref sig .tc .vmem S1x64x64 .f32).view
/-- One staging buffer of output window 3, through which its contents are stated. -/
abbrev VO0_3 : View sig .tc .vmem S1x64x1 .f32 := (Memref.whole cc0_stg3_0 : Memref sig .tc .vmem S1x64x1 .f32).view
/-- One staging buffer of output window 4, through which its contents are stated. -/
abbrev VO0_4 : View sig .tc .vmem S1x1x1 .f32 := (Memref.whole cc0_stg4_0 : Memref sig .tc .vmem S1x1x1 .f32).view
/-- One staging buffer of output window 5, through which its contents are stated. -/
abbrev VO0_5 : View sig .tc .vmem S1x64x1 .f32 := (Memref.whole cc0_stg5_0 : Memref sig .tc .vmem S1x64x1 .f32).view
abbrev ms0_0 (t : Fin cfg0.N) : Memref sig .tc .vmem S64x32768 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x32768 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x64x1 .f32 := win0_5.stage (cfg0.slots t 5)
abbrev hs0_5 (t : Fin cfg0.N) : (ms0_5 t).IsWhole := hstage0_5 ((cfg0.slots t 5).cast nbuf0_5)

end Cert.Kernel.Around

end
-- ==== Proof.BitsResetRun.lean ====
/-
  The body at the first tile of a half (tile coordinate zero): it zeroes the four accumulators, then for each of the
  four lane chunks of 8192 adds the chunk's Gram block, its products with the target, the target's squares and the
  samples' squares. On whole staging memrefs, the inputs at their blocks and the outputs at anything, it runs to the end
  leaving the inputs as they were and each output with the pieces its stores wrote.
-/
import proofs.«113203_j56899726737831_2_alg».proof.Proof.BitsAround

set_option maxRecDepth 16384

noncomputable section

namespace Cert.Kernel.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces each accumulator ends with at a first tile, with the proof that the body runs there. -/
noncomputable def resetRun (c : Dev nD) (i : grid0.Coords) (arg2 : Memref sig .tc .vmem S64x32768 .f32) (harg2 : arg2.IsWhole) (arg3 : Memref sig .tc .vmem S1x32768 .f32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x1x1 .f32) (harg6 : arg6.IsWhole) (arg7 : Memref sig .tc .vmem S1x64x1 .f32) (harg7 : arg7.IsWhole) (hc0 : cond0_0 i)
    (x0 : Vec F S64x32768 .f32) (x1 : Vec F S1x32768 .f32) :
    Σ' (L4 : List (View.Piece (Elt F) S1x64x64 .f32)), Σ' (L5 : List (View.Piece (Elt F) S1x64x1 .f32)), Σ' (L6 : List (View.Piece (Elt F) S1x1x1 .f32)), { L7 : List (View.Piece (Elt F) S1x64x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7)) -∗ K ⟨⟩))
          ⊢ wp frame (wpE (defs₀ (F := F)) Variants.none c none) E (cc0__reduce_kernel i arg2 harg2 arg3 harg3 arg4 harg4 arg5 harg5 arg6 harg6 arg7 harg7) K } := by
  refine ⟨?_, ?_, ?_, ?_, fun E K => ?run⟩
  case run =>
    simp only [cc0__reduce_kernel_eq_skeleton]; unfold cc0__reduce_kernel_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%d4, %f4, -, H4⟩, ⟨%d5, %f5, -, H5⟩, ⟨%d6, %f6, -, H6⟩, ⟨%d7, %f7, -, H7⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H4]; · iexists _; iexact H4
    isplitl [H5]; · iexists _; iexact H5
    isplitl [H6]; · iexists _; iexact H6
    iexists _; iexact H7

end Cert.Kernel.Around

end
-- ==== Proof.BitsAccumRun.lean ====
/-
  The body at a later tile of a half (tile coordinate not zero): no reset; for each of the four lane chunks of 8192 it
  adds to the running accumulators the chunk's Gram block, its products with the target, the target's squares and the
  samples' squares. On whole staging memrefs, the inputs at their blocks and each output at its running contents, it
  runs to the end leaving the inputs as they were and each output with the pieces its stores wrote.
-/
import proofs.«113203_j56899726737831_2_alg».proof.Proof.BitsResetRun

set_option maxRecDepth 16384

noncomputable section

namespace Cert.Kernel.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces each accumulator ends with at a later tile, over what the tile before left, with the proof that the
    body runs there. -/
noncomputable def accumRun (c : Dev nD) (i : grid0.Coords) (arg2 : Memref sig .tc .vmem S64x32768 .f32) (harg2 : arg2.IsWhole) (arg3 : Memref sig .tc .vmem S1x32768 .f32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x1x1 .f32) (harg6 : arg6.IsWhole) (arg7 : Memref sig .tc .vmem S1x64x1 .f32) (harg7 : arg7.IsWhole) (hc0 : ¬cond0_0 i)
    (x0 : Vec F S64x32768 .f32) (x1 : Vec F S1x32768 .f32) (xo4 : Vec F S1x64x64 .f32) (xo5 : Vec F S1x64x1 .f32) (xo6 : Vec F S1x1x1 .f32) (xo7 : Vec F S1x64x1 .f32) :
    Σ' (L4 : List (View.Piece (Elt F) S1x64x64 .f32)), Σ' (L5 : List (View.Piece (Elt F) S1x64x1 .f32)), Σ' (L6 : List (View.Piece (Elt F) S1x1x1 .f32)), { L7 : List (View.Piece (Elt F) S1x64x1 .f32) //
      ∀ (E : Set ℕ) (K : PUnit → sProp 𝕄),
        iprop(owns (c : Thread nD τ) arg2 fullShare x0 ∗ owns (c : Thread nD τ) arg3 fullShare x1 ∗ owns (c : Thread nD τ) arg4 fullShare xo4 ∗ owns (c : Thread nD τ) arg5 fullShare xo5 ∗ owns (c : Thread nD τ) arg6 fullShare xo6 ∗ owns (c : Thread nD τ) arg7 fullShare xo7
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7)) -∗ K ⟨⟩))
          ⊢ wp frame (wpE (defs₀ (F := F)) Variants.none c none) E (cc0__reduce_kernel i arg2 harg2 arg3 harg3 arg4 harg4 arg5 harg5 arg6 harg6 arg7 harg7) K } := by
  refine ⟨?_, ?_, ?_, ?_, fun E K => ?run⟩
  case run =>
    simp only [cc0__reduce_kernel_eq_skeleton]; unfold cc0__reduce_kernel_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f4, %hf4, H4⟩, ⟨%f5, %hf5, H5⟩, ⟨%f6, %hf6, H6⟩, ⟨%f7, %hf7, H7⟩, Hk⟩
    obtain rfl := harg2.eq_unread hf0; obtain rfl := harg3.eq_unread hf1
    obtain rfl := harg4.eq_unread hf4; obtain rfl := harg5.eq_unread hf5; obtain rfl := harg6.eq_unread hf6; obtain rfl := harg7.eq_unread hf7
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H4]; · iexists _; iexact H4
    isplitl [H5]; · iexists _; iexact H5
    isplitl [H6]; · iexists _; iexact H6
    iexists _; iexact H7

end Cert.Kernel.Around

end
-- ==== Proof.BitsFrame.lean ====
/-
  The frame of the score program: what the four accumulators hold after each grid point — a half's first tile resets
  them and adds its four chunks, every later tile adds its four chunks to what the tile before left, and the eighth
  tile's contents are written back as the half's partial sums —, the proof data of the pipeline over that, the body's
  obligation at a generic point (by the tile coordinate's case), the run of @main around the region and the frame claim.
-/
import proofs.«113203_j56899726737831_2_alg».proof.Proof.BitsAccumRun

set_option maxRecDepth 16384

noncomputable section

namespace Cert.Kernel.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- At a first tile the stores into the accumulator of the Gram block tile its block, so they cover it. -/
theorem coverReset_4 (c : Dev nD) (i : grid0.Coords) (arg2 : Memref sig .tc .vmem S64x32768 .f32) (harg2 : arg2.IsWhole) (arg3 : Memref sig .tc .vmem S1x32768 .f32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x1x1 .f32) (harg6 : arg6.IsWhole) (arg7 : Memref sig .tc .vmem S1x64x1 .f32) (harg7 : arg7.IsWhole) (hc0 : cond0_0 i)
    (x0 : Vec F S64x32768 .f32) (x1 : Vec F S1x32768 .f32) (y : S1x64x64.Idx) :
    ∃ pc ∈ (resetRun c i arg2 harg2 arg3 harg3 arg4 harg4 arg5 harg5 arg6 harg6 arg7 harg7 hc0 x0 x1).1, y ∈ pc.1.set :=
  View.cover_of_tiledL (resetRun c i arg2 harg2 arg3 harg3 arg4 harg4 arg5 harg5 arg6 harg6 arg7 harg7 hc0 x0 x1).1 S1x64x64.size (by sl_kernel_rfl) y

/-- What a first tile leaves in that accumulator: its pieces read back. -/
def outReset_4 (c : Dev nD) (i : grid0.Coords) (arg2 : Memref sig .tc .vmem S64x32768 .f32) (harg2 : arg2.IsWhole) (arg3 : Memref sig .tc .vmem S1x32768 .f32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x1x1 .f32) (harg6 : arg6.IsWhole) (arg7 : Memref sig .tc .vmem S1x64x1 .f32) (harg7 : arg7.IsWhole) (hc0 : cond0_0 i)
    (x0 : Vec F S64x32768 .f32) (x1 : Vec F S1x32768 .f32) : Vec F S1x64x64 .f32 :=
  VO0_2.read (Elt F) (VO0_2.writes (Elt F) VO0_2.junk (resetRun c i arg2 harg2 arg3 harg3 arg4 harg4 arg5 harg5 arg6 harg6 arg7 harg7 hc0 x0 x1).1)

/-- At a first tile the stores into the accumulator of the products with the target tile its block, so they cover it. -/
theorem coverReset_5 (c : Dev nD) (i : grid0.Coords) (arg2 : Memref sig .tc .vmem S64x32768 .f32) (harg2 : arg2.IsWhole) (arg3 : Memref sig .tc .vmem S1x32768 .f32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x1x1 .f32) (harg6 : arg6.IsWhole) (arg7 : Memref sig .tc .vmem S1x64x1 .f32) (harg7 : arg7.IsWhole) (hc0 : cond0_0 i)
    (x0 : Vec F S64x32768 .f32) (x1 : Vec F S1x32768 .f32) (y : S1x64x1.Idx) :
    ∃ pc ∈ (resetRun c i arg2 harg2 arg3 harg3 arg4 harg4 arg5 harg5 arg6 harg6 arg7 harg7 hc0 x0 x1).2.1, y ∈ pc.1.set :=
  View.cover_of_tiledL (resetRun c i arg2 harg2 arg3 harg3 arg4 harg4 arg5 harg5 arg6 harg6 arg7 harg7 hc0 x0 x1).2.1 S1x64x1.size (by sl_kernel_rfl) y

/-- What a first tile leaves in that accumulator: its pieces read back. -/
def outReset_5 (c : Dev nD) (i : grid0.Coords) (arg2 : Memref sig .tc .vmem S64x32768 .f32) (harg2 : arg2.IsWhole) (arg3 : Memref sig .tc .vmem S1x32768 .f32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x1x1 .f32) (harg6 : arg6.IsWhole) (arg7 : Memref sig .tc .vmem S1x64x1 .f32) (harg7 : arg7.IsWhole) (hc0 : cond0_0 i)
    (x0 : Vec F S64x32768 .f32) (x1 : Vec F S1x32768 .f32) : Vec F S1x64x1 .f32 :=
  VO0_3.read (Elt F) (VO0_3.writes (Elt F) VO0_3.junk (resetRun c i arg2 harg2 arg3 harg3 arg4 harg4 arg5 harg5 arg6 harg6 arg7 harg7 hc0 x0 x1).2.1)

/-- At a first tile the stores into the accumulator of the target's squares tile its block, so they cover it. -/
theorem coverReset_6 (c : Dev nD) (i : grid0.Coords) (arg2 : Memref sig .tc .vmem S64x32768 .f32) (harg2 : arg2.IsWhole) (arg3 : Memref sig .tc .vmem S1x32768 .f32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x1x1 .f32) (harg6 : arg6.IsWhole) (arg7 : Memref sig .tc .vmem S1x64x1 .f32) (harg7 : arg7.IsWhole) (hc0 : cond0_0 i)
    (x0 : Vec F S64x32768 .f32) (x1 : Vec F S1x32768 .f32) (y : S1x1x1.Idx) :
    ∃ pc ∈ (resetRun c i arg2 harg2 arg3 harg3 arg4 harg4 arg5 harg5 arg6 harg6 arg7 harg7 hc0 x0 x1).2.2.1, y ∈ pc.1.set :=
  View.cover_of_tiledL (resetRun c i arg2 harg2 arg3 harg3 arg4 harg4 arg5 harg5 arg6 harg6 arg7 harg7 hc0 x0 x1).2.2.1 S1x1x1.size (by sl_kernel_rfl) y

/-- What a first tile leaves in that accumulator: its pieces read back. -/
def outReset_6 (c : Dev nD) (i : grid0.Coords) (arg2 : Memref sig .tc .vmem S64x32768 .f32) (harg2 : arg2.IsWhole) (arg3 : Memref sig .tc .vmem S1x32768 .f32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x1x1 .f32) (harg6 : arg6.IsWhole) (arg7 : Memref sig .tc .vmem S1x64x1 .f32) (harg7 : arg7.IsWhole) (hc0 : cond0_0 i)
    (x0 : Vec F S64x32768 .f32) (x1 : Vec F S1x32768 .f32) : Vec F S1x1x1 .f32 :=
  VO0_4.read (Elt F) (VO0_4.writes (Elt F) VO0_4.junk (resetRun c i arg2 harg2 arg3 harg3 arg4 harg4 arg5 harg5 arg6 harg6 arg7 harg7 hc0 x0 x1).2.2.1)

/-- At a first tile the stores into the accumulator of the samples' squares tile its block, so they cover it. -/
theorem coverReset_7 (c : Dev nD) (i : grid0.Coords) (arg2 : Memref sig .tc .vmem S64x32768 .f32) (harg2 : arg2.IsWhole) (arg3 : Memref sig .tc .vmem S1x32768 .f32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x1x1 .f32) (harg6 : arg6.IsWhole) (arg7 : Memref sig .tc .vmem S1x64x1 .f32) (harg7 : arg7.IsWhole) (hc0 : cond0_0 i)
    (x0 : Vec F S64x32768 .f32) (x1 : Vec F S1x32768 .f32) (y : S1x64x1.Idx) :
    ∃ pc ∈ (resetRun c i arg2 harg2 arg3 harg3 arg4 harg4 arg5 harg5 arg6 harg6 arg7 harg7 hc0 x0 x1).2.2.2.1, y ∈ pc.1.set :=
  View.cover_of_tiledL (resetRun c i arg2 harg2 arg3 harg3 arg4 harg4 arg5 harg5 arg6 harg6 arg7 harg7 hc0 x0 x1).2.2.2.1 S1x64x1.size (by sl_kernel_rfl) y

/-- What a first tile leaves in that accumulator: its pieces read back. -/
def outReset_7 (c : Dev nD) (i : grid0.Coords) (arg2 : Memref sig .tc .vmem S64x32768 .f32) (harg2 : arg2.IsWhole) (arg3 : Memref sig .tc .vmem S1x32768 .f32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x1x1 .f32) (harg6 : arg6.IsWhole) (arg7 : Memref sig .tc .vmem S1x64x1 .f32) (harg7 : arg7.IsWhole) (hc0 : cond0_0 i)
    (x0 : Vec F S64x32768 .f32) (x1 : Vec F S1x32768 .f32) : Vec F S1x64x1 .f32 :=
  VO0_5.read (Elt F) (VO0_5.writes (Elt F) VO0_5.junk (resetRun c i arg2 harg2 arg3 harg3 arg4 harg4 arg5 harg5 arg6 harg6 arg7 harg7 hc0 x0 x1).2.2.2.1)

/-- At a later tile the stores into the accumulator of the Gram block tile its block, so they cover it. -/
theorem coverAccum_4 (c : Dev nD) (i : grid0.Coords) (arg2 : Memref sig .tc .vmem S64x32768 .f32) (harg2 : arg2.IsWhole) (arg3 : Memref sig .tc .vmem S1x32768 .f32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x1x1 .f32) (harg6 : arg6.IsWhole) (arg7 : Memref sig .tc .vmem S1x64x1 .f32) (harg7 : arg7.IsWhole) (hc0 : ¬cond0_0 i)
    (x0 : Vec F S64x32768 .f32) (x1 : Vec F S1x32768 .f32) (xo4 : Vec F S1x64x64 .f32) (xo5 : Vec F S1x64x1 .f32) (xo6 : Vec F S1x1x1 .f32) (xo7 : Vec F S1x64x1 .f32) (y : S1x64x64.Idx) :
    ∃ pc ∈ (accumRun c i arg2 harg2 arg3 harg3 arg4 harg4 arg5 harg5 arg6 harg6 arg7 harg7 hc0 x0 x1 xo4 xo5 xo6 xo7).1, y ∈ pc.1.set :=
  View.cover_of_tiledL (accumRun c i arg2 harg2 arg3 harg3 arg4 harg4 arg5 harg5 arg6 harg6 arg7 harg7 hc0 x0 x1 xo4 xo5 xo6 xo7).1 S1x64x64.size (by sl_kernel_rfl) y

/-- What a later tile leaves in that accumulator, over what the tile before left: its pieces read back. -/
def outAccum_4 (c : Dev nD) (i : grid0.Coords) (arg2 : Memref sig .tc .vmem S64x32768 .f32) (harg2 : arg2.IsWhole) (arg3 : Memref sig .tc .vmem S1x32768 .f32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x1x1 .f32) (harg6 : arg6.IsWhole) (arg7 : Memref sig .tc .vmem S1x64x1 .f32) (harg7 : arg7.IsWhole) (hc0 : ¬cond0_0 i)
    (x0 : Vec F S64x32768 .f32) (x1 : Vec F S1x32768 .f32) (xo4 : Vec F S1x64x64 .f32) (xo5 : Vec F S1x64x1 .f32) (xo6 : Vec F S1x1x1 .f32) (xo7 : Vec F S1x64x1 .f32) : Vec F S1x64x64 .f32 :=
  VO0_2.read (Elt F) (VO0_2.writes (Elt F) VO0_2.junk (accumRun c i arg2 harg2 arg3 harg3 arg4 harg4 arg5 harg5 arg6 harg6 arg7 harg7 hc0 x0 x1 xo4 xo5 xo6 xo7).1)

/-- At a later tile the stores into the accumulator of the products with the target tile its block, so they cover it. -/
theorem coverAccum_5 (c : Dev nD) (i : grid0.Coords) (arg2 : Memref sig .tc .vmem S64x32768 .f32) (harg2 : arg2.IsWhole) (arg3 : Memref sig .tc .vmem S1x32768 .f32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x1x1 .f32) (harg6 : arg6.IsWhole) (arg7 : Memref sig .tc .vmem S1x64x1 .f32) (harg7 : arg7.IsWhole) (hc0 : ¬cond0_0 i)
    (x0 : Vec F S64x32768 .f32) (x1 : Vec F S1x32768 .f32) (xo4 : Vec F S1x64x64 .f32) (xo5 : Vec F S1x64x1 .f32) (xo6 : Vec F S1x1x1 .f32) (xo7 : Vec F S1x64x1 .f32) (y : S1x64x1.Idx) :
    ∃ pc ∈ (accumRun c i arg2 harg2 arg3 harg3 arg4 harg4 arg5 harg5 arg6 harg6 arg7 harg7 hc0 x0 x1 xo4 xo5 xo6 xo7).2.1, y ∈ pc.1.set :=
  View.cover_of_tiledL (accumRun c i arg2 harg2 arg3 harg3 arg4 harg4 arg5 harg5 arg6 harg6 arg7 harg7 hc0 x0 x1 xo4 xo5 xo6 xo7).2.1 S1x64x1.size (by sl_kernel_rfl) y

/-- What a later tile leaves in that accumulator, over what the tile before left: its pieces read back. -/
def outAccum_5 (c : Dev nD) (i : grid0.Coords) (arg2 : Memref sig .tc .vmem S64x32768 .f32) (harg2 : arg2.IsWhole) (arg3 : Memref sig .tc .vmem S1x32768 .f32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x1x1 .f32) (harg6 : arg6.IsWhole) (arg7 : Memref sig .tc .vmem S1x64x1 .f32) (harg7 : arg7.IsWhole) (hc0 : ¬cond0_0 i)
    (x0 : Vec F S64x32768 .f32) (x1 : Vec F S1x32768 .f32) (xo4 : Vec F S1x64x64 .f32) (xo5 : Vec F S1x64x1 .f32) (xo6 : Vec F S1x1x1 .f32) (xo7 : Vec F S1x64x1 .f32) : Vec F S1x64x1 .f32 :=
  VO0_3.read (Elt F) (VO0_3.writes (Elt F) VO0_3.junk (accumRun c i arg2 harg2 arg3 harg3 arg4 harg4 arg5 harg5 arg6 harg6 arg7 harg7 hc0 x0 x1 xo4 xo5 xo6 xo7).2.1)

/-- At a later tile the stores into the accumulator of the target's squares tile its block, so they cover it. -/
theorem coverAccum_6 (c : Dev nD) (i : grid0.Coords) (arg2 : Memref sig .tc .vmem S64x32768 .f32) (harg2 : arg2.IsWhole) (arg3 : Memref sig .tc .vmem S1x32768 .f32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x1x1 .f32) (harg6 : arg6.IsWhole) (arg7 : Memref sig .tc .vmem S1x64x1 .f32) (harg7 : arg7.IsWhole) (hc0 : ¬cond0_0 i)
    (x0 : Vec F S64x32768 .f32) (x1 : Vec F S1x32768 .f32) (xo4 : Vec F S1x64x64 .f32) (xo5 : Vec F S1x64x1 .f32) (xo6 : Vec F S1x1x1 .f32) (xo7 : Vec F S1x64x1 .f32) (y : S1x1x1.Idx) :
    ∃ pc ∈ (accumRun c i arg2 harg2 arg3 harg3 arg4 harg4 arg5 harg5 arg6 harg6 arg7 harg7 hc0 x0 x1 xo4 xo5 xo6 xo7).2.2.1, y ∈ pc.1.set :=
  View.cover_of_tiledL (accumRun c i arg2 harg2 arg3 harg3 arg4 harg4 arg5 harg5 arg6 harg6 arg7 harg7 hc0 x0 x1 xo4 xo5 xo6 xo7).2.2.1 S1x1x1.size (by sl_kernel_rfl) y

/-- What a later tile leaves in that accumulator, over what the tile before left: its pieces read back. -/
def outAccum_6 (c : Dev nD) (i : grid0.Coords) (arg2 : Memref sig .tc .vmem S64x32768 .f32) (harg2 : arg2.IsWhole) (arg3 : Memref sig .tc .vmem S1x32768 .f32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x1x1 .f32) (harg6 : arg6.IsWhole) (arg7 : Memref sig .tc .vmem S1x64x1 .f32) (harg7 : arg7.IsWhole) (hc0 : ¬cond0_0 i)
    (x0 : Vec F S64x32768 .f32) (x1 : Vec F S1x32768 .f32) (xo4 : Vec F S1x64x64 .f32) (xo5 : Vec F S1x64x1 .f32) (xo6 : Vec F S1x1x1 .f32) (xo7 : Vec F S1x64x1 .f32) : Vec F S1x1x1 .f32 :=
  VO0_4.read (Elt F) (VO0_4.writes (Elt F) VO0_4.junk (accumRun c i arg2 harg2 arg3 harg3 arg4 harg4 arg5 harg5 arg6 harg6 arg7 harg7 hc0 x0 x1 xo4 xo5 xo6 xo7).2.2.1)

/-- At a later tile the stores into the accumulator of the samples' squares tile its block, so they cover it. -/
theorem coverAccum_7 (c : Dev nD) (i : grid0.Coords) (arg2 : Memref sig .tc .vmem S64x32768 .f32) (harg2 : arg2.IsWhole) (arg3 : Memref sig .tc .vmem S1x32768 .f32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x1x1 .f32) (harg6 : arg6.IsWhole) (arg7 : Memref sig .tc .vmem S1x64x1 .f32) (harg7 : arg7.IsWhole) (hc0 : ¬cond0_0 i)
    (x0 : Vec F S64x32768 .f32) (x1 : Vec F S1x32768 .f32) (xo4 : Vec F S1x64x64 .f32) (xo5 : Vec F S1x64x1 .f32) (xo6 : Vec F S1x1x1 .f32) (xo7 : Vec F S1x64x1 .f32) (y : S1x64x1.Idx) :
    ∃ pc ∈ (accumRun c i arg2 harg2 arg3 harg3 arg4 harg4 arg5 harg5 arg6 harg6 arg7 harg7 hc0 x0 x1 xo4 xo5 xo6 xo7).2.2.2.1, y ∈ pc.1.set :=
  View.cover_of_tiledL (accumRun c i arg2 harg2 arg3 harg3 arg4 harg4 arg5 harg5 arg6 harg6 arg7 harg7 hc0 x0 x1 xo4 xo5 xo6 xo7).2.2.2.1 S1x64x1.size (by sl_kernel_rfl) y

/-- What a later tile leaves in that accumulator, over what the tile before left: its pieces read back. -/
def outAccum_7 (c : Dev nD) (i : grid0.Coords) (arg2 : Memref sig .tc .vmem S64x32768 .f32) (harg2 : arg2.IsWhole) (arg3 : Memref sig .tc .vmem S1x32768 .f32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x1x1 .f32) (harg6 : arg6.IsWhole) (arg7 : Memref sig .tc .vmem S1x64x1 .f32) (harg7 : arg7.IsWhole) (hc0 : ¬cond0_0 i)
    (x0 : Vec F S64x32768 .f32) (x1 : Vec F S1x32768 .f32) (xo4 : Vec F S1x64x64 .f32) (xo5 : Vec F S1x64x1 .f32) (xo6 : Vec F S1x1x1 .f32) (xo7 : Vec F S1x64x1 .f32) : Vec F S1x64x1 .f32 :=
  VO0_5.read (Elt F) (VO0_5.writes (Elt F) VO0_5.junk (accumRun c i arg2 harg2 arg3 harg3 arg4 harg4 arg5 harg5 arg6 harg6 arg7 harg7 hc0 x0 x1 xo4 xo5 xo6 xo7).2.2.2.1)

/-! ## What the accumulators hold after each point -/

/-- The accumulation: the four accumulators' contents after the body at position `n`, in window order. A first tile
    (`n % 8 = 0`) leaves what the reset case leaves; a later tile what the accumulating case leaves over position
    `n - 1` (the buffers are not written back between: that happens at the eighth tile only). -/
def outsAt0 (c : Dev nD) : (n : ℕ) → n < cfg0.N → Vec F S1x64x64 .f32 × Vec F S1x64x1 .f32 × Vec F S1x1x1 .f32 × Vec F S1x64x1 .f32
  | 0, hn => (outReset_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk m c 0 ⟨0, hn⟩) (iblk m c 1 ⟨0, hn⟩), outReset_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk m c 0 ⟨0, hn⟩) (iblk m c 1 ⟨0, hn⟩), outReset_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk m c 0 ⟨0, hn⟩) (iblk m c 1 ⟨0, hn⟩), outReset_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk m c 0 ⟨0, hn⟩) (iblk m c 1 ⟨0, hn⟩))
  | n + 1, hn =>
    if h0 : (n + 1) % 8 = 0 then
      (outReset_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk m c 0 ⟨n + 1, hn⟩) (iblk m c 1 ⟨n + 1, hn⟩), outReset_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk m c 0 ⟨n + 1, hn⟩) (iblk m c 1 ⟨n + 1, hn⟩), outReset_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk m c 0 ⟨n + 1, hn⟩) (iblk m c 1 ⟨n + 1, hn⟩), outReset_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk m c 0 ⟨n + 1, hn⟩) (iblk m c 1 ⟨n + 1, hn⟩))
    else
      (outAccum_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2, outAccum_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2, outAccum_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2, outAccum_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2)

/-- `outsAt0` at a first tile. -/
theorem outsAt0_reset (c : Dev nD) (t : Fin cfg0.N) (h0 : t.val % 8 = 0) :
    outsAt0 m c t.val t.isLt = (outReset_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t), outReset_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t), outReset_6 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t), outReset_7 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t)) := by
  obtain ⟨n, hn⟩ := t
  cases n with
  | zero => exact rfl
  | succ n => exact (dif_pos h0).trans rfl

/-- `outsAt0` at a later tile: over what the tile before left. -/
theorem outsAt0_accum (c : Dev nD) (t : Fin cfg0.N) (h0 : ¬t.val % 8 = 0) :
    outsAt0 m c t.val t.isLt = (outAccum_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, outAccum_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, outAccum_6 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, outAccum_7 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the pipeline on core `c`: the arrays as the region finds them; after the body at point `t`
    each input's buffer at its block and the accumulators' at `outsAt0`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
    | ⟨4, _⟩ => (outsAt0 m c t.val t.isLt).2.2.1
    | ⟨5, _⟩ => (outsAt0 m c t.val t.isLt).2.2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]
theorem after0_4 (c : Dev nD) (t : Fin cfg0.N) : (dats m 0 c).after 4 t = (outsAt0 m c t.val t.isLt).2.2.1 := by dsimp only [dats]
theorem after0_5 (c : Dev nD) (t : Fin cfg0.N) : (dats m 0 c).after 5 t = (outsAt0 m c t.val t.isLt).2.2.2 := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- At a later tile the accumulator of the Gram block holds what the tile before left: the point is not the first, and the
    buffer was not written back between (that happens after a half's eighth tile, and the next point is then a first tile). -/
theorem before0_2_accum (c : Dev nD) (t : Fin cfg0.N) (h0 : ¬t.val % 8 = 0) (d) :
    (dats m 0 c).before 2 t d = (outsAt0 m c (t.val - 1) (Nat.lt_of_le_of_lt (Nat.sub_le _ _) t.isLt)).1 := by
  have hN : t.val < 16 := lt_of_lt_of_eq t.isLt (show cfg0.N = 16 from N_0)
  rw [Dat.before_out_kept _ 2 rfl t (by omega) (Bool.eq_false_iff.mpr fun h => by have := (flush0_2 _).mp h; dsimp only at this; omega)
    (fun _ => rfl) (fun _ _ => rfl)]
  dsimp only [dats]
/-- At a later tile the accumulator of the products with the target holds what the tile before left: the point is not the first, and the
    buffer was not written back between (that happens after a half's eighth tile, and the next point is then a first tile). -/
theorem before0_3_accum (c : Dev nD) (t : Fin cfg0.N) (h0 : ¬t.val % 8 = 0) (d) :
    (dats m 0 c).before 3 t d = (outsAt0 m c (t.val - 1) (Nat.lt_of_le_of_lt (Nat.sub_le _ _) t.isLt)).2.1 := by
  have hN : t.val < 16 := lt_of_lt_of_eq t.isLt (show cfg0.N = 16 from N_0)
  rw [Dat.before_out_kept _ 3 rfl t (by omega) (Bool.eq_false_iff.mpr fun h => by have := (flush0_3 _).mp h; dsimp only at this; omega)
    (fun _ => rfl) (fun _ _ => rfl)]
  dsimp only [dats]
/-- At a later tile the accumulator of the target's squares holds what the tile before left: the point is not the first, and the
    buffer was not written back between (that happens after a half's eighth tile, and the next point is then a first tile). -/
theorem before0_4_accum (c : Dev nD) (t : Fin cfg0.N) (h0 : ¬t.val % 8 = 0) (d) :
    (dats m 0 c).before 4 t d = (outsAt0 m c (t.val - 1) (Nat.lt_of_le_of_lt (Nat.sub_le _ _) t.isLt)).2.2.1 := by
  have hN : t.val < 16 := lt_of_lt_of_eq t.isLt (show cfg0.N = 16 from N_0)
  rw [Dat.before_out_kept _ 4 rfl t (by omega) (Bool.eq_false_iff.mpr fun h => by have := (flush0_4 _).mp h; dsimp only at this; omega)
    (fun _ => rfl) (fun _ _ => rfl)]
  dsimp only [dats]
/-- At a later tile the accumulator of the samples' squares holds what the tile before left: the point is not the first, and the
    buffer was not written back between (that happens after a half's eighth tile, and the next point is then a first tile). -/
theorem before0_5_accum (c : Dev nD) (t : Fin cfg0.N) (h0 : ¬t.val % 8 = 0) (d) :
    (dats m 0 c).before 5 t d = (outsAt0 m c (t.val - 1) (Nat.lt_of_le_of_lt (Nat.sub_le _ _) t.isLt)).2.2.2 := by
  have hN : t.val < 16 := lt_of_lt_of_eq t.isLt (show cfg0.N = 16 from N_0)
  rw [Dat.before_out_kept _ 5 rfl t (by omega) (Bool.eq_false_iff.mpr fun h => by have := (flush0_5 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 1600000 in
/-- The body at any point: the inputs' memrefs hold their blocks; the tile coordinate's closed form says which case the
    point is in; at a later tile each accumulator holds what the tile before left; so that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  have hN : t.val < 16 := lt_of_lt_of_eq t.isLt (show cfg0.N = 16 from N_0)
  by_cases h0 : t.val % 8 = 0
  · rw [outsAt0_reset m c t h0]
    unfold outReset_4 outReset_5 outReset_6 outReset_7; (try dsimp only)
    iintro ⟨HΦ, Ho, ⟨%d0, H0⟩, ⟨%d1, H1⟩, ⟨%d2, H2⟩, ⟨%d3, H3⟩, ⟨%d4, H4⟩, ⟨%d5, H5⟩⟩
    iapply ((resetRun c (grid0.coords t) _ _ _ _ _ _ _ _ _ _ _ _ ((hcond0_0 t).mpr h0) (iblk m c 0 t) (iblk m c 1 t)).2.2.2.2 Set.univ _)
    isplitl [H0]; · iexact H0
    isplitl [H1]; · iexact H1
    isplitl [H2]; · iexists _; iexact H2
    isplitl [H3]; · iexists _; iexact H3
    isplitl [H4]; · iexists _; iexact H4
    isplitl [H5]; · iexists _; iexact H5
    iintro ⟨H0, H1, ⟨%e2, H2⟩, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverReset_4 c _ _ _ _ _ _ _ _ _ _ _ _ _ _ _ _)
    isplitl [H3]
    · unfold owns; iexists _; isplitr
      swap; · iexact H3
      ipureintro; exact View.read_writes_of_cover _ _ _ _ _ (coverReset_5 c _ _ _ _ _ _ _ _ _ _ _ _ _ _ _ _)
    isplitl [H4]
    · unfold owns; iexists _; isplitr
      swap; · iexact H4
      ipureintro; exact View.read_writes_of_cover _ _ _ _ _ (coverReset_6 c _ _ _ _ _ _ _ _ _ _ _ _ _ _ _ _)
    unfold owns; iexists _; isplitr
    swap; · iexact H5
    ipureintro; exact View.read_writes_of_cover _ _ _ _ _ (coverReset_7 c _ _ _ _ _ _ _ _ _ _ _ _ _ _ _ _)
  · rw [outsAt0_accum m c t h0]
    simp only [before0_2_accum m c t h0, before0_3_accum m c t h0, before0_4_accum m c t h0, before0_5_accum m c t h0]
    unfold outAccum_4 outAccum_5 outAccum_6 outAccum_7; (try dsimp only)
    iintro ⟨HΦ, Ho, ⟨%d0, H0⟩, ⟨%d1, H1⟩, ⟨%d2, H2⟩, ⟨%d3, H3⟩, ⟨%d4, H4⟩, ⟨%d5, H5⟩⟩
    iapply ((accumRun c (grid0.coords t) _ _ _ _ _ _ _ _ _ _ _ _ (fun h => h0 ((hcond0_0 t).mp h)) (iblk m c 0 t) (iblk m c 1 t) _ _ _ _).2.2.2.2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, ⟨%e2, H2⟩, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverAccum_4 c _ _ _ _ _ _ _ _ _ _ _ _ _ _ _ _ _ _ _ _)
    isplitl [H3]
    · unfold owns; iexists _; isplitr
      swap; · iexact H3
      ipureintro; exact View.read_writes_of_cover _ _ _ _ _ (coverAccum_5 c _ _ _ _ _ _ _ _ _ _ _ _ _ _ _ _ _ _ _ _)
    isplitl [H4]
    · unfold owns; iexists _; isplitr
      swap; · iexact H4
      ipureintro; exact View.read_writes_of_cover _ _ _ _ _ (coverAccum_6 c _ _ _ _ _ _ _ _ _ _ _ _ _ _ _ _ _ _ _ _)
    unfold owns; iexists _; isplitr
    swap; · iexact H5
    ipureintro; exact View.read_writes_of_cover _ _ _ _ _ (coverAccum_7 c _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and in every final state each of the region's arrays is at what
    the library computes from the proof data and every other buffer at the later lines' contents. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame: @main runs to the end, faults nowhere, and leaves its three arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.Kernel.Around

end
-- ==== Proof.IdealAround.lean ====
/-
  @main of the score program around its one region: two reshapes flatten the samples to 64 × 524288 and the target to
  1 × 524288, the region accumulates the four partial sums per half of the lanes, and the lines after it add the halves
  and finish the score. Stated here: what each buffer holds when the region is entered, that the later lines touch only
  buffers of their own (never one of the region's six arrays, never an argument), the block of each window at a grid
  point, and how the frame claim follows from a run that ends at the library's frame post.
-/
import proofs.«113203_j56899726737831_2_alg».proof.Proof.Gen.KernelIdeal.Launch
import proofs.«113203_j56899726737831_2_alg».proof.Proof.Gen.KernelIdeal.Skeleton
import proofs.«113203_j56899726737831_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffers when the region is entered: the launch contents after the two reshapes. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The lines after the region, stretch by stretch: the halves' sums and the distance matrix, the masked diagonal,
    the two means, the clip, the final reshape. -/
abbrev tailOps : List (List (HloOp τ sig (Elt F))) := [hostOps1, hostOps1_1, hostOps1_2, hostOps1_3, hostOps1_4]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- No line after the region writes one of the region's six arrays: each writes its own result buffer. -/
theorem hostOps1_keeps : (hostOps1 : List (HloOp τ sig (Elt F))).Forall fun op => ∀ w, Proc.devRef .tc (Pipeline.arrRef spec0 w) ∉ op.writes := by
  simp only [hostOps1, List.Forall, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
theorem hostOps1_1_keeps : (hostOps1_1 : List (HloOp τ sig (Elt F))).Forall fun op => ∀ w, Proc.devRef .tc (Pipeline.arrRef spec0 w) ∉ op.writes := by
  simp only [hostOps1_1, List.Forall, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
theorem hostOps1_2_keeps : (hostOps1_2 : List (HloOp τ sig (Elt F))).Forall fun op => ∀ w, Proc.devRef .tc (Pipeline.arrRef spec0 w) ∉ op.writes := by
  simp only [hostOps1_2, List.Forall, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
theorem hostOps1_3_keeps : (hostOps1_3 : List (HloOp τ sig (Elt F))).Forall fun op => ∀ w, Proc.devRef .tc (Pipeline.arrRef spec0 w) ∉ op.writes := by
  simp only [hostOps1_3, List.Forall, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
theorem hostOps1_4_keeps : (hostOps1_4 : List (HloOp τ sig (Elt F))).Forall fun op => ∀ w, Proc.devRef .tc (Pipeline.arrRef spec0 w) ∉ op.writes := by
  simp only [hostOps1_4, List.Forall, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)

/-- @main is the two reshapes, the region, and the later lines: it reduces to the region continued by those lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

theorem sfx_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop

/-! ## The arguments, before and after -/

/-- No line before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No line after the region writes `main_arg0`, and it is none of the region's arrays: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ (List.forall_iff_forall_mem.mp (by
      simp only [tailOps, hostOps1, hostOps1_1, hostOps1_2, hostOps1_3, hostOps1_4, List.flatten_cons, List.flatten_nil, List.append_nil, List.cons_append, List.nil_append, List.Forall, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No line before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No line after the region writes `main_arg1`, and it is none of the region's arrays: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (List.forall_iff_forall_mem.mp (by
      simp only [tailOps, hostOps1, hostOps1_1, hostOps1_2, hostOps1_3, hostOps1_4, List.flatten_cons, List.flatten_nil, List.append_nil, List.cons_append, List.nil_append, List.Forall, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No line before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No line after the region writes `main_arg2`, and it is none of the region's arrays: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (List.forall_iff_forall_mem.mp (by
      simp only [tailOps, hostOps1, hostOps1_1, hostOps1_2, hostOps1_3, hostOps1_4, List.flatten_cons, List.flatten_nil, List.append_nil, List.cons_append, List.nil_append, List.Forall, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0 (the samples' 32768 lanes of the point's tile) is fetched at every point: its current staging
    buffer holds its block, for any proof data whose array is the region-entry one and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1 (the target's 32768 lanes of the point's tile) is fetched at every point: its current staging
    buffer holds its block, for any proof data whose array is the region-entry one and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a frame run -/

/-- A run that ends at the library's frame post, read at the three argument arrays: none is a window's array, so each
    is at the later lines' contents, which are the launch ones. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c)⟩) h

/-! ## The body's one branch -/

/-- The body resets its four accumulators when the tile coordinate is zero. -/
abbrev cond0_0 (i : grid0.Coords) : Prop := (Scalar.cmpi .ne (Scalar.extui (Scalar.cmpi .eq (BitVec.ofNat 32 (i 1).val) 0#32)) 0#32) = 1#1
/-- That is at the first of each half's eight points. -/
theorem hcond0_0 : ∀ t : Fin cfg0.N, cond0_0 (grid0.coords t) ↔ t.val % 8 = 0 :=
  (by decide +kernel : ∀ t : Fin grid0.N, cond0_0 (grid0.coords t) ↔ t.val % 8 = 0)

/-! ## Staging memrefs -/

/-- One staging buffer of output window 2, through which its contents are stated. -/
abbrev VO0_2 : View sig .tc .vmem S1x64x64 .f32 := (Memref.whole cc0_stg2_0 : Memref sig .tc .vmem S1x64x64 .f32).view
/-- One staging buffer of output window 3, through which its contents are stated. -/
abbrev VO0_3 : View sig .tc .vmem S1x64x1 .f32 := (Memref.whole cc0_stg3_0 : Memref sig .tc .vmem S1x64x1 .f32).view
/-- One staging buffer of output window 4, through which its contents are stated. -/
abbrev VO0_4 : View sig .tc .vmem S1x1x1 .f32 := (Memref.whole cc0_stg4_0 : Memref sig .tc .vmem S1x1x1 .f32).view
/-- One staging buffer of output window 5, through which its contents are stated. -/
abbrev VO0_5 : View sig .tc .vmem S1x64x1 .f32 := (Memref.whole cc0_stg5_0 : Memref sig .tc .vmem S1x64x1 .f32).view
abbrev ms0_0 (t : Fin cfg0.N) : Memref sig .tc .vmem S64x32768 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x32768 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x64x1 .f32 := win0_5.stage (cfg0.slots t 5)
abbrev hs0_5 (t : Fin cfg0.N) : (ms0_5 t).IsWhole := hstage0_5 ((cfg0.slots t 5).cast nbuf0_5)

end Cert.KernelIdeal.Around

end
-- ==== Proof.IdealResetRun.lean ====
/-
  The body at the first tile of a half (tile coordinate zero): it zeroes the four accumulators, then for each of the
  four lane chunks of 8192 adds the chunk's Gram block, its products with the target, the target's squares and the
  samples' squares. On whole staging memrefs, the inputs at their blocks and the outputs at anything, it runs to the end
  leaving the inputs as they were and each output with the pieces its stores wrote.
-/
import proofs.«113203_j56899726737831_2_alg».proof.Proof.IdealAround

set_option maxRecDepth 16384

noncomputable section

namespace Cert.KernelIdeal.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces each accumulator ends with at a first tile, with the proof that the body runs there. -/
noncomputable def resetRun (c : Dev nD) (i : grid0.Coords) (arg2 : Memref sig .tc .vmem S64x32768 .f32) (harg2 : arg2.IsWhole) (arg3 : Memref sig .tc .vmem S1x32768 .f32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x1x1 .f32) (harg6 : arg6.IsWhole) (arg7 : Memref sig .tc .vmem S1x64x1 .f32) (harg7 : arg7.IsWhole) (hc0 : cond0_0 i)
    (x0 : Vec F S64x32768 .f32) (x1 : Vec F S1x32768 .f32) :
    Σ' (L4 : List (View.Piece (Elt F) S1x64x64 .f32)), Σ' (L5 : List (View.Piece (Elt F) S1x64x1 .f32)), Σ' (L6 : List (View.Piece (Elt F) S1x1x1 .f32)), { L7 : List (View.Piece (Elt F) S1x64x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7)) -∗ K ⟨⟩))
          ⊢ wp frame (wpE (defs₀ (F := F)) Variants.none c none) E (cc0__reduce_kernel i arg2 harg2 arg3 harg3 arg4 harg4 arg5 harg5 arg6 harg6 arg7 harg7) K } := by
  refine ⟨?_, ?_, ?_, ?_, fun E K => ?run⟩
  case run =>
    simp only [cc0__reduce_kernel_eq_skeleton]; unfold cc0__reduce_kernel_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%d4, %f4, -, H4⟩, ⟨%d5, %f5, -, H5⟩, ⟨%d6, %f6, -, H6⟩, ⟨%d7, %f7, -, H7⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H4]; · iexists _; iexact H4
    isplitl [H5]; · iexists _; iexact H5
    isplitl [H6]; · iexists _; iexact H6
    iexists _; iexact H7

end Cert.KernelIdeal.Around

end
-- ==== Proof.IdealAccumRun.lean ====
/-
  The body at a later tile of a half (tile coordinate not zero): no reset; for each of the four lane chunks of 8192 it
  adds to the running accumulators the chunk's Gram block, its products with the target, the target's squares and the
  samples' squares. On whole staging memrefs, the inputs at their blocks and each output at its running contents, it
  runs to the end leaving the inputs as they were and each output with the pieces its stores wrote.
-/
import proofs.«113203_j56899726737831_2_alg».proof.Proof.IdealResetRun

set_option maxRecDepth 16384

noncomputable section

namespace Cert.KernelIdeal.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces each accumulator ends with at a later tile, over what the tile before left, with the proof that the
    body runs there. -/
noncomputable def accumRun (c : Dev nD) (i : grid0.Coords) (arg2 : Memref sig .tc .vmem S64x32768 .f32) (harg2 : arg2.IsWhole) (arg3 : Memref sig .tc .vmem S1x32768 .f32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x1x1 .f32) (harg6 : arg6.IsWhole) (arg7 : Memref sig .tc .vmem S1x64x1 .f32) (harg7 : arg7.IsWhole) (hc0 : ¬cond0_0 i)
    (x0 : Vec F S64x32768 .f32) (x1 : Vec F S1x32768 .f32) (xo4 : Vec F S1x64x64 .f32) (xo5 : Vec F S1x64x1 .f32) (xo6 : Vec F S1x1x1 .f32) (xo7 : Vec F S1x64x1 .f32) :
    Σ' (L4 : List (View.Piece (Elt F) S1x64x64 .f32)), Σ' (L5 : List (View.Piece (Elt F) S1x64x1 .f32)), Σ' (L6 : List (View.Piece (Elt F) S1x1x1 .f32)), { L7 : List (View.Piece (Elt F) S1x64x1 .f32) //
      ∀ (E : Set ℕ) (K : PUnit → sProp 𝕄),
        iprop(owns (c : Thread nD τ) arg2 fullShare x0 ∗ owns (c : Thread nD τ) arg3 fullShare x1 ∗ owns (c : Thread nD τ) arg4 fullShare xo4 ∗ owns (c : Thread nD τ) arg5 fullShare xo5 ∗ owns (c : Thread nD τ) arg6 fullShare xo6 ∗ owns (c : Thread nD τ) arg7 fullShare xo7
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L4) ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7)) -∗ K ⟨⟩))
          ⊢ wp frame (wpE (defs₀ (F := F)) Variants.none c none) E (cc0__reduce_kernel i arg2 harg2 arg3 harg3 arg4 harg4 arg5 harg5 arg6 harg6 arg7 harg7) K } := by
  refine ⟨?_, ?_, ?_, ?_, fun E K => ?run⟩
  case run =>
    simp only [cc0__reduce_kernel_eq_skeleton]; unfold cc0__reduce_kernel_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f4, %hf4, H4⟩, ⟨%f5, %hf5, H5⟩, ⟨%f6, %hf6, H6⟩, ⟨%f7, %hf7, H7⟩, Hk⟩
    obtain rfl := harg2.eq_unread hf0; obtain rfl := harg3.eq_unread hf1
    obtain rfl := harg4.eq_unread hf4; obtain rfl := harg5.eq_unread hf5; obtain rfl := harg6.eq_unread hf6; obtain rfl := harg7.eq_unread hf7
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H4]; · iexists _; iexact H4
    isplitl [H5]; · iexists _; iexact H5
    isplitl [H6]; · iexists _; iexact H6
    iexists _; iexact H7

end Cert.KernelIdeal.Around

end
-- ==== Proof.IdealFrame.lean ====
/-
  The frame of the score program: what the four accumulators hold after each grid point — a half's first tile resets
  them and adds its four chunks, every later tile adds its four chunks to what the tile before left, and the eighth
  tile's contents are written back as the half's partial sums —, the proof data of the pipeline over that, the body's
  obligation at a generic point (by the tile coordinate's case), the run of @main around the region and the frame claim.
-/
import proofs.«113203_j56899726737831_2_alg».proof.Proof.IdealAccumRun

set_option maxRecDepth 16384

noncomputable section

namespace Cert.KernelIdeal.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- At a first tile the stores into the accumulator of the Gram block tile its block, so they cover it. -/
theorem coverReset_4 (c : Dev nD) (i : grid0.Coords) (arg2 : Memref sig .tc .vmem S64x32768 .f32) (harg2 : arg2.IsWhole) (arg3 : Memref sig .tc .vmem S1x32768 .f32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x1x1 .f32) (harg6 : arg6.IsWhole) (arg7 : Memref sig .tc .vmem S1x64x1 .f32) (harg7 : arg7.IsWhole) (hc0 : cond0_0 i)
    (x0 : Vec F S64x32768 .f32) (x1 : Vec F S1x32768 .f32) (y : S1x64x64.Idx) :
    ∃ pc ∈ (resetRun c i arg2 harg2 arg3 harg3 arg4 harg4 arg5 harg5 arg6 harg6 arg7 harg7 hc0 x0 x1).1, y ∈ pc.1.set :=
  View.cover_of_tiledL (resetRun c i arg2 harg2 arg3 harg3 arg4 harg4 arg5 harg5 arg6 harg6 arg7 harg7 hc0 x0 x1).1 S1x64x64.size (by sl_kernel_rfl) y

/-- What a first tile leaves in that accumulator: its pieces read back. -/
def outReset_4 (c : Dev nD) (i : grid0.Coords) (arg2 : Memref sig .tc .vmem S64x32768 .f32) (harg2 : arg2.IsWhole) (arg3 : Memref sig .tc .vmem S1x32768 .f32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x1x1 .f32) (harg6 : arg6.IsWhole) (arg7 : Memref sig .tc .vmem S1x64x1 .f32) (harg7 : arg7.IsWhole) (hc0 : cond0_0 i)
    (x0 : Vec F S64x32768 .f32) (x1 : Vec F S1x32768 .f32) : Vec F S1x64x64 .f32 :=
  VO0_2.read (Elt F) (VO0_2.writes (Elt F) VO0_2.junk (resetRun c i arg2 harg2 arg3 harg3 arg4 harg4 arg5 harg5 arg6 harg6 arg7 harg7 hc0 x0 x1).1)

/-- At a first tile the stores into the accumulator of the products with the target tile its block, so they cover it. -/
theorem coverReset_5 (c : Dev nD) (i : grid0.Coords) (arg2 : Memref sig .tc .vmem S64x32768 .f32) (harg2 : arg2.IsWhole) (arg3 : Memref sig .tc .vmem S1x32768 .f32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x1x1 .f32) (harg6 : arg6.IsWhole) (arg7 : Memref sig .tc .vmem S1x64x1 .f32) (harg7 : arg7.IsWhole) (hc0 : cond0_0 i)
    (x0 : Vec F S64x32768 .f32) (x1 : Vec F S1x32768 .f32) (y : S1x64x1.Idx) :
    ∃ pc ∈ (resetRun c i arg2 harg2 arg3 harg3 arg4 harg4 arg5 harg5 arg6 harg6 arg7 harg7 hc0 x0 x1).2.1, y ∈ pc.1.set :=
  View.cover_of_tiledL (resetRun c i arg2 harg2 arg3 harg3 arg4 harg4 arg5 harg5 arg6 harg6 arg7 harg7 hc0 x0 x1).2.1 S1x64x1.size (by sl_kernel_rfl) y

/-- What a first tile leaves in that accumulator: its pieces read back. -/
def outReset_5 (c : Dev nD) (i : grid0.Coords) (arg2 : Memref sig .tc .vmem S64x32768 .f32) (harg2 : arg2.IsWhole) (arg3 : Memref sig .tc .vmem S1x32768 .f32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x1x1 .f32) (harg6 : arg6.IsWhole) (arg7 : Memref sig .tc .vmem S1x64x1 .f32) (harg7 : arg7.IsWhole) (hc0 : cond0_0 i)
    (x0 : Vec F S64x32768 .f32) (x1 : Vec F S1x32768 .f32) : Vec F S1x64x1 .f32 :=
  VO0_3.read (Elt F) (VO0_3.writes (Elt F) VO0_3.junk (resetRun c i arg2 harg2 arg3 harg3 arg4 harg4 arg5 harg5 arg6 harg6 arg7 harg7 hc0 x0 x1).2.1)

/-- At a first tile the stores into the accumulator of the target's squares tile its block, so they cover it. -/
theorem coverReset_6 (c : Dev nD) (i : grid0.Coords) (arg2 : Memref sig .tc .vmem S64x32768 .f32) (harg2 : arg2.IsWhole) (arg3 : Memref sig .tc .vmem S1x32768 .f32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x1x1 .f32) (harg6 : arg6.IsWhole) (arg7 : Memref sig .tc .vmem S1x64x1 .f32) (harg7 : arg7.IsWhole) (hc0 : cond0_0 i)
    (x0 : Vec F S64x32768 .f32) (x1 : Vec F S1x32768 .f32) (y : S1x1x1.Idx) :
    ∃ pc ∈ (resetRun c i arg2 harg2 arg3 harg3 arg4 harg4 arg5 harg5 arg6 harg6 arg7 harg7 hc0 x0 x1).2.2.1, y ∈ pc.1.set :=
  View.cover_of_tiledL (resetRun c i arg2 harg2 arg3 harg3 arg4 harg4 arg5 harg5 arg6 harg6 arg7 harg7 hc0 x0 x1).2.2.1 S1x1x1.size (by sl_kernel_rfl) y

/-- What a first tile leaves in that accumulator: its pieces read back. -/
def outReset_6 (c : Dev nD) (i : grid0.Coords) (arg2 : Memref sig .tc .vmem S64x32768 .f32) (harg2 : arg2.IsWhole) (arg3 : Memref sig .tc .vmem S1x32768 .f32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x1x1 .f32) (harg6 : arg6.IsWhole) (arg7 : Memref sig .tc .vmem S1x64x1 .f32) (harg7 : arg7.IsWhole) (hc0 : cond0_0 i)
    (x0 : Vec F S64x32768 .f32) (x1 : Vec F S1x32768 .f32) : Vec F S1x1x1 .f32 :=
  VO0_4.read (Elt F) (VO0_4.writes (Elt F) VO0_4.junk (resetRun c i arg2 harg2 arg3 harg3 arg4 harg4 arg5 harg5 arg6 harg6 arg7 harg7 hc0 x0 x1).2.2.1)

/-- At a first tile the stores into the accumulator of the samples' squares tile its block, so they cover it. -/
theorem coverReset_7 (c : Dev nD) (i : grid0.Coords) (arg2 : Memref sig .tc .vmem S64x32768 .f32) (harg2 : arg2.IsWhole) (arg3 : Memref sig .tc .vmem S1x32768 .f32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x1x1 .f32) (harg6 : arg6.IsWhole) (arg7 : Memref sig .tc .vmem S1x64x1 .f32) (harg7 : arg7.IsWhole) (hc0 : cond0_0 i)
    (x0 : Vec F S64x32768 .f32) (x1 : Vec F S1x32768 .f32) (y : S1x64x1.Idx) :
    ∃ pc ∈ (resetRun c i arg2 harg2 arg3 harg3 arg4 harg4 arg5 harg5 arg6 harg6 arg7 harg7 hc0 x0 x1).2.2.2.1, y ∈ pc.1.set :=
  View.cover_of_tiledL (resetRun c i arg2 harg2 arg3 harg3 arg4 harg4 arg5 harg5 arg6 harg6 arg7 harg7 hc0 x0 x1).2.2.2.1 S1x64x1.size (by sl_kernel_rfl) y

/-- What a first tile leaves in that accumulator: its pieces read back. -/
def outReset_7 (c : Dev nD) (i : grid0.Coords) (arg2 : Memref sig .tc .vmem S64x32768 .f32) (harg2 : arg2.IsWhole) (arg3 : Memref sig .tc .vmem S1x32768 .f32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x1x1 .f32) (harg6 : arg6.IsWhole) (arg7 : Memref sig .tc .vmem S1x64x1 .f32) (harg7 : arg7.IsWhole) (hc0 : cond0_0 i)
    (x0 : Vec F S64x32768 .f32) (x1 : Vec F S1x32768 .f32) : Vec F S1x64x1 .f32 :=
  VO0_5.read (Elt F) (VO0_5.writes (Elt F) VO0_5.junk (resetRun c i arg2 harg2 arg3 harg3 arg4 harg4 arg5 harg5 arg6 harg6 arg7 harg7 hc0 x0 x1).2.2.2.1)

/-- At a later tile the stores into the accumulator of the Gram block tile its block, so they cover it. -/
theorem coverAccum_4 (c : Dev nD) (i : grid0.Coords) (arg2 : Memref sig .tc .vmem S64x32768 .f32) (harg2 : arg2.IsWhole) (arg3 : Memref sig .tc .vmem S1x32768 .f32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x1x1 .f32) (harg6 : arg6.IsWhole) (arg7 : Memref sig .tc .vmem S1x64x1 .f32) (harg7 : arg7.IsWhole) (hc0 : ¬cond0_0 i)
    (x0 : Vec F S64x32768 .f32) (x1 : Vec F S1x32768 .f32) (xo4 : Vec F S1x64x64 .f32) (xo5 : Vec F S1x64x1 .f32) (xo6 : Vec F S1x1x1 .f32) (xo7 : Vec F S1x64x1 .f32) (y : S1x64x64.Idx) :
    ∃ pc ∈ (accumRun c i arg2 harg2 arg3 harg3 arg4 harg4 arg5 harg5 arg6 harg6 arg7 harg7 hc0 x0 x1 xo4 xo5 xo6 xo7).1, y ∈ pc.1.set :=
  View.cover_of_tiledL (accumRun c i arg2 harg2 arg3 harg3 arg4 harg4 arg5 harg5 arg6 harg6 arg7 harg7 hc0 x0 x1 xo4 xo5 xo6 xo7).1 S1x64x64.size (by sl_kernel_rfl) y

/-- What a later tile leaves in that accumulator, over what the tile before left: its pieces read back. -/
def outAccum_4 (c : Dev nD) (i : grid0.Coords) (arg2 : Memref sig .tc .vmem S64x32768 .f32) (harg2 : arg2.IsWhole) (arg3 : Memref sig .tc .vmem S1x32768 .f32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x1x1 .f32) (harg6 : arg6.IsWhole) (arg7 : Memref sig .tc .vmem S1x64x1 .f32) (harg7 : arg7.IsWhole) (hc0 : ¬cond0_0 i)
    (x0 : Vec F S64x32768 .f32) (x1 : Vec F S1x32768 .f32) (xo4 : Vec F S1x64x64 .f32) (xo5 : Vec F S1x64x1 .f32) (xo6 : Vec F S1x1x1 .f32) (xo7 : Vec F S1x64x1 .f32) : Vec F S1x64x64 .f32 :=
  VO0_2.read (Elt F) (VO0_2.writes (Elt F) VO0_2.junk (accumRun c i arg2 harg2 arg3 harg3 arg4 harg4 arg5 harg5 arg6 harg6 arg7 harg7 hc0 x0 x1 xo4 xo5 xo6 xo7).1)

/-- At a later tile the stores into the accumulator of the products with the target tile its block, so they cover it. -/
theorem coverAccum_5 (c : Dev nD) (i : grid0.Coords) (arg2 : Memref sig .tc .vmem S64x32768 .f32) (harg2 : arg2.IsWhole) (arg3 : Memref sig .tc .vmem S1x32768 .f32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x1x1 .f32) (harg6 : arg6.IsWhole) (arg7 : Memref sig .tc .vmem S1x64x1 .f32) (harg7 : arg7.IsWhole) (hc0 : ¬cond0_0 i)
    (x0 : Vec F S64x32768 .f32) (x1 : Vec F S1x32768 .f32) (xo4 : Vec F S1x64x64 .f32) (xo5 : Vec F S1x64x1 .f32) (xo6 : Vec F S1x1x1 .f32) (xo7 : Vec F S1x64x1 .f32) (y : S1x64x1.Idx) :
    ∃ pc ∈ (accumRun c i arg2 harg2 arg3 harg3 arg4 harg4 arg5 harg5 arg6 harg6 arg7 harg7 hc0 x0 x1 xo4 xo5 xo6 xo7).2.1, y ∈ pc.1.set :=
  View.cover_of_tiledL (accumRun c i arg2 harg2 arg3 harg3 arg4 harg4 arg5 harg5 arg6 harg6 arg7 harg7 hc0 x0 x1 xo4 xo5 xo6 xo7).2.1 S1x64x1.size (by sl_kernel_rfl) y

/-- What a later tile leaves in that accumulator, over what the tile before left: its pieces read back. -/
def outAccum_5 (c : Dev nD) (i : grid0.Coords) (arg2 : Memref sig .tc .vmem S64x32768 .f32) (harg2 : arg2.IsWhole) (arg3 : Memref sig .tc .vmem S1x32768 .f32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x1x1 .f32) (harg6 : arg6.IsWhole) (arg7 : Memref sig .tc .vmem S1x64x1 .f32) (harg7 : arg7.IsWhole) (hc0 : ¬cond0_0 i)
    (x0 : Vec F S64x32768 .f32) (x1 : Vec F S1x32768 .f32) (xo4 : Vec F S1x64x64 .f32) (xo5 : Vec F S1x64x1 .f32) (xo6 : Vec F S1x1x1 .f32) (xo7 : Vec F S1x64x1 .f32) : Vec F S1x64x1 .f32 :=
  VO0_3.read (Elt F) (VO0_3.writes (Elt F) VO0_3.junk (accumRun c i arg2 harg2 arg3 harg3 arg4 harg4 arg5 harg5 arg6 harg6 arg7 harg7 hc0 x0 x1 xo4 xo5 xo6 xo7).2.1)

/-- At a later tile the stores into the accumulator of the target's squares tile its block, so they cover it. -/
theorem coverAccum_6 (c : Dev nD) (i : grid0.Coords) (arg2 : Memref sig .tc .vmem S64x32768 .f32) (harg2 : arg2.IsWhole) (arg3 : Memref sig .tc .vmem S1x32768 .f32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x1x1 .f32) (harg6 : arg6.IsWhole) (arg7 : Memref sig .tc .vmem S1x64x1 .f32) (harg7 : arg7.IsWhole) (hc0 : ¬cond0_0 i)
    (x0 : Vec F S64x32768 .f32) (x1 : Vec F S1x32768 .f32) (xo4 : Vec F S1x64x64 .f32) (xo5 : Vec F S1x64x1 .f32) (xo6 : Vec F S1x1x1 .f32) (xo7 : Vec F S1x64x1 .f32) (y : S1x1x1.Idx) :
    ∃ pc ∈ (accumRun c i arg2 harg2 arg3 harg3 arg4 harg4 arg5 harg5 arg6 harg6 arg7 harg7 hc0 x0 x1 xo4 xo5 xo6 xo7).2.2.1, y ∈ pc.1.set :=
  View.cover_of_tiledL (accumRun c i arg2 harg2 arg3 harg3 arg4 harg4 arg5 harg5 arg6 harg6 arg7 harg7 hc0 x0 x1 xo4 xo5 xo6 xo7).2.2.1 S1x1x1.size (by sl_kernel_rfl) y

/-- What a later tile leaves in that accumulator, over what the tile before left: its pieces read back. -/
def outAccum_6 (c : Dev nD) (i : grid0.Coords) (arg2 : Memref sig .tc .vmem S64x32768 .f32) (harg2 : arg2.IsWhole) (arg3 : Memref sig .tc .vmem S1x32768 .f32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x1x1 .f32) (harg6 : arg6.IsWhole) (arg7 : Memref sig .tc .vmem S1x64x1 .f32) (harg7 : arg7.IsWhole) (hc0 : ¬cond0_0 i)
    (x0 : Vec F S64x32768 .f32) (x1 : Vec F S1x32768 .f32) (xo4 : Vec F S1x64x64 .f32) (xo5 : Vec F S1x64x1 .f32) (xo6 : Vec F S1x1x1 .f32) (xo7 : Vec F S1x64x1 .f32) : Vec F S1x1x1 .f32 :=
  VO0_4.read (Elt F) (VO0_4.writes (Elt F) VO0_4.junk (accumRun c i arg2 harg2 arg3 harg3 arg4 harg4 arg5 harg5 arg6 harg6 arg7 harg7 hc0 x0 x1 xo4 xo5 xo6 xo7).2.2.1)

/-- At a later tile the stores into the accumulator of the samples' squares tile its block, so they cover it. -/
theorem coverAccum_7 (c : Dev nD) (i : grid0.Coords) (arg2 : Memref sig .tc .vmem S64x32768 .f32) (harg2 : arg2.IsWhole) (arg3 : Memref sig .tc .vmem S1x32768 .f32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x1x1 .f32) (harg6 : arg6.IsWhole) (arg7 : Memref sig .tc .vmem S1x64x1 .f32) (harg7 : arg7.IsWhole) (hc0 : ¬cond0_0 i)
    (x0 : Vec F S64x32768 .f32) (x1 : Vec F S1x32768 .f32) (xo4 : Vec F S1x64x64 .f32) (xo5 : Vec F S1x64x1 .f32) (xo6 : Vec F S1x1x1 .f32) (xo7 : Vec F S1x64x1 .f32) (y : S1x64x1.Idx) :
    ∃ pc ∈ (accumRun c i arg2 harg2 arg3 harg3 arg4 harg4 arg5 harg5 arg6 harg6 arg7 harg7 hc0 x0 x1 xo4 xo5 xo6 xo7).2.2.2.1, y ∈ pc.1.set :=
  View.cover_of_tiledL (accumRun c i arg2 harg2 arg3 harg3 arg4 harg4 arg5 harg5 arg6 harg6 arg7 harg7 hc0 x0 x1 xo4 xo5 xo6 xo7).2.2.2.1 S1x64x1.size (by sl_kernel_rfl) y

/-- What a later tile leaves in that accumulator, over what the tile before left: its pieces read back. -/
def outAccum_7 (c : Dev nD) (i : grid0.Coords) (arg2 : Memref sig .tc .vmem S64x32768 .f32) (harg2 : arg2.IsWhole) (arg3 : Memref sig .tc .vmem S1x32768 .f32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x1x1 .f32) (harg6 : arg6.IsWhole) (arg7 : Memref sig .tc .vmem S1x64x1 .f32) (harg7 : arg7.IsWhole) (hc0 : ¬cond0_0 i)
    (x0 : Vec F S64x32768 .f32) (x1 : Vec F S1x32768 .f32) (xo4 : Vec F S1x64x64 .f32) (xo5 : Vec F S1x64x1 .f32) (xo6 : Vec F S1x1x1 .f32) (xo7 : Vec F S1x64x1 .f32) : Vec F S1x64x1 .f32 :=
  VO0_5.read (Elt F) (VO0_5.writes (Elt F) VO0_5.junk (accumRun c i arg2 harg2 arg3 harg3 arg4 harg4 arg5 harg5 arg6 harg6 arg7 harg7 hc0 x0 x1 xo4 xo5 xo6 xo7).2.2.2.1)

/-! ## What the accumulators hold after each point -/

/-- The accumulation: the four accumulators' contents after the body at position `n`, in window order. A first tile
    (`n % 8 = 0`) leaves what the reset case leaves; a later tile what the accumulating case leaves over position
    `n - 1` (the buffers are not written back between: that happens at the eighth tile only). -/
def outsAt0 (c : Dev nD) : (n : ℕ) → n < cfg0.N → Vec F S1x64x64 .f32 × Vec F S1x64x1 .f32 × Vec F S1x1x1 .f32 × Vec F S1x64x1 .f32
  | 0, hn => (outReset_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk m c 0 ⟨0, hn⟩) (iblk m c 1 ⟨0, hn⟩), outReset_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk m c 0 ⟨0, hn⟩) (iblk m c 1 ⟨0, hn⟩), outReset_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk m c 0 ⟨0, hn⟩) (iblk m c 1 ⟨0, hn⟩), outReset_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk m c 0 ⟨0, hn⟩) (iblk m c 1 ⟨0, hn⟩))
  | n + 1, hn =>
    if h0 : (n + 1) % 8 = 0 then
      (outReset_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk m c 0 ⟨n + 1, hn⟩) (iblk m c 1 ⟨n + 1, hn⟩), outReset_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk m c 0 ⟨n + 1, hn⟩) (iblk m c 1 ⟨n + 1, hn⟩), outReset_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk m c 0 ⟨n + 1, hn⟩) (iblk m c 1 ⟨n + 1, hn⟩), outReset_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk m c 0 ⟨n + 1, hn⟩) (iblk m c 1 ⟨n + 1, hn⟩))
    else
      (outAccum_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2, outAccum_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2, outAccum_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2, outAccum_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2)

/-- `outsAt0` at a first tile. -/
theorem outsAt0_reset (c : Dev nD) (t : Fin cfg0.N) (h0 : t.val % 8 = 0) :
    outsAt0 m c t.val t.isLt = (outReset_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t), outReset_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t), outReset_6 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t), outReset_7 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t)) := by
  obtain ⟨n, hn⟩ := t
  cases n with
  | zero => exact rfl
  | succ n => exact (dif_pos h0).trans rfl

/-- `outsAt0` at a later tile: over what the tile before left. -/
theorem outsAt0_accum (c : Dev nD) (t : Fin cfg0.N) (h0 : ¬t.val % 8 = 0) :
    outsAt0 m c t.val t.isLt = (outAccum_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, outAccum_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, outAccum_6 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, outAccum_7 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the pipeline on core `c`: the arrays as the region finds them; after the body at point `t`
    each input's buffer at its block and the accumulators' at `outsAt0`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
    | ⟨4, _⟩ => (outsAt0 m c t.val t.isLt).2.2.1
    | ⟨5, _⟩ => (outsAt0 m c t.val t.isLt).2.2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]
theorem after0_4 (c : Dev nD) (t : Fin cfg0.N) : (dats m 0 c).after 4 t = (outsAt0 m c t.val t.isLt).2.2.1 := by dsimp only [dats]
theorem after0_5 (c : Dev nD) (t : Fin cfg0.N) : (dats m 0 c).after 5 t = (outsAt0 m c t.val t.isLt).2.2.2 := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- At a later tile the accumulator of the Gram block holds what the tile before left: the point is not the first, and the
    buffer was not written back between (that happens after a half's eighth tile, and the next point is then a first tile). -/
theorem before0_2_accum (c : Dev nD) (t : Fin cfg0.N) (h0 : ¬t.val % 8 = 0) (d) :
    (dats m 0 c).before 2 t d = (outsAt0 m c (t.val - 1) (Nat.lt_of_le_of_lt (Nat.sub_le _ _) t.isLt)).1 := by
  have hN : t.val < 16 := lt_of_lt_of_eq t.isLt (show cfg0.N = 16 from N_0)
  rw [Dat.before_out_kept _ 2 rfl t (by omega) (Bool.eq_false_iff.mpr fun h => by have := (flush0_2 _).mp h; dsimp only at this; omega)
    (fun _ => rfl) (fun _ _ => rfl)]
  dsimp only [dats]
/-- At a later tile the accumulator of the products with the target holds what the tile before left: the point is not the first, and the
    buffer was not written back between (that happens after a half's eighth tile, and the next point is then a first tile). -/
theorem before0_3_accum (c : Dev nD) (t : Fin cfg0.N) (h0 : ¬t.val % 8 = 0) (d) :
    (dats m 0 c).before 3 t d = (outsAt0 m c (t.val - 1) (Nat.lt_of_le_of_lt (Nat.sub_le _ _) t.isLt)).2.1 := by
  have hN : t.val < 16 := lt_of_lt_of_eq t.isLt (show cfg0.N = 16 from N_0)
  rw [Dat.before_out_kept _ 3 rfl t (by omega) (Bool.eq_false_iff.mpr fun h => by have := (flush0_3 _).mp h; dsimp only at this; omega)
    (fun _ => rfl) (fun _ _ => rfl)]
  dsimp only [dats]
/-- At a later tile the accumulator of the target's squares holds what the tile before left: the point is not the first, and the
    buffer was not written back between (that happens after a half's eighth tile, and the next point is then a first tile). -/
theorem before0_4_accum (c : Dev nD) (t : Fin cfg0.N) (h0 : ¬t.val % 8 = 0) (d) :
    (dats m 0 c).before 4 t d = (outsAt0 m c (t.val - 1) (Nat.lt_of_le_of_lt (Nat.sub_le _ _) t.isLt)).2.2.1 := by
  have hN : t.val < 16 := lt_of_lt_of_eq t.isLt (show cfg0.N = 16 from N_0)
  rw [Dat.before_out_kept _ 4 rfl t (by omega) (Bool.eq_false_iff.mpr fun h => by have := (flush0_4 _).mp h; dsimp only at this; omega)
    (fun _ => rfl) (fun _ _ => rfl)]
  dsimp only [dats]
/-- At a later tile the accumulator of the samples' squares holds what the tile before left: the point is not the first, and the
    buffer was not written back between (that happens after a half's eighth tile, and the next point is then a first tile). -/
theorem before0_5_accum (c : Dev nD) (t : Fin cfg0.N) (h0 : ¬t.val % 8 = 0) (d) :
    (dats m 0 c).before 5 t d = (outsAt0 m c (t.val - 1) (Nat.lt_of_le_of_lt (Nat.sub_le _ _) t.isLt)).2.2.2 := by
  have hN : t.val < 16 := lt_of_lt_of_eq t.isLt (show cfg0.N = 16 from N_0)
  rw [Dat.before_out_kept _ 5 rfl t (by omega) (Bool.eq_false_iff.mpr fun h => by have := (flush0_5 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 1600000 in
/-- The body at any point: the inputs' memrefs hold their blocks; the tile coordinate's closed form says which case the
    point is in; at a later tile each accumulator holds what the tile before left; so that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  have hN : t.val < 16 := lt_of_lt_of_eq t.isLt (show cfg0.N = 16 from N_0)
  by_cases h0 : t.val % 8 = 0
  · rw [outsAt0_reset m c t h0]
    unfold outReset_4 outReset_5 outReset_6 outReset_7; (try dsimp only)
    iintro ⟨HΦ, Ho, ⟨%d0, H0⟩, ⟨%d1, H1⟩, ⟨%d2, H2⟩, ⟨%d3, H3⟩, ⟨%d4, H4⟩, ⟨%d5, H5⟩⟩
    iapply ((resetRun c (grid0.coords t) _ _ _ _ _ _ _ _ _ _ _ _ ((hcond0_0 t).mpr h0) (iblk m c 0 t) (iblk m c 1 t)).2.2.2.2 Set.univ _)
    isplitl [H0]; · iexact H0
    isplitl [H1]; · iexact H1
    isplitl [H2]; · iexists _; iexact H2
    isplitl [H3]; · iexists _; iexact H3
    isplitl [H4]; · iexists _; iexact H4
    isplitl [H5]; · iexists _; iexact H5
    iintro ⟨H0, H1, ⟨%e2, H2⟩, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverReset_4 c _ _ _ _ _ _ _ _ _ _ _ _ _ _ _ _)
    isplitl [H3]
    · unfold owns; iexists _; isplitr
      swap; · iexact H3
      ipureintro; exact View.read_writes_of_cover _ _ _ _ _ (coverReset_5 c _ _ _ _ _ _ _ _ _ _ _ _ _ _ _ _)
    isplitl [H4]
    · unfold owns; iexists _; isplitr
      swap; · iexact H4
      ipureintro; exact View.read_writes_of_cover _ _ _ _ _ (coverReset_6 c _ _ _ _ _ _ _ _ _ _ _ _ _ _ _ _)
    unfold owns; iexists _; isplitr
    swap; · iexact H5
    ipureintro; exact View.read_writes_of_cover _ _ _ _ _ (coverReset_7 c _ _ _ _ _ _ _ _ _ _ _ _ _ _ _ _)
  · rw [outsAt0_accum m c t h0]
    simp only [before0_2_accum m c t h0, before0_3_accum m c t h0, before0_4_accum m c t h0, before0_5_accum m c t h0]
    unfold outAccum_4 outAccum_5 outAccum_6 outAccum_7; (try dsimp only)
    iintro ⟨HΦ, Ho, ⟨%d0, H0⟩, ⟨%d1, H1⟩, ⟨%d2, H2⟩, ⟨%d3, H3⟩, ⟨%d4, H4⟩, ⟨%d5, H5⟩⟩
    iapply ((accumRun c (grid0.coords t) _ _ _ _ _ _ _ _ _ _ _ _ (fun h => h0 ((hcond0_0 t).mp h)) (iblk m c 0 t) (iblk m c 1 t) _ _ _ _).2.2.2.2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, ⟨%e2, H2⟩, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverAccum_4 c _ _ _ _ _ _ _ _ _ _ _ _ _ _ _ _ _ _ _ _)
    isplitl [H3]
    · unfold owns; iexists _; isplitr
      swap; · iexact H3
      ipureintro; exact View.read_writes_of_cover _ _ _ _ _ (coverAccum_5 c _ _ _ _ _ _ _ _ _ _ _ _ _ _ _ _ _ _ _ _)
    isplitl [H4]
    · unfold owns; iexists _; isplitr
      swap; · iexact H4
      ipureintro; exact View.read_writes_of_cover _ _ _ _ _ (coverAccum_6 c _ _ _ _ _ _ _ _ _ _ _ _ _ _ _ _ _ _ _ _)
    unfold owns; iexists _; isplitr
    swap; · iexact H5
    ipureintro; exact View.read_writes_of_cover _ _ _ _ _ (coverAccum_7 c _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and in every final state each of the region's arrays is at what
    the library computes from the proof data and every other buffer at the later lines' contents. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame: @main runs to the end, faults nowhere, and leaves its three arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.KernelIdeal.Around

end
-- ==== Proof.RefRun.lean ====
/-
  The run of the reference program, written out: its @main is a straight line of 62 host operations once the
  three outlined functions (the diagonal sum, the select it calls, the clamp) are unfolded at their call sites,
  so every execution ends with each buffer at the fold of the operations' results over the launch contents.
  The result buffer's term is stated through named stages, one per mathematical step: the two arguments
  re-indexed as a 64 × 524288 matrix X and a vector t of 524288 entries; the squared row norms sq = Σ_k X(i,k)²
  and the Gram matrix gram = X·Xᵀ; the clamped squared distances d2 = max(sq_i + sq_j − 2·gram_ij, 0); the
  kernel matrix exp(−d2); its total and its diagonal sum; cross = 0.25·(total − diagonal)/4032; the squared
  distances to the target dt2_i = Σ_k (X(i,k) − t(k))²; target = (Σ_i exp(−dt2_i))/64; and the score, their
  difference clamped to [−10, 10]. The equality with the operations' fold holds for any float values: both sides
  are the same composition of the same functions.
-/
import proofs.«113203_j56899726737831_2_alg».proof.ReferenceIdeal
import proofs.«113203_j56899726737831_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The stages -/

/-- The samples as a 64 × 524288 matrix: the 64 × 4096 × 128 array re-indexed in row-major order. -/
def xmat (a0 : FVec F S64x4096x128 .f32) : FVec F S64x524288 .f32 :=
  shapeCast S64x524288 a0 shapeCasts_S64x4096x128_S64x524288

/-- The target as a vector of 524288 entries: the 4096 × 128 array re-indexed in row-major order. -/
def tvec (a1 : FVec F S4096x128 .f32) : FVec F S524288 .f32 :=
  shapeCast S524288 a1 shapeCasts_S4096x128_S524288

/-- The scalar zero every sum starts from. -/
def zero : FVec F S_ .f32 := constant S_ .f32 0x00000000#32

/-- A scalar constant at every entry of a 64 × 64 matrix. -/
def splat (b : BitVec 32) : FVec F S64x64 .f32 :=
  broadcastInDim S64x64 ![] bcast_S_S64x64 (constant S_ .f32 b)

/-- The squared norm of each row: sq_i = Σ_k X(i,k)·X(i,k). -/
def sq (X : FVec F S64x524288 .f32) : FVec F S64 .f32 :=
  Host.reduceAdd (mulf X X) zero reducesTo_S64x524288_S64_d1 h_S_

/-- The Gram matrix: gram_ij = Σ_k X(i,k)·X(j,k), the product of X with its transpose. -/
def gram (X : FVec F S64x524288 .f32) : FVec F S64x64 .f32 :=
  Host.dotGeneral dot_S64x524288_S524288x64_S64x64_1_0_0_1_n_n none X
    (transpose S524288x64 [1, 0] X transposes_S64x524288_S524288x64_1_0)

/-- A vector down the rows of a 64 × 64 matrix: entry (i, j) is s_i. -/
def rows (s : FVec F S64 .f32) : FVec F S64x64 .f32 :=
  broadcastInDim S64x64 ![0, 1] bcast_S64x1_S64x64_0_1 (broadcastInDim S64x1 ![0] bcast_S64_S64x1_0 s)

/-- A vector along the columns of a 64 × 64 matrix: entry (i, j) is s_j. -/
def cols (s : FVec F S64 .f32) : FVec F S64x64 .f32 :=
  broadcastInDim S64x64 ![0, 1] bcast_S1x64_S64x64_0_1 (broadcastInDim S1x64 ![1] bcast_S64_S1x64_1 s)

/-- The clamped squared distances: d2_ij = max(s_i + s_j − 2·g_ij, 0). -/
def d2 (s : FVec F S64 .f32) (g : FVec F S64x64 .f32) : FVec F S64x64 .f32 :=
  maximumf (subf (addf (rows s) (cols s)) (mulf (splat 0x40000000#32) g)) (splat 0x00000000#32)

/-- The kernel matrix: exp(−1·d2_ij). -/
def kmat (s : FVec F S64 .f32) (g : FVec F S64x64 .f32) : FVec F S64x64 .f32 :=
  Host.exp (mulf (splat 0xBF800000#32) (d2 s g))

/-- The sum of all entries of a 64 × 64 matrix. -/
def total (K : FVec F S64x64 .f32) : FVec F S_ .f32 :=
  Host.reduceAdd K zero reducesTo_S64x64_S_d0_1 h_S_

/-- The mask of the diagonal: row index (plus the integer zero) equal to column index. -/
def diag : IVec S64x64 1 :=
  cmpi .eq (addi (iotaInDim S64x64 32 0) (broadcastInDim S64x64 ![] bcast_S_S64x64 (constantI S_ 32 0#32)))
    (iotaInDim S64x64 32 1)

/-- The sum of the diagonal entries: the matrix kept on the diagonal, zero elsewhere, summed. -/
def trace (K : FVec F S64x64 .f32) : FVec F S_ .f32 :=
  Host.reduceAdd (select diag K (splat 0x00000000#32)) zero reducesTo_S64x64_S_d0_1 h_S_

/-- The cross term: 0.25·(total − diagonal)/4032. -/
def cross (K : FVec F S64x64 .f32) : FVec F S_ .f32 :=
  Host.divf (mulf (constant S_ .f32 0x3E800000#32) (subf (total K) (trace K))) (constant S_ .f32 0x457C0000#32)

/-- The samples minus the target, row by row: X(i,k) − t(k). -/
def diff (X : FVec F S64x524288 .f32) (t : FVec F S524288 .f32) : FVec F S64x524288 .f32 :=
  subf X (broadcastInDim S64x524288 ![0, 1] bcast_S1x524288_S64x524288_0_1
    (broadcastInDim S1x524288 ![1] bcast_S524288_S1x524288_1 t))

/-- The squared distance of each row to the target: dt2_i = Σ_k (X(i,k) − t(k))·(X(i,k) − t(k)). -/
def dt2 (X : FVec F S64x524288 .f32) (t : FVec F S524288 .f32) : FVec F S64 .f32 :=
  Host.reduceAdd (mulf (diff X t) (diff X t)) zero reducesTo_S64x524288_S64_d1 h_S_

/-- The target term: (Σ_i exp(−1·d_i))/64. -/
def target (d : FVec F S64 .f32) : FVec F S_ .f32 :=
  Host.divf
    (Host.reduceAdd (Host.exp (mulf (broadcastInDim S64 ![] bcast_S_S64 (constant S_ .f32 0xBF800000#32)) d)) zero
      reducesTo_S64_S_d0 h_S_)
    (constant S_ .f32 0x42800000#32)

/-- The clamp to [−10, 10]: min(10, max(−10, x)). -/
def clip (x : FVec F S_ .f32) : FVec F S_ .f32 :=
  minimumf (constant S_ .f32 0x41200000#32) (maximumf (constant S_ .f32 0xC1200000#32) x)

/-- The score from the squared norms, the Gram matrix and the distances to the target. -/
def tail (s : FVec F S64 .f32) (g : FVec F S64x64 .f32) (d : FVec F S64 .f32) : FVec F S_ .f32 :=
  clip (subf (cross (kmat s g)) (target d))

/-- The score of the matrix X against the vector t. -/
def score (X : FVec F S64x524288 .f32) (t : FVec F S524288 .f32) : FVec F S_ .f32 :=
  tail (sq X) (gram X) (dt2 X t)

/-- What the reference computes from its first two arguments' contents (the third is not read). -/
def result (a0 : (⟨S64x4096x128, .f32⟩ : BufTy).Contents (Elt F)) (a1 : (⟨S4096x128, .f32⟩ : BufTy).Contents (Elt F)) :
    (⟨S_, .f32⟩ : BufTy).Contents (Elt F) :=
  score (xmat a0) (tvec a1)

/-! ## The operations -/

/-- @main's 62 operations in order, the calls unfolded: the diagonal sum is eleven (two iotas, the integer zero and
    its broadcast, the add, the comparison, the float zero and its broadcast, the select of the function it calls,
    the sum's zero, the sum) into the first call's buffers; the clamp is four (the lower bound converted to its
    own type, the maximum, the upper bound converted, the minimum) into the second's. -/
abbrev ops : List (HloOp τ sig (Elt F)) :=
  [ reshape main_arg0 main_v0 rfl shapeCasts_S64x4096x128_S64x524288,
    reshape main_arg1 main_v1 rfl shapeCasts_S4096x128_S524288,
    binary main_v0 main_v0 main_v2 (mulf : (⟨S64x524288, .f32⟩ : BufTy).Contents (Elt F) → (⟨S64x524288, .f32⟩ : BufTy).Contents (Elt F) → (⟨S64x524288, .f32⟩ : BufTy).Contents (Elt F)),
    nullary main_cst (constant S_ .f32 0x00000000#32),
    binary main_v2 main_cst main_v3 ((fun x v => Host.reduceAdd x v reducesTo_S64x524288_S64_d1 h_S_) : (⟨S64x524288, .f32⟩ : BufTy).Contents (Elt F) → (⟨S_, .f32⟩ : BufTy).Contents (Elt F) → (⟨S64, .f32⟩ : BufTy).Contents (Elt F)),
    unary main_v0 main_v4 ((transpose S524288x64 [1, 0] · transposes_S64x524288_S524288x64_1_0) : (⟨S64x524288, .f32⟩ : BufTy).Contents (Elt F) → (⟨S524288x64, .f32⟩ : BufTy).Contents (Elt F)),
    binary main_v0 main_v4 main_v5 ((fun l r => Host.dotGeneral dot_S64x524288_S524288x64_S64x64_1_0_0_1_n_n none l r) : (⟨S64x524288, .f32⟩ : BufTy).Contents (Elt F) → (⟨S524288x64, .f32⟩ : BufTy).Contents (Elt F) → (⟨S64x64, .f32⟩ : BufTy).Contents (Elt F)),
    unary main_v3 main_v6 (broadcastInDim S64x1 ![0] bcast_S64_S64x1_0 : (⟨S64, .f32⟩ : BufTy).Contents (Elt F) → (⟨S64x1, .f32⟩ : BufTy).Contents (Elt F)),
    unary main_v3 main_v7 (broadcastInDim S1x64 ![1] bcast_S64_S1x64_1 : (⟨S64, .f32⟩ : BufTy).Contents (Elt F) → (⟨S1x64, .f32⟩ : BufTy).Contents (Elt F)),
    unary main_v6 main_v8 (broadcastInDim S64x64 ![0, 1] bcast_S64x1_S64x64_0_1 : (⟨S64x1, .f32⟩ : BufTy).Contents (Elt F) → (⟨S64x64, .f32⟩ : BufTy).Contents (Elt F)),
    unary main_v7 main_v9 (broadcastInDim S64x64 ![0, 1] bcast_S1x64_S64x64_0_1 : (⟨S1x64, .f32⟩ : BufTy).Contents (Elt F) → (⟨S64x64, .f32⟩ : BufTy).Contents (Elt F)),
    binary main_v8 main_v9 main_v10 (addf : (⟨S64x64, .f32⟩ : BufTy).Contents (Elt F) → (⟨S64x64, .f32⟩ : BufTy).Contents (Elt F) → (⟨S64x64, .f32⟩ : BufTy).Contents (Elt F)),
    nullary main_cst_0 (constant S_ .f32 0x40000000#32),
    unary main_cst_0 main_v11 (broadcastInDim S64x64 ![] bcast_S_S64x64 : (⟨S_, .f32⟩ : BufTy).Contents (Elt F) → (⟨S64x64, .f32⟩ : BufTy).Contents (Elt F)),
    binary main_v11 main_v5 main_v12 (mulf : (⟨S64x64, .f32⟩ : BufTy).Contents (Elt F) → (⟨S64x64, .f32⟩ : BufTy).Contents (Elt F) → (⟨S64x64, .f32⟩ : BufTy).Contents (Elt F)),
    binary main_v10 main_v12 main_v13 (subf : (⟨S64x64, .f32⟩ : BufTy).Contents (Elt F) → (⟨S64x64, .f32⟩ : BufTy).Contents (Elt F) → (⟨S64x64, .f32⟩ : BufTy).Contents (Elt F)),
    nullary main_cst_1 (constant S_ .f32 0x00000000#32),
    unary main_cst_1 main_v14 (broadcastInDim S64x64 ![] bcast_S_S64x64 : (⟨S_, .f32⟩ : BufTy).Contents (Elt F) → (⟨S64x64, .f32⟩ : BufTy).Contents (Elt F)),
    binary main_v13 main_v14 main_v15 (maximumf : (⟨S64x64, .f32⟩ : BufTy).Contents (Elt F) → (⟨S64x64, .f32⟩ : BufTy).Contents (Elt F) → (⟨S64x64, .f32⟩ : BufTy).Contents (Elt F)),
    nullary main_cst_2 (constant S_ .f32 0xBF800000#32),
    unary main_cst_2 main_v16 (broadcastInDim S64x64 ![] bcast_S_S64x64 : (⟨S_, .f32⟩ : BufTy).Contents (Elt F) → (⟨S64x64, .f32⟩ : BufTy).Contents (Elt F)),
    binary main_v16 main_v15 main_v17 (mulf : (⟨S64x64, .f32⟩ : BufTy).Contents (Elt F) → (⟨S64x64, .f32⟩ : BufTy).Contents (Elt F) → (⟨S64x64, .f32⟩ : BufTy).Contents (Elt F)),
    unary main_v17 main_v18 (Host.exp : (⟨S64x64, .f32⟩ : BufTy).Contents (Elt F) → (⟨S64x64, .f32⟩ : BufTy).Contents (Elt F)),
    nullary main_cst_3 (constant S_ .f32 0x00000000#32),
    binary main_v18 main_cst_3 main_v19 ((fun x v => Host.reduceAdd x v reducesTo_S64x64_S_d0_1 h_S_) : (⟨S64x64, .f32⟩ : BufTy).Contents (Elt F) → (⟨S_, .f32⟩ : BufTy).Contents (Elt F) → (⟨S_, .f32⟩ : BufTy).Contents (Elt F)),
    TRef.nullary main_call0.v0 (iotaInDim S64x64 32 0),
    TRef.nullary main_call0.v1 (iotaInDim S64x64 32 1),
    TRef.nullary main_call0.c (constantI S_ 32 0#32),
    TRef.unary main_call0.c main_call0.v2 (broadcastInDim S64x64 ![] bcast_S_S64x64),
    TRef.binary main_call0.v0 main_call0.v2 main_call0.v3 addi,
    TRef.binary main_call0.v3 main_call0.v1 main_call0.v4 (cmpi .eq),
    TRef.nullary main_call0.cst (constant S_ .f32 0x00000000#32),
    TRef.unary main_call0.cst main_call0.v5 (broadcastInDim S64x64 ![] bcast_S_S64x64),
    TRef.ternary main_call0.v4 (.of main_v18 : TRef sig ⟨S64x64, .f32⟩) main_call0.v5 main_call0.call0.v0 select,
    TRef.nullary main_call0.cst_0 (constant S_ .f32 0x00000000#32),
    TRef.binary main_call0.call0.v0 main_call0.cst_0 main_call0.v7 (fun x v => Host.reduceAdd x v reducesTo_S64x64_S_d0_1 h_S_),
    binary main_v19 main_v20 main_v21 (subf : (⟨S_, .f32⟩ : BufTy).Contents (Elt F) → (⟨S_, .f32⟩ : BufTy).Contents (Elt F) → (⟨S_, .f32⟩ : BufTy).Contents (Elt F)),
    nullary main_cst_4 (constant S_ .f32 0x3E800000#32),
    binary main_cst_4 main_v21 main_v22 (mulf : (⟨S_, .f32⟩ : BufTy).Contents (Elt F) → (⟨S_, .f32⟩ : BufTy).Contents (Elt F) → (⟨S_, .f32⟩ : BufTy).Contents (Elt F)),
    nullary main_cst_5 (constant S_ .f32 0x457C0000#32),
    binary main_v22 main_cst_5 main_v23 (Host.divf : (⟨S_, .f32⟩ : BufTy).Contents (Elt F) → (⟨S_, .f32⟩ : BufTy).Contents (Elt F) → (⟨S_, .f32⟩ : BufTy).Contents (Elt F)),
    unary main_v1 main_v24 (broadcastInDim S1x524288 ![1] bcast_S524288_S1x524288_1 : (⟨S524288, .f32⟩ : BufTy).Contents (Elt F) → (⟨S1x524288, .f32⟩ : BufTy).Contents (Elt F)),
    unary main_v24 main_v25 (broadcastInDim S64x524288 ![0, 1] bcast_S1x524288_S64x524288_0_1 : (⟨S1x524288, .f32⟩ : BufTy).Contents (Elt F) → (⟨S64x524288, .f32⟩ : BufTy).Contents (Elt F)),
    binary main_v0 main_v25 main_v26 (subf : (⟨S64x524288, .f32⟩ : BufTy).Contents (Elt F) → (⟨S64x524288, .f32⟩ : BufTy).Contents (Elt F) → (⟨S64x524288, .f32⟩ : BufTy).Contents (Elt F)),
    binary main_v26 main_v26 main_v27 (mulf : (⟨S64x524288, .f32⟩ : BufTy).Contents (Elt F) → (⟨S64x524288, .f32⟩ : BufTy).Contents (Elt F) → (⟨S64x524288, .f32⟩ : BufTy).Contents (Elt F)),
    nullary main_cst_6 (constant S_ .f32 0x00000000#32),
    binary main_v27 main_cst_6 main_v28 ((fun x v => Host.reduceAdd x v reducesTo_S64x524288_S64_d1 h_S_) : (⟨S64x524288, .f32⟩ : BufTy).Contents (Elt F) → (⟨S_, .f32⟩ : BufTy).Contents (Elt F) → (⟨S64, .f32⟩ : BufTy).Contents (Elt F)),
    nullary main_cst_7 (constant S_ .f32 0xBF800000#32),
    unary main_cst_7 main_v29 (broadcastInDim S64 ![] bcast_S_S64 : (⟨S_, .f32⟩ : BufTy).Contents (Elt F) → (⟨S64, .f32⟩ : BufTy).Contents (Elt F)),
    binary main_v29 main_v28 main_v30 (mulf : (⟨S64, .f32⟩ : BufTy).Contents (Elt F) → (⟨S64, .f32⟩ : BufTy).Contents (Elt F) → (⟨S64, .f32⟩ : BufTy).Contents (Elt F)),
    unary main_v30 main_v31 (Host.exp : (⟨S64, .f32⟩ : BufTy).Contents (Elt F) → (⟨S64, .f32⟩ : BufTy).Contents (Elt F)),
    nullary main_cst_8 (constant S_ .f32 0x00000000#32),
    binary main_v31 main_cst_8 main_v32 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)),
    nullary main_cst_9 (constant S_ .f32 0x42800000#32),
    binary main_v32 main_cst_9 main_v33 (Host.divf : (⟨S_, .f32⟩ : BufTy).Contents (Elt F) → (⟨S_, .f32⟩ : BufTy).Contents (Elt F) → (⟨S_, .f32⟩ : BufTy).Contents (Elt F)),
    binary main_v23 main_v33 main_v34 (subf : (⟨S_, .f32⟩ : BufTy).Contents (Elt F) → (⟨S_, .f32⟩ : BufTy).Contents (Elt F) → (⟨S_, .f32⟩ : BufTy).Contents (Elt F)),
    nullary main_cst_10 (constant S_ .f32 0xC1200000#32),
    nullary main_cst_11 (constant S_ .f32 0x41200000#32),
    TRef.unary (.of main_cst_10 : TRef sig ⟨S_, .f32⟩) main_call1.v0 id,
    TRef.binary main_call1.v0 (.of main_v34 : TRef sig ⟨S_, .f32⟩) main_call1.v1 maximumf,
    TRef.unary (.of main_cst_11 : TRef sig ⟨S_, .f32⟩) main_call1.v2 id,
    TRef.binary main_call1.v2 main_call1.v1 main_call1.v3 minimumf ]

set_option maxRecDepth 8192 in
/-- @main is that straight line: the functions' definitions unfolded at their calls and the records at their
    fields, both sides are one chain of steps once sequencing is reassociated. -/
theorem main_eq (c : Dev nD) : main (F := F) c = seq ops := by
  simp only [main, fn_trace.body, fn_where.body, fn_clip.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨reshape_bufs_sub .., reshape_bufs_sub .., binary_bufs_sub .., nullary_bufs_sub .., binary_bufs_sub .., unary_bufs_sub ..,
    binary_bufs_sub .., unary_bufs_sub .., unary_bufs_sub .., unary_bufs_sub .., unary_bufs_sub .., binary_bufs_sub ..,
    nullary_bufs_sub .., unary_bufs_sub .., binary_bufs_sub .., binary_bufs_sub .., nullary_bufs_sub .., unary_bufs_sub ..,
    binary_bufs_sub .., nullary_bufs_sub .., unary_bufs_sub .., binary_bufs_sub .., unary_bufs_sub .., nullary_bufs_sub ..,
    binary_bufs_sub .., nullary_bufs_sub .., nullary_bufs_sub .., nullary_bufs_sub .., unary_bufs_sub .., binary_bufs_sub ..,
    binary_bufs_sub .., nullary_bufs_sub .., unary_bufs_sub .., ternary_bufs_sub .., nullary_bufs_sub .., binary_bufs_sub ..,
    binary_bufs_sub .., nullary_bufs_sub .., binary_bufs_sub .., nullary_bufs_sub .., binary_bufs_sub .., unary_bufs_sub ..,
    unary_bufs_sub .., binary_bufs_sub .., binary_bufs_sub .., nullary_bufs_sub .., binary_bufs_sub .., nullary_bufs_sub ..,
    unary_bufs_sub .., binary_bufs_sub .., unary_bufs_sub .., nullary_bufs_sub .., binary_bufs_sub .., nullary_bufs_sub ..,
    binary_bufs_sub .., binary_bufs_sub .., nullary_bufs_sub .., nullary_bufs_sub .., unary_bufs_sub .., binary_bufs_sub ..,
    unary_bufs_sub .., binary_bufs_sub ..⟩

set_option maxRecDepth 8192 in
set_option maxHeartbeats 25000000 in
/-- The fold at the result buffer is `result` of the two arguments' contents: each operation's result read at its
    own buffer is its function's value and at any other buffer what was there; what remains is the same
    composition on both sides (the stages unfolded, the typed references' casts the identity). -/
theorem result_eq (V : Valuation τ sig (Elt F)) :
    after ops V (main_v35 : DevRef τ sig)
      = result (V (main_arg0 : DevRef τ sig)) (V (main_arg1 : DevRef τ sig)) := by
  after_results_simp
  first | rfl | fail "result_eq: rfl failed after after_results_simp"

set_option maxRecDepth 8192 in
set_option maxHeartbeats 4000000 in
theorem arg0_eq (V : Valuation τ sig (Elt F)) :
    after ops V (main_arg0 : DevRef τ sig) = V (main_arg0 : DevRef τ sig) := by
  after_results_simp

set_option maxRecDepth 8192 in
set_option maxHeartbeats 4000000 in
theorem arg1_eq (V : Valuation τ sig (Elt F)) :
    after ops V (main_arg1 : DevRef τ sig) = V (main_arg1 : DevRef τ sig) := by
  after_results_simp

set_option maxRecDepth 8192 in
set_option maxHeartbeats 4000000 in
theorem arg2_eq (V : Valuation τ sig (Elt F)) :
    after ops V (main_arg2 : DevRef τ sig) = V (main_arg2 : DevRef τ sig) := by
  after_results_simp

/-- On every device, for any float values, from any memory with zero counters: every weakly fair execution of
    @main terminates with the result at `result` of the first two arguments and the three arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v35) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c main_v35).trans (result_eq (launchContents m c)),
      (h c main_arg0).trans (arg0_eq (launchContents m c)),
      (h c main_arg1).trans (arg1_eq (launchContents m c)),
      (h c main_arg2).trans (arg2_eq (launchContents m c))⟩)
    (run_seq scopedRefs_eq scopedSems_eq defs main (fun _ => ops) main_eq (fun _ => ops_sub) m ρ)

end Cert.ReferenceIdeal.RefRun

end
-- ==== Proof.FrameClaims.lean ====
/-
  The three frame claims and the idealization claim. Each kernel program runs to the end around its one region and
  leaves its arguments as launched (the frame over the pipeline's proof data, at words and at extended reals alike);
  the reference is host operations only, and its run leaves every argument buffer untouched; the ideal pass rewrote no
  operation of the kernel, so there is nothing to preserve beyond the text itself.
-/
import proofs.«113203_j56899726737831_2_alg».proof.Defs
import proofs.«113203_j56899726737831_2_alg».proof.Proof.Gen.Pre_finite_inputs
import proofs.«113203_j56899726737831_2_alg».proof.Proof.BitsFrame
import proofs.«113203_j56899726737831_2_alg».proof.Proof.IdealFrame
import proofs.«113203_j56899726737831_2_alg».proof.Proof.RefRun

noncomputable section

namespace Cert.Proof.FrameClaims

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

theorem frame_k : Cert.frame_Kernel := fun m ρ _ => Cert.Kernel.Around.frame (F := Bits) m ρ
theorem frame_ki : Cert.frame_KernelIdeal := fun m ρ _ => Cert.KernelIdeal.Around.frame (F := Ideal) m ρ
theorem frame_ri : Cert.frame_ReferenceIdeal := fun m ρ _ =>
  (θ_run Cert.ReferenceIdeal.defs _ _).mono (fun _ h c => (h c).2) (Cert.ReferenceIdeal.RefRun.run (F := Ideal) m ρ)
theorem preserves : Cert.preserves_Kernel_KernelIdeal := trivial

end Cert.Proof.FrameClaims

end
-- ==== Proof.IdealLeaves.lean ====
/-
  What each case of the body leaves in the four accumulators, as values: every store covers its accumulator's whole
  block, so the block ends at the last store's value, and each load of the block between stores reads the store before
  it. A later tile therefore leaves "what it found, plus the four chunks' additions" and a first tile the same over the
  zero block.
-/
import proofs.«113203_j56899726737831_2_alg».proof.Proof.IdealFrame
import Idealize.ShloMosaic.Lib.Pipeline.Value

set_option maxRecDepth 16384

noncomputable section

namespace Cert.KernelIdeal.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

theorem hz3 : (![0, 0, 0] : Fin 3 → Nat) = fun _ => 0 := funext fun a => by fin_cases a <;> rfl

/-- A load of the whole block after stores the last of which covered it reads that store's value. -/
theorem readCov_cons_whole {Val : EltTy → Type} [∀ e, Nonempty (Val e)] {sig : RefSig} {κ : Kind} {sp : Space} {S : Shape} {e : EltTy}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-- Lane chunk `q` of the samples' block and of the target's block, as the body loads them. -/
abbrev xch0 (x0 : Vec F S64x32768 .f32) : Vec F S64x8192 .f32 := View.ld x0 (Rect.unit ![0, 0] S64x8192.size inb_S64x32768_S64x8192_0_0)
abbrev xch1 (x0 : Vec F S64x32768 .f32) : Vec F S64x8192 .f32 := View.ld x0 (Rect.unit ![0, 8192] S64x8192.size inb_S64x32768_S64x8192_0_8192)
abbrev xch2 (x0 : Vec F S64x32768 .f32) : Vec F S64x8192 .f32 := View.ld x0 (Rect.unit ![0, 16384] S64x8192.size inb_S64x32768_S64x8192_0_16384)
abbrev xch3 (x0 : Vec F S64x32768 .f32) : Vec F S64x8192 .f32 := View.ld x0 (Rect.unit ![0, 24576] S64x8192.size inb_S64x32768_S64x8192_0_24576)
abbrev tch0 (x1 : Vec F S1x32768 .f32) : Vec F S1x8192 .f32 := View.ld x1 (Rect.unit ![0, 0] S1x8192.size inb_S1x32768_S1x8192_0_0)
abbrev tch1 (x1 : Vec F S1x32768 .f32) : Vec F S1x8192 .f32 := View.ld x1 (Rect.unit ![0, 8192] S1x8192.size inb_S1x32768_S1x8192_0_8192)
abbrev tch2 (x1 : Vec F S1x32768 .f32) : Vec F S1x8192 .f32 := View.ld x1 (Rect.unit ![0, 16384] S1x8192.size inb_S1x32768_S1x8192_0_16384)
abbrev tch3 (x1 : Vec F S1x32768 .f32) : Vec F S1x8192 .f32 := View.ld x1 (Rect.unit ![0, 24576] S1x8192.size inb_S1x32768_S1x8192_0_24576)

/-- The four chunks' additions to each accumulator, from what it held. -/
def addGram (x0 : Vec F S64x32768 .f32) (p : Vec F S1x64x64 .f32) : Vec F S1x64x64 .f32 :=
  k0_pay29 (k0_pay27 (xch3 x0)) (k0_pay23 (k0_pay22 (xch2 x0) (k0_pay15 (xch1 x0) (k0_pay8 (xch0 x0) p))))
def addXt (x0 : Vec F S64x32768 .f32) (x1 : Vec F S1x32768 .f32) (p : Vec F S1x64x1 .f32) : Vec F S1x64x1 .f32 :=
  k0_pay30 (k0_pay27 (xch3 x0)) (tch3 x1) (k0_pay24 (k0_pay20 (xch2 x0)) (k0_pay21 (tch2 x1)) (k0_pay17 (k0_pay16 (xch1 x0) (tch1 x1) (k0_pay9 (xch0 x0) (tch0 x1) p))))
def addTt (x1 : Vec F S1x32768 .f32) (p : Vec F S1x1x1 .f32) : Vec F S1x1x1 .f32 :=
  k0_pay31 (tch3 x1) (k0_pay25 (k0_pay21 (tch2 x1)) (k0_pay18 (k0_pay14 (tch1 x1)) (k0_pay11 (k0_pay10 (tch0 x1) p))))
def addSq (x0 : Vec F S64x32768 .f32) (p : Vec F S1x64x1 .f32) : Vec F S1x64x1 .f32 :=
  k0_pay1 (k0_pay27 (xch3 x0)) (k0_pay32 (k0_pay26 (k0_pay20 (xch2 x0)) (k0_pay19 (k0_pay13 (xch1 x0)) (k0_pay12 (k0_pay6 (xch0 x0)) p))))

/-- A later tile leaves, in the accumulator of the Gram block, what it found plus the four chunks' additions. -/
theorem leavesAccum_4 (c : Dev nD) (i : grid0.Coords) (arg2 : Memref sig .tc .vmem S64x32768 .f32) (harg2 : arg2.IsWhole) (arg3 : Memref sig .tc .vmem S1x32768 .f32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x1x1 .f32) (harg6 : arg6.IsWhole) (arg7 : Memref sig .tc .vmem S1x64x1 .f32) (harg7 : arg7.IsWhole) (hc0 : ¬cond0_0 i)
    (x0 : Vec F S64x32768 .f32) (x1 : Vec F S1x32768 .f32) (xo4 : Vec F S1x64x64 .f32) (xo5 : Vec F S1x64x1 .f32) (xo6 : Vec F S1x1x1 .f32) (xo7 : Vec F S1x64x1 .f32) :
    outAccum_4 c i arg2 harg2 arg3 harg3 arg4 harg4 arg5 harg5 arg6 harg6 arg7 harg7 hc0 x0 x1 xo4 xo5 xo6 xo7 = addGram x0 xo4 := by
  unfold outAccum_4
  rw [View.read_writes_eq_canon _ _ _ (coverAccum_4 c i arg2 harg2 arg3 harg3 arg4 harg4 arg5 harg5 arg6 harg6 arg7 harg7 hc0 x0 x1 xo4 xo5 xo6 xo7)]
  unfold accumRun
  dsimp only
  sl_unfold_run_names
  rw [View.canon_cons_unit_zero (S := S1x64x64) hz3]
  simp only [readCov_cons_whole (S := S1x64x64) _ hz3, View.readCov_unit_zero (S := S1x64x64) _ hz3, View.readAt_eq_ld, harg2.read_unread, harg3.read_unread, harg4.read_unread, harg5.read_unread, harg6.read_unread, harg7.read_unread, View.ld_unit_zero (S := S1x64x64) hz3]
  rfl

/-- A first tile leaves there the four chunks' additions to the zero block. -/
theorem leavesReset_4 (c : Dev nD) (i : grid0.Coords) (arg2 : Memref sig .tc .vmem S64x32768 .f32) (harg2 : arg2.IsWhole) (arg3 : Memref sig .tc .vmem S1x32768 .f32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x1x1 .f32) (harg6 : arg6.IsWhole) (arg7 : Memref sig .tc .vmem S1x64x1 .f32) (harg7 : arg7.IsWhole) (hc0 : cond0_0 i)
    (x0 : Vec F S64x32768 .f32) (x1 : Vec F S1x32768 .f32) :
    outReset_4 c i arg2 harg2 arg3 harg3 arg4 harg4 arg5 harg5 arg6 harg6 arg7 harg7 hc0 x0 x1 = addGram x0 k0_pay2 := by
  unfold outReset_4
  rw [View.read_writes_eq_canon _ _ _ (coverReset_4 c i arg2 harg2 arg3 harg3 arg4 harg4 arg5 harg5 arg6 harg6 arg7 harg7 hc0 x0 x1)]
  unfold resetRun
  dsimp only
  sl_unfold_run_names
  rw [View.canon_cons_unit_zero (S := S1x64x64) hz3]
  simp only [readCov_cons_whole (S := S1x64x64) _ hz3, View.readCov_unit_zero (S := S1x64x64) _ hz3, View.readAt_eq_ld, harg2.read_unread, harg3.read_unread, harg4.read_unread, harg5.read_unread, harg6.read_unread, harg7.read_unread, View.ld_unit_zero (S := S1x64x64) hz3]
  rfl

/-- A later tile leaves, in the accumulator of the products with the target, what it found plus the four chunks' additions. -/
theorem leavesAccum_5 (c : Dev nD) (i : grid0.Coords) (arg2 : Memref sig .tc .vmem S64x32768 .f32) (harg2 : arg2.IsWhole) (arg3 : Memref sig .tc .vmem S1x32768 .f32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x1x1 .f32) (harg6 : arg6.IsWhole) (arg7 : Memref sig .tc .vmem S1x64x1 .f32) (harg7 : arg7.IsWhole) (hc0 : ¬cond0_0 i)
    (x0 : Vec F S64x32768 .f32) (x1 : Vec F S1x32768 .f32) (xo4 : Vec F S1x64x64 .f32) (xo5 : Vec F S1x64x1 .f32) (xo6 : Vec F S1x1x1 .f32) (xo7 : Vec F S1x64x1 .f32) :
    outAccum_5 c i arg2 harg2 arg3 harg3 arg4 harg4 arg5 harg5 arg6 harg6 arg7 harg7 hc0 x0 x1 xo4 xo5 xo6 xo7 = addXt x0 x1 xo5 := by
  unfold outAccum_5
  rw [View.read_writes_eq_canon _ _ _ (coverAccum_5 c i arg2 harg2 arg3 harg3 arg4 harg4 arg5 harg5 arg6 harg6 arg7 harg7 hc0 x0 x1 xo4 xo5 xo6 xo7)]
  unfold accumRun
  dsimp only
  sl_unfold_run_names
  rw [View.canon_cons_unit_zero (S := S1x64x1) hz3]
  simp only [readCov_cons_whole (S := S1x64x1) _ hz3, View.readCov_unit_zero (S := S1x64x1) _ hz3, View.readAt_eq_ld, harg2.read_unread, harg3.read_unread, harg4.read_unread, harg5.read_unread, harg6.read_unread, harg7.read_unread, View.ld_unit_zero (S := S1x64x1) hz3]
  rfl

/-- A first tile leaves there the four chunks' additions to the zero block. -/
theorem leavesReset_5 (c : Dev nD) (i : grid0.Coords) (arg2 : Memref sig .tc .vmem S64x32768 .f32) (harg2 : arg2.IsWhole) (arg3 : Memref sig .tc .vmem S1x32768 .f32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x1x1 .f32) (harg6 : arg6.IsWhole) (arg7 : Memref sig .tc .vmem S1x64x1 .f32) (harg7 : arg7.IsWhole) (hc0 : cond0_0 i)
    (x0 : Vec F S64x32768 .f32) (x1 : Vec F S1x32768 .f32) :
    outReset_5 c i arg2 harg2 arg3 harg3 arg4 harg4 arg5 harg5 arg6 harg6 arg7 harg7 hc0 x0 x1 = addXt x0 x1 k0_pay3 := by
  unfold outReset_5
  rw [View.read_writes_eq_canon _ _ _ (coverReset_5 c i arg2 harg2 arg3 harg3 arg4 harg4 arg5 harg5 arg6 harg6 arg7 harg7 hc0 x0 x1)]
  unfold resetRun
  dsimp only
  sl_unfold_run_names
  rw [View.canon_cons_unit_zero (S := S1x64x1) hz3]
  simp only [readCov_cons_whole (S := S1x64x1) _ hz3, View.readCov_unit_zero (S := S1x64x1) _ hz3, View.readAt_eq_ld, harg2.read_unread, harg3.read_unread, harg4.read_unread, harg5.read_unread, harg6.read_unread, harg7.read_unread, View.ld_unit_zero (S := S1x64x1) hz3]
  rfl

/-- A later tile leaves, in the accumulator of the target's squares, what it found plus the four chunks' additions. -/
theorem leavesAccum_6 (c : Dev nD) (i : grid0.Coords) (arg2 : Memref sig .tc .vmem S64x32768 .f32) (harg2 : arg2.IsWhole) (arg3 : Memref sig .tc .vmem S1x32768 .f32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x1x1 .f32) (harg6 : arg6.IsWhole) (arg7 : Memref sig .tc .vmem S1x64x1 .f32) (harg7 : arg7.IsWhole) (hc0 : ¬cond0_0 i)
    (x0 : Vec F S64x32768 .f32) (x1 : Vec F S1x32768 .f32) (xo4 : Vec F S1x64x64 .f32) (xo5 : Vec F S1x64x1 .f32) (xo6 : Vec F S1x1x1 .f32) (xo7 : Vec F S1x64x1 .f32) :
    outAccum_6 c i arg2 harg2 arg3 harg3 arg4 harg4 arg5 harg5 arg6 harg6 arg7 harg7 hc0 x0 x1 xo4 xo5 xo6 xo7 = addTt x1 xo6 := by
  unfold outAccum_6
  rw [View.read_writes_eq_canon _ _ _ (coverAccum_6 c i arg2 harg2 arg3 harg3 arg4 harg4 arg5 harg5 arg6 harg6 arg7 harg7 hc0 x0 x1 xo4 xo5 xo6 xo7)]
  unfold accumRun
  dsimp only
  sl_unfold_run_names
  rw [View.canon_cons_unit_zero (S := S1x1x1) hz3]
  simp only [readCov_cons_whole (S := S1x1x1) _ hz3, View.readCov_unit_zero (S := S1x1x1) _ hz3, View.readAt_eq_ld, harg2.read_unread, harg3.read_unread, harg4.read_unread, harg5.read_unread, harg6.read_unread, harg7.read_unread, View.ld_unit_zero (S := S1x1x1) hz3]
  rfl

/-- A first tile leaves there the four chunks' additions to the zero block. -/
theorem leavesReset_6 (c : Dev nD) (i : grid0.Coords) (arg2 : Memref sig .tc .vmem S64x32768 .f32) (harg2 : arg2.IsWhole) (arg3 : Memref sig .tc .vmem S1x32768 .f32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x1x1 .f32) (harg6 : arg6.IsWhole) (arg7 : Memref sig .tc .vmem S1x64x1 .f32) (harg7 : arg7.IsWhole) (hc0 : cond0_0 i)
    (x0 : Vec F S64x32768 .f32) (x1 : Vec F S1x32768 .f32) :
    outReset_6 c i arg2 harg2 arg3 harg3 arg4 harg4 arg5 harg5 arg6 harg6 arg7 harg7 hc0 x0 x1 = addTt x1 k0_pay4 := by
  unfold outReset_6
  rw [View.read_writes_eq_canon _ _ _ (coverReset_6 c i arg2 harg2 arg3 harg3 arg4 harg4 arg5 harg5 arg6 harg6 arg7 harg7 hc0 x0 x1)]
  unfold resetRun
  dsimp only
  sl_unfold_run_names
  rw [View.canon_cons_unit_zero (S := S1x1x1) hz3]
  simp only [readCov_cons_whole (S := S1x1x1) _ hz3, View.readCov_unit_zero (S := S1x1x1) _ hz3, View.readAt_eq_ld, harg2.read_unread, harg3.read_unread, harg4.read_unread, harg5.read_unread, harg6.read_unread, harg7.read_unread, View.ld_unit_zero (S := S1x1x1) hz3]
  rfl

/-- A later tile leaves, in the accumulator of the samples' squares, what it found plus the four chunks' additions. -/
theorem leavesAccum_7 (c : Dev nD) (i : grid0.Coords) (arg2 : Memref sig .tc .vmem S64x32768 .f32) (harg2 : arg2.IsWhole) (arg3 : Memref sig .tc .vmem S1x32768 .f32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x1x1 .f32) (harg6 : arg6.IsWhole) (arg7 : Memref sig .tc .vmem S1x64x1 .f32) (harg7 : arg7.IsWhole) (hc0 : ¬cond0_0 i)
    (x0 : Vec F S64x32768 .f32) (x1 : Vec F S1x32768 .f32) (xo4 : Vec F S1x64x64 .f32) (xo5 : Vec F S1x64x1 .f32) (xo6 : Vec F S1x1x1 .f32) (xo7 : Vec F S1x64x1 .f32) :
    outAccum_7 c i arg2 harg2 arg3 harg3 arg4 harg4 arg5 harg5 arg6 harg6 arg7 harg7 hc0 x0 x1 xo4 xo5 xo6 xo7 = addSq x0 xo7 := by
  unfold outAccum_7
  rw [View.read_writes_eq_canon _ _ _ (coverAccum_7 c i arg2 harg2 arg3 harg3 arg4 harg4 arg5 harg5 arg6 harg6 arg7 harg7 hc0 x0 x1 xo4 xo5 xo6 xo7)]
  unfold accumRun
  dsimp only
  sl_unfold_run_names
  rw [View.canon_cons_unit_zero (S := S1x64x1) hz3]
  simp only [readCov_cons_whole (S := S1x64x1) _ hz3, View.readCov_unit_zero (S := S1x64x1) _ hz3, View.readAt_eq_ld, harg2.read_unread, harg3.read_unread, harg4.read_unread, harg5.read_unread, harg6.read_unread, harg7.read_unread, View.ld_unit_zero (S := S1x64x1) hz3]
  rfl

/-- A first tile leaves there the four chunks' additions to the zero block. -/
theorem leavesReset_7 (c : Dev nD) (i : grid0.Coords) (arg2 : Memref sig .tc .vmem S64x32768 .f32) (harg2 : arg2.IsWhole) (arg3 : Memref sig .tc .vmem S1x32768 .f32) (harg3 : arg3.IsWhole) (arg4 : Memref sig .tc .vmem S1x64x64 .f32) (harg4 : arg4.IsWhole) (arg5 : Memref sig .tc .vmem S1x64x1 .f32) (harg5 : arg5.IsWhole) (arg6 : Memref sig .tc .vmem S1x1x1 .f32) (harg6 : arg6.IsWhole) (arg7 : Memref sig .tc .vmem S1x64x1 .f32) (harg7 : arg7.IsWhole) (hc0 : cond0_0 i)
    (x0 : Vec F S64x32768 .f32) (x1 : Vec F S1x32768 .f32) :
    outReset_7 c i arg2 harg2 arg3 harg3 arg4 harg4 arg5 harg5 arg6 harg6 arg7 harg7 hc0 x0 x1 = addSq x0 k0_pay5 := by
  unfold outReset_7
  rw [View.read_writes_eq_canon _ _ _ (coverReset_7 c i arg2 harg2 arg3 harg3 arg4 harg4 arg5 harg5 arg6 harg6 arg7 harg7 hc0 x0 x1)]
  unfold resetRun
  dsimp only
  sl_unfold_run_names
  rw [View.canon_cons_unit_zero (S := S1x64x1) hz3]
  simp only [readCov_cons_whole (S := S1x64x1) _ hz3, View.readCov_unit_zero (S := S1x64x1) _ hz3, View.readAt_eq_ld, harg2.read_unread, harg3.read_unread, harg4.read_unread, harg5.read_unread, harg6.read_unread, harg7.read_unread, View.ld_unit_zero (S := S1x64x1) hz3]
  rfl

end Cert.KernelIdeal.Around

end
-- ==== Proof.IdealHalves.lean ====
/-
  What the region leaves in its four output arrays: each array has one slab per half of the lanes, written back once,
  after the half's eighth tile, from the accumulator's staging buffer — so slab `h` is the accumulator's contents after
  point `8h + 7`, and the two slabs cover the array.
-/
import proofs.«113203_j56899726737831_2_alg».proof.Proof.IdealLeaves
import Idealize.ShloMosaic.Lib.Pipeline.Value
import Idealize.ShloMosaic.Lib.ValueIdx

set_option maxRecDepth 16384

noncomputable section

namespace Cert.KernelIdeal.Around

open Idealize.ShloMosaic Idealize.ShloMosaic.TcCoe Idealize.ShloMosaic.Tactic Idealize.ShloMosaic.ValueIdx
open Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-- A position below sixteen is a grid point. -/
theorem ltN {n : ℕ} (h : n < 16) : n < cfg0.N := lt_of_lt_of_eq h (show 16 = cfg0.N from N_0.symm)

/-- The accumulators' contents depend on the position only. -/
theorem outsAt0_congr (c : Dev nD) {n n' : ℕ} (e : n = n') (h : n < cfg0.N) (h' : n' < cfg0.N) :
    outsAt0 m c n h = outsAt0 m c n' h' := by subst e; rfl

/-! ## Window 2: the Gram -/

/-- The printed index map of window 2, decided over the grid: block `(half, 0, 0)`. -/
theorem idx_facts2 : ∀ t : Fin cfg0.N, win0_2.index t (0 : Fin 3) = t.val / 8 ∧ win0_2.index t (1 : Fin 3) = 0 ∧ win0_2.index t (2 : Fin 3) = 0 :=
  (by decide +kernel : ∀ t : Fin grid0.N, _)

/-- What the array ends holding: slab `h` is the accumulator's contents after half `h`'s eighth tile. -/
def half2 (c : Dev nD) : S2x64x64.Idx → Elt F .f32 := fun i =>
  (outsAt0 m c (8 * (i 0).val + 7) (ltN (by have h2 : (i 0).val < 2 := (i 0).isLt; omega))).1 (ix3 0 (i 1) (i 2))

/-- What point `t` writes back (a half's eighth tile) is block `t` of that. -/
theorem flushed2_eq (c : Dev nD) (t : Fin cfg0.N) (hf : (cfg0.win 2).flush t = true) :
    (dats m 0 c).flushed 2 t = ((cfg0.win 2).blk t).view.read (Elt F) (half2 m c) := by
  show (cfg0.win 2).cut (grid0.coords t) ((dats m 0 c).after 2 t) = _
  rw [after0_2]
  have h7 : t.val % 8 = 7 := (flush0_2 t).mp hf
  have hN : t.val < 16 := lt_of_lt_of_eq t.isLt (show cfg0.N = 16 from N_0)
  obtain ⟨e0, e1, e2⟩ := idx_facts2 t
  funext j
  show (outsAt0 m c t.val t.isLt).1 j = half2 m c (((cfg0.win 2).blk t).view.emb j)
  unfold half2
  have hj0 : (j 0).val < 1 := (j 0).isLt
  have k0 : ((((cfg0.win 2).blk t).view.emb j) 0).val = t.val / 8 := by
    show win0_2.index t (0 : Fin 3) * 1 + 1 * (j 0).val = _; omega
  have hn : 8 * ((((cfg0.win 2).blk t).view.emb j) 0).val + 7 = t.val := by rw [k0]; omega
  have hidx : (ix3 0 ((((cfg0.win 2).blk t).view.emb j) 1) ((((cfg0.win 2).blk t).view.emb j) 2) : S1x64x64.Idx) = j := by
    funext a; apply Fin.ext
    match a with
    | ⟨0, _⟩ => show 0 = (j 0).val; omega
    | ⟨1, _⟩ => show win0_2.index t (1 : Fin 3) * 64 + 1 * (j 1).val = (j 1).val; omega
    | ⟨2, _⟩ => show win0_2.index t (2 : Fin 3) * 64 + 1 * (j 2).val = (j 2).val; omega
  rw [hidx]
  exact congrArg (fun z => z.1 j) (outsAt0_congr m c hn.symm _ _)

/-- An index of the array is in point `t`'s block iff each coordinate is in the block's range on its axis. -/
theorem mem_blk2 (t : Fin cfg0.N) (i : S2x64x64.Idx) :
    i ∈ ((cfg0.win 2).blk t).view.set ↔ ∀ a : Fin 3, win0_2.index t a * S1x64x64.size a ≤ (i a).val ∧ (i a).val < win0_2.index t a * S1x64x64.size a + S1x64x64.size a := by
  show i ∈ ((View.whole main_v2_0).slice (win0_2.rect t)).set ↔ _
  rw [View.set_slice_whole, Rect.mem_set_unit]
  exact Iff.rfl

/-- After the region the array is that, everywhere: slab `h` is written back at point `8h + 7`. -/
theorem final2 (c : Dev nD) : (dats m 0 c).arrAt 2 cfg0.N = half2 m c :=
  (dats m 0 c).arrAt_eq_of_cover 2 (half2 m c) (flushed2_eq m c) fun i => by
    have h0 : (i 0).val < 2 := (i 0).isLt
    have h1 : (i 1).val < 64 := (i 1).isLt
    have h2 : (i 2).val < 64 := (i 2).isLt
    refine ⟨⟨8 * (i 0).val + 7, ltN (by omega)⟩, (flush0_2 _).mpr (by show (8 * (i 0).val + 7) % 8 = 7; omega), ?_⟩
    rw [mem_blk2]
    obtain ⟨e0, e1, e2⟩ := idx_facts2 ⟨8 * (i 0).val + 7, ltN (by omega)⟩
    have e0' : win0_2.index ⟨8 * (i 0).val + 7, ltN (by omega)⟩ (0 : Fin 3) = (i 0).val := by rw [e0]; show (8 * (i 0).val + 7) / 8 = _; omega
    intro a
    match a with
    | ⟨0, _⟩ => show win0_2.index _ (0 : Fin 3) * 1 ≤ (i 0).val ∧ (i 0).val < win0_2.index _ (0 : Fin 3) * 1 + 1; omega
    | ⟨1, _⟩ => show win0_2.index _ (1 : Fin 3) * 64 ≤ (i 1).val ∧ (i 1).val < win0_2.index _ (1 : Fin 3) * 64 + 64; omega
    | ⟨2, _⟩ => show win0_2.index _ (2 : Fin 3) * 64 ≤ (i 2).val ∧ (i 2).val < win0_2.index _ (2 : Fin 3) * 64 + 64; omega

/-! ## Window 3: the products with the target -/

/-- The printed index map of window 3, decided over the grid: block `(half, 0, 0)`. -/
theorem idx_facts3 : ∀ t : Fin cfg0.N, win0_3.index t (0 : Fin 3) = t.val / 8 ∧ win0_3.index t (1 : Fin 3) = 0 ∧ win0_3.index t (2 : Fin 3) = 0 :=
  (by decide +kernel : ∀ t : Fin grid0.N, _)

/-- What the array ends holding: slab `h` is the accumulator's contents after half `h`'s eighth tile. -/
def half3 (c : Dev nD) : S2x64x1.Idx → Elt F .f32 := fun i =>
  (outsAt0 m c (8 * (i 0).val + 7) (ltN (by have h2 : (i 0).val < 2 := (i 0).isLt; omega))).2.1 (ix3 0 (i 1) (i 2))

/-- What point `t` writes back (a half's eighth tile) is block `t` of that. -/
theorem flushed3_eq (c : Dev nD) (t : Fin cfg0.N) (hf : (cfg0.win 3).flush t = true) :
    (dats m 0 c).flushed 3 t = ((cfg0.win 3).blk t).view.read (Elt F) (half3 m c) := by
  show (cfg0.win 3).cut (grid0.coords t) ((dats m 0 c).after 3 t) = _
  rw [after0_3]
  have h7 : t.val % 8 = 7 := (flush0_3 t).mp hf
  have hN : t.val < 16 := lt_of_lt_of_eq t.isLt (show cfg0.N = 16 from N_0)
  obtain ⟨e0, e1, e2⟩ := idx_facts3 t
  funext j
  show (outsAt0 m c t.val t.isLt).2.1 j = half3 m c (((cfg0.win 3).blk t).view.emb j)
  unfold half3
  have hj0 : (j 0).val < 1 := (j 0).isLt
  have k0 : ((((cfg0.win 3).blk t).view.emb j) 0).val = t.val / 8 := by
    show win0_3.index t (0 : Fin 3) * 1 + 1 * (j 0).val = _; omega
  have hn : 8 * ((((cfg0.win 3).blk t).view.emb j) 0).val + 7 = t.val := by rw [k0]; omega
  have hidx : (ix3 0 ((((cfg0.win 3).blk t).view.emb j) 1) ((((cfg0.win 3).blk t).view.emb j) 2) : S1x64x1.Idx) = j := by
    funext a; apply Fin.ext
    match a with
    | ⟨0, _⟩ => show 0 = (j 0).val; omega
    | ⟨1, _⟩ => show win0_3.index t (1 : Fin 3) * 64 + 1 * (j 1).val = (j 1).val; omega
    | ⟨2, _⟩ => show win0_3.index t (2 : Fin 3) * 1 + 1 * (j 2).val = (j 2).val; omega
  rw [hidx]
  exact congrArg (fun z => z.2.1 j) (outsAt0_congr m c hn.symm _ _)

/-- An index of the array is in point `t`'s block iff each coordinate is in the block's range on its axis. -/
theorem mem_blk3 (t : Fin cfg0.N) (i : S2x64x1.Idx) :
    i ∈ ((cfg0.win 3).blk t).view.set ↔ ∀ a : Fin 3, win0_3.index t a * S1x64x1.size a ≤ (i a).val ∧ (i a).val < win0_3.index t a * S1x64x1.size a + S1x64x1.size a := by
  show i ∈ ((View.whole main_v2_1).slice (win0_3.rect t)).set ↔ _
  rw [View.set_slice_whole, Rect.mem_set_unit]
  exact Iff.rfl

/-- After the region the array is that, everywhere: slab `h` is written back at point `8h + 7`. -/
theorem final3 (c : Dev nD) : (dats m 0 c).arrAt 3 cfg0.N = half3 m c :=
  (dats m 0 c).arrAt_eq_of_cover 3 (half3 m c) (flushed3_eq m c) fun i => by
    have h0 : (i 0).val < 2 := (i 0).isLt
    have h1 : (i 1).val < 64 := (i 1).isLt
    have h2 : (i 2).val < 1 := (i 2).isLt
    refine ⟨⟨8 * (i 0).val + 7, ltN (by omega)⟩, (flush0_3 _).mpr (by show (8 * (i 0).val + 7) % 8 = 7; omega), ?_⟩
    rw [mem_blk3]
    obtain ⟨e0, e1, e2⟩ := idx_facts3 ⟨8 * (i 0).val + 7, ltN (by omega)⟩
    have e0' : win0_3.index ⟨8 * (i 0).val + 7, ltN (by omega)⟩ (0 : Fin 3) = (i 0).val := by rw [e0]; show (8 * (i 0).val + 7) / 8 = _; omega
    intro a
    match a with
    | ⟨0, _⟩ => show win0_3.index _ (0 : Fin 3) * 1 ≤ (i 0).val ∧ (i 0).val < win0_3.index _ (0 : Fin 3) * 1 + 1; omega
    | ⟨1, _⟩ => show win0_3.index _ (1 : Fin 3) * 64 ≤ (i 1).val ∧ (i 1).val < win0_3.index _ (1 : Fin 3) * 64 + 64; omega
    | ⟨2, _⟩ => show win0_3.index _ (2 : Fin 3) * 1 ≤ (i 2).val ∧ (i 2).val < win0_3.index _ (2 : Fin 3) * 1 + 1; omega

/-! ## Window 4: the target's squares -/

/-- The printed index map of window 4, decided over the grid: block `(half, 0, 0)`. -/
theorem idx_facts4 : ∀ t : Fin cfg0.N, win0_4.index t (0 : Fin 3) = t.val / 8 ∧ win0_4.index t (1 : Fin 3) = 0 ∧ win0_4.index t (2 : Fin 3) = 0 :=
  (by decide +kernel : ∀ t : Fin grid0.N, _)

/-- What the array ends holding: slab `h` is the accumulator's contents after half `h`'s eighth tile. -/
def half4 (c : Dev nD) : S2x1x1.Idx → Elt F .f32 := fun i =>
  (outsAt0 m c (8 * (i 0).val + 7) (ltN (by have h2 : (i 0).val < 2 := (i 0).isLt; omega))).2.2.1 (ix3 0 (i 1) (i 2))

/-- What point `t` writes back (a half's eighth tile) is block `t` of that. -/
theorem flushed4_eq (c : Dev nD) (t : Fin cfg0.N) (hf : (cfg0.win 4).flush t = true) :
    (dats m 0 c).flushed 4 t = ((cfg0.win 4).blk t).view.read (Elt F) (half4 m c) := by
  show (cfg0.win 4).cut (grid0.coords t) ((dats m 0 c).after 4 t) = _
  rw [after0_4]
  have h7 : t.val % 8 = 7 := (flush0_4 t).mp hf
  have hN : t.val < 16 := lt_of_lt_of_eq t.isLt (show cfg0.N = 16 from N_0)
  obtain ⟨e0, e1, e2⟩ := idx_facts4 t
  funext j
  show (outsAt0 m c t.val t.isLt).2.2.1 j = half4 m c (((cfg0.win 4).blk t).view.emb j)
  unfold half4
  have hj0 : (j 0).val < 1 := (j 0).isLt
  have k0 : ((((cfg0.win 4).blk t).view.emb j) 0).val = t.val / 8 := by
    show win0_4.index t (0 : Fin 3) * 1 + 1 * (j 0).val = _; omega
  have hn : 8 * ((((cfg0.win 4).blk t).view.emb j) 0).val + 7 = t.val := by rw [k0]; omega
  have hidx : (ix3 0 ((((cfg0.win 4).blk t).view.emb j) 1) ((((cfg0.win 4).blk t).view.emb j) 2) : S1x1x1.Idx) = j := by
    funext a; apply Fin.ext
    match a with
    | ⟨0, _⟩ => show 0 = (j 0).val; omega
    | ⟨1, _⟩ => show win0_4.index t (1 : Fin 3) * 1 + 1 * (j 1).val = (j 1).val; omega
    | ⟨2, _⟩ => show win0_4.index t (2 : Fin 3) * 1 + 1 * (j 2).val = (j 2).val; omega
  rw [hidx]
  exact congrArg (fun z => z.2.2.1 j) (outsAt0_congr m c hn.symm _ _)

/-- An index of the array is in point `t`'s block iff each coordinate is in the block's range on its axis. -/
theorem mem_blk4 (t : Fin cfg0.N) (i : S2x1x1.Idx) :
    i ∈ ((cfg0.win 4).blk t).view.set ↔ ∀ a : Fin 3, win0_4.index t a * S1x1x1.size a ≤ (i a).val ∧ (i a).val < win0_4.index t a * S1x1x1.size a + S1x1x1.size a := by
  show i ∈ ((View.whole main_v2_2).slice (win0_4.rect t)).set ↔ _
  rw [View.set_slice_whole, Rect.mem_set_unit]
  exact Iff.rfl

/-- After the region the array is that, everywhere: slab `h` is written back at point `8h + 7`. -/
theorem final4 (c : Dev nD) : (dats m 0 c).arrAt 4 cfg0.N = half4 m c :=
  (dats m 0 c).arrAt_eq_of_cover 4 (half4 m c) (flushed4_eq m c) fun i => by
    have h0 : (i 0).val < 2 := (i 0).isLt
    have h1 : (i 1).val < 1 := (i 1).isLt
    have h2 : (i 2).val < 1 := (i 2).isLt
    refine ⟨⟨8 * (i 0).val + 7, ltN (by omega)⟩, (flush0_4 _).mpr (by show (8 * (i 0).val + 7) % 8 = 7; omega), ?_⟩
    rw [mem_blk4]
    obtain ⟨e0, e1, e2⟩ := idx_facts4 ⟨8 * (i 0).val + 7, ltN (by omega)⟩
    have e0' : win0_4.index ⟨8 * (i 0).val + 7, ltN (by omega)⟩ (0 : Fin 3) = (i 0).val := by rw [e0]; show (8 * (i 0).val + 7) / 8 = _; omega
    intro a
    match a with
    | ⟨0, _⟩ => show win0_4.index _ (0 : Fin 3) * 1 ≤ (i 0).val ∧ (i 0).val < win0_4.index _ (0 : Fin 3) * 1 + 1; omega
    | ⟨1, _⟩ => show win0_4.index _ (1 : Fin 3) * 1 ≤ (i 1).val ∧ (i 1).val < win0_4.index _ (1 : Fin 3) * 1 + 1; omega
    | ⟨2, _⟩ => show win0_4.index _ (2 : Fin 3) * 1 ≤ (i 2).val ∧ (i 2).val < win0_4.index _ (2 : Fin 3) * 1 + 1; omega

/-! ## Window 5: the samples' squares -/

/-- The printed index map of window 5, decided over the grid: block `(half, 0, 0)`. -/
theorem idx_facts5 : ∀ t : Fin cfg0.N, win0_5.index t (0 : Fin 3) = t.val / 8 ∧ win0_5.index t (1 : Fin 3) = 0 ∧ win0_5.index t (2 : Fin 3) = 0 :=
  (by decide +kernel : ∀ t : Fin grid0.N, _)

/-- What the array ends holding: slab `h` is the accumulator's contents after half `h`'s eighth tile. -/
def half5 (c : Dev nD) : S2x64x1.Idx → Elt F .f32 := fun i =>
  (outsAt0 m c (8 * (i 0).val + 7) (ltN (by have h2 : (i 0).val < 2 := (i 0).isLt; omega))).2.2.2 (ix3 0 (i 1) (i 2))

/-- What point `t` writes back (a half's eighth tile) is block `t` of that. -/
theorem flushed5_eq (c : Dev nD) (t : Fin cfg0.N) (hf : (cfg0.win 5).flush t = true) :
    (dats m 0 c).flushed 5 t = ((cfg0.win 5).blk t).view.read (Elt F) (half5 m c) := by
  show (cfg0.win 5).cut (grid0.coords t) ((dats m 0 c).after 5 t) = _
  rw [after0_5]
  have h7 : t.val % 8 = 7 := (flush0_5 t).mp hf
  have hN : t.val < 16 := lt_of_lt_of_eq t.isLt (show cfg0.N = 16 from N_0)
  obtain ⟨e0, e1, e2⟩ := idx_facts5 t
  funext j
  show (outsAt0 m c t.val t.isLt).2.2.2 j = half5 m c (((cfg0.win 5).blk t).view.emb j)
  unfold half5
  have hj0 : (j 0).val < 1 := (j 0).isLt
  have k0 : ((((cfg0.win 5).blk t).view.emb j) 0).val = t.val / 8 := by
    show win0_5.index t (0 : Fin 3) * 1 + 1 * (j 0).val = _; omega
  have hn : 8 * ((((cfg0.win 5).blk t).view.emb j) 0).val + 7 = t.val := by rw [k0]; omega
  have hidx : (ix3 0 ((((cfg0.win 5).blk t).view.emb j) 1) ((((cfg0.win 5).blk t).view.emb j) 2) : S1x64x1.Idx) = j := by
    funext a; apply Fin.ext
    match a with
    | ⟨0, _⟩ => show 0 = (j 0).val; omega
    | ⟨1, _⟩ => show win0_5.index t (1 : Fin 3) * 64 + 1 * (j 1).val = (j 1).val; omega
    | ⟨2, _⟩ => show win0_5.index t (2 : Fin 3) * 1 + 1 * (j 2).val = (j 2).val; omega
  rw [hidx]
  exact congrArg (fun z => z.2.2.2 j) (outsAt0_congr m c hn.symm _ _)

/-- An index of the array is in point `t`'s block iff each coordinate is in the block's range on its axis. -/
theorem mem_blk5 (t : Fin cfg0.N) (i : S2x64x1.Idx) :
    i ∈ ((cfg0.win 5).blk t).view.set ↔ ∀ a : Fin 3, win0_5.index t a * S1x64x1.size a ≤ (i a).val ∧ (i a).val < win0_5.index t a * S1x64x1.size a + S1x64x1.size a := by
  show i ∈ ((View.whole main_v2_3).slice (win0_5.rect t)).set ↔ _
  rw [View.set_slice_whole, Rect.mem_set_unit]
  exact Iff.rfl

/-- After the region the array is that, everywhere: slab `h` is written back at point `8h + 7`. -/
theorem final5 (c : Dev nD) : (dats m 0 c).arrAt 5 cfg0.N = half5 m c :=
  (dats m 0 c).arrAt_eq_of_cover 5 (half5 m c) (flushed5_eq m c) fun i => by
    have h0 : (i 0).val < 2 := (i 0).isLt
    have h1 : (i 1).val < 64 := (i 1).isLt
    have h2 : (i 2).val < 1 := (i 2).isLt
    refine ⟨⟨8 * (i 0).val + 7, ltN (by omega)⟩, (flush0_5 _).mpr (by show (8 * (i 0).val + 7) % 8 = 7; omega), ?_⟩
    rw [mem_blk5]
    obtain ⟨e0, e1, e2⟩ := idx_facts5 ⟨8 * (i 0).val + 7, ltN (by omega)⟩
    have e0' : win0_5.index ⟨8 * (i 0).val + 7, ltN (by omega)⟩ (0 : Fin 3) = (i 0).val := by rw [e0]; show (8 * (i 0).val + 7) / 8 = _; omega
    intro a
    match a with
    | ⟨0, _⟩ => show win0_5.index _ (0 : Fin 3) * 1 ≤ (i 0).val ∧ (i 0).val < win0_5.index _ (0 : Fin 3) * 1 + 1; omega
    | ⟨1, _⟩ => show win0_5.index _ (1 : Fin 3) * 64 ≤ (i 1).val ∧ (i 1).val < win0_5.index _ (1 : Fin 3) * 64 + 64; omega
    | ⟨2, _⟩ => show win0_5.index _ (2 : Fin 3) * 1 ≤ (i 2).val ∧ (i 2).val < win0_5.index _ (2 : Fin 3) * 1 + 1; omega

end Cert.KernelIdeal.Around

end
-- ==== Proof.IdealBlocks.lean ====
/-
  The input windows' blocks as entries of the flattened arrays: tile `t` of the samples' window is lanes
  `32768·t … 32768·t + 32767` of the 64 × 524288 array, and of the target's window the same lanes of the 1 × 524288 array;
  and those two arrays, as the region finds them, are the reshapes of the first two arguments.
-/
import proofs.«113203_j56899726737831_2_alg».proof.Proof.IdealFrame
import Idealize.ShloMosaic.Lib.Pipeline.Value
import Idealize.ShloMosaic.Lib.StableHlo.Run
import Idealize.ShloMosaic.Lib.ValueIdx

set_option maxRecDepth 16384

noncomputable section

namespace Cert.KernelIdeal.Around

open Idealize.ShloMosaic Idealize.ShloMosaic.TcCoe Idealize.ShloMosaic.Tactic Idealize.ShloMosaic.ValueIdx
open Idealize.SL.Sem
open Idealize.ShloMosaic.Pipeline (Dat)
open Cert.KernelIdeal Cert.KernelIdeal.Gen

variable {F : FTy → Type} [FloatOps F]
variable (m : (ℓ : Loc nD τ sig) → Buf (Elt F) ℓ)

/-- The printed index maps of the two input windows, decided over the grid: block `(0, t)`. -/
theorem idx_facts0 : ∀ t : Fin cfg0.N, win0_0.index t (0 : Fin 2) = 0 ∧ win0_0.index t (1 : Fin 2) = t.val :=
  (by decide +kernel : ∀ t : Fin grid0.N, _)
theorem idx_facts1 : ∀ t : Fin cfg0.N, win0_1.index t (0 : Fin 2) = 0 ∧ win0_1.index t (1 : Fin 2) = t.val :=
  (by decide +kernel : ∀ t : Fin grid0.N, _)

/-- The flattened samples and target as the region finds them, by row and lane. -/
def Xk (c : Dev nD) (a : Fin 64) (k : Fin 524288) : Elt F .f32 := V m c main_v0 (ix2 a k)
def Tk (c : Dev nD) (k : Fin 524288) : Elt F .f32 := V m c main_v1 (ix2 (0 : Fin 1) k)

/-- Tile `t` of the samples' window at row `a`, lane `l`: lane `32768·t + l` of the flattened samples. -/
theorem iblk0_apply (c : Dev nD) (t : Fin cfg0.N) (a : Fin 64) (l : Fin 32768) :
    (iblk m c 0 t : Vec F S64x32768 .f32) (ix2 a l) = Xk m c a ⟨t.val * 32768 + l.val, by have := lt_of_lt_of_eq t.isLt (show cfg0.N = 16 from N_0); omega⟩ := by
  obtain ⟨e0, e1⟩ := idx_facts0 t
  unfold iblk Xk
  rw [View.read_apply]
  show V m c main_v0 _ = V m c main_v0 _
  congr 1
  funext d
  apply Fin.ext
  match d with
  | ⟨0, _⟩ => show win0_0.index t (0 : Fin 2) * 64 + 1 * a.val = a.val; omega
  | ⟨1, _⟩ => show win0_0.index t (1 : Fin 2) * 32768 + 1 * l.val = t.val * 32768 + l.val; omega

/-- Tile `t` of the target's window at lane `l`: lane `32768·t + l` of the flattened target. -/
theorem iblk1_apply (c : Dev nD) (t : Fin cfg0.N) (l : Fin 32768) :
    (iblk m c 1 t : Vec F S1x32768 .f32) (ix2 (0 : Fin 1) l) = Tk m c ⟨t.val * 32768 + l.val, by have := lt_of_lt_of_eq t.isLt (show cfg0.N = 16 from N_0); omega⟩ := by
  obtain ⟨e0, e1⟩ := idx_facts1 t
  unfold iblk Tk
  rw [View.read_apply]
  show V m c main_v1 _ = V m c main_v1 _
  congr 1
  funext d
  apply Fin.ext
  match d with
  | ⟨0, _⟩ => show win0_1.index t (0 : Fin 2) * 1 + 1 * 0 = 0; omega
  | ⟨1, _⟩ => show win0_1.index t (1 : Fin 2) * 32768 + 1 * l.val = t.val * 32768 + l.val; omega

/-- The flattened arrays are the reshapes of the arguments. -/
theorem V_main_v0 (c : Dev nD) :
    (V m c main_v0 : S64x524288.Idx → Elt F .f32) = shapeCast S64x524288 (m ((c : Thread nD τ).loc main_arg0)) Facts₀.shapeCasts_S64x4096x128_S64x524288 := by
  show StableHlo.after hostOps0 (fun b => m (c, b)) (Proc.devRef .tc main_v0) = _
  after_results
  rfl
theorem V_main_v1 (c : Dev nD) :
    (V m c main_v1 : S1x524288.Idx → Elt F .f32) = shapeCast S1x524288 (m ((c : Thread nD τ).loc main_arg1)) Facts₀.shapeCasts_S4096x128_S1x524288 := by
  show StableHlo.after hostOps0 (fun b => m (c, b)) (Proc.devRef .tc main_v1) = _
  after_results
  rfl

end Cert.KernelIdeal.Around

end
-- ==== Proof.LibTileOps.lean ====
/-
  Three vector operations read at one entry, at the ideal values, beside those of the column-reduction file:
  a matrix product whose right factor is given transposed (both operands contracted along their columns),
  accumulated into the zero splat, as the sum over the contracted coordinate; the sum along the one row of a
  1 x n matrix; and a 1 x 1 matrix broadcast to a x b.  Each lemma is stated at an index written by its coordinates.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.TileOps

open Idealize.ShloMosaic Idealize.ShloMosaic.ValueIdx

/-- A product of an m×k matrix with the transpose of an n×k matrix (both contracted along their second coordinate),
    accumulated into the zero splat, read at entry (a, b): the sum over the contracted coordinate. -/
theorem matmul_nt_apply {m k n : ℕ} {φ₁ φ₂ : FTy}
    (w : DotDims.WF ⟨2, ![m, k]⟩ ⟨2, ![n, k]⟩ ⟨2, ![m, n]⟩ [1] [1] [0] [0] [] [])
    (A : FVec Ideal ⟨2, ![m, k]⟩ φ₁) (B : FVec Ideal ⟨2, ![n, k]⟩ φ₂) (a : Fin m) (b : Fin n) :
    matmul (⟨[1], [1], [0], [0], [], [], w⟩ : DotDims ⟨2, ![m, k]⟩ ⟨2, ![n, k]⟩ ⟨2, ![m, n]⟩) none A B
        (constant ⟨2, ![m, n]⟩ .f32 0x00000000#32) (ix2 a b)
      = ∑ c : Fin k, A (ix2 a c) * B (ix2 b c) := by
  show FloatOps.matmul _ none A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- The source index over the one row with column `c` inserted is (0, c). -/
theorem lift_row {n : ℕ} (h : Shape.Reduces ⟨2, ![1, n]⟩ [1] ⟨1, ![1]⟩) (u : Fin 1) (c : Fin n) :
    h.lift (ix1 u) c = ix2 (0 : Fin 1) c := by
  funext ax; apply Fin.ext
  match ax with
  | ⟨0, _⟩ => show u.val = 0; omega
  | ⟨1, _⟩ => rfl

/-- The sum along the one row of a 1×n matrix, accumulated from the zero word. -/
theorem rowSum_apply {n : ℕ} (src : FVec Ideal ⟨2, ![1, n]⟩ .f32) (h : Shape.Reduces ⟨2, ![1, n]⟩ [1] ⟨1, ![1]⟩)
    (hφ : FKind.Formats .f32) (hacc : (0x00000000#32 : BitVec 32) = 0x00000000#32) (u : Fin 1) :
    multiReduction .add [1] ⟨1, ![1]⟩ src 0x00000000#32 h hφ hacc (ix1 u) = ∑ c : Fin n, src (ix2 (0 : Fin 1) c) := by
  refine (Ideal.multiReduction_add_single src 0x00000000#32 h hφ hacc (ix1 u)).trans ?_
  exact Finset.sum_congr rfl fun c _ => congrArg src (lift_row h u c)

/-- A `[1, 1]` array broadcast to `[a, b]` reads, everywhere, the operand's one entry. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

end Cert.TileOps

end
-- ==== Proof.IdealChunks.lean ====
/-
  The arithmetic of one grid step, read entry by entry over the extended reals.

  A grid step handles four chunks of 8192 lanes. For each chunk, with x the 64 × 8192 chunk of the
  samples and tv the 1 × 8192 chunk of the target, it adds to four accumulators:
    the Gram block, at (a, b):  Σ_l x(a,l)·x(b,l)   (a product of x with its own transpose; the
      rounding of x on the way in is the identity on the extended reals),
    the cross terms, at a:      Σ_l x(a,l)·tv(l),
    the target's square:        Σ_l tv(l)²,
    the squared norms, at a:    Σ_l x(a,l)².
  Each stored value is "what the accumulator held, plus the chunk's sum"; the initial zero of a lane sum
  and the leading unit axis of an accumulator block drop out. The reset values are zero.
-/
import proofs.«113203_j56899726737831_2_alg».proof.Proof.Gen.KernelIdeal.Skeleton
import proofs.«113203_j56899726737831_2_alg».proof.Proof.LibTileOps
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Chunks

open Idealize.ShloMosaic Idealize.ShloMosaic.ValueIdx Cert.KernelIdeal Cert.KernelIdeal.Gen
open scoped BigOperators

/-! ## Two layout facts and the row sums -/

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The source index over row `a` with column `c` inserted is `(a, c)`. -/
theorem lift_rows {m n : ℕ} (h : Shape.Reduces ⟨2, ![m, n]⟩ [1] ⟨1, ![m]⟩) (a : Fin m) (c : Fin n) :
    h.lift (ix1 a) c = ix2 a c := by
  funext ax; apply Fin.ext
  match ax with
  | ⟨0, _⟩ => rfl
  | ⟨1, _⟩ => rfl

/-- The sums along the rows of an m × n matrix, accumulated from the zero word: at row `a` the sum of that row. -/
theorem rowSums_apply {m n : ℕ} (src : FVec Ideal ⟨2, ![m, n]⟩ .f32) (h : Shape.Reduces ⟨2, ![m, n]⟩ [1] ⟨1, ![m]⟩)
    (hφ : FKind.Formats .f32) (hacc : (0x00000000#32 : BitVec 32) = 0x00000000#32) (a : Fin m) :
    multiReduction .add [1] ⟨1, ![m]⟩ src 0x00000000#32 h hφ hacc (ix1 a) = ∑ c : Fin n, src (ix2 a c) := by
  refine (Ideal.multiReduction_add_single src 0x00000000#32 h hφ hacc (ix1 a)).trans ?_
  exact Finset.sum_congr rfl fun c _ => congrArg src (lift_rows h a c)

/-! ## The chunk sums -/

/-- The chunk's part of the inner product of rows `a` and `b`. -/
def chunkGram (x : Vec Ideal S64x8192 .f32) (a b : Fin 64) : EReal := ∑ l : Fin 8192, x (ix2 a l) * x (ix2 b l)

/-- The chunk's part of the inner product of row `a` with the target. -/
def chunkXt (x : Vec Ideal S64x8192 .f32) (tv : Vec Ideal S1x8192 .f32) (a : Fin 64) : EReal :=
  ∑ l : Fin 8192, x (ix2 a l) * tv (ix2 (0 : Fin 1) l)

/-- The chunk's part of the target's squared norm. -/
def chunkTt (tv : Vec Ideal S1x8192 .f32) : EReal := ∑ l : Fin 8192, tv (ix2 (0 : Fin 1) l) * tv (ix2 (0 : Fin 1) l)

/-- The chunk's part of the squared norm of row `a`. -/
def chunkSq (x : Vec Ideal S64x8192 .f32) (a : Fin 64) : EReal := ∑ l : Fin 8192, x (ix2 a l) * x (ix2 a l)

/-! ## Chunk 0 -/

theorem gram0 (x : Vec Ideal S64x8192 .f32) (p : Vec Ideal S1x64x64 .f32) (a b : Fin 64) :
    k0_pay8 (F := Ideal) x p (ix3 (0 : Fin 1) a b) = p (ix3 (0 : Fin 1) a b) + chunkGram x a b := by
  unfold k0_pay8 k0_pay6
  dsimp only
  rw [shapeCast_self, shapeCast_ab_1ab_apply, addf_apply, shapeCast_1ab_ab_apply]
  exact congrArg (p (ix3 (0 : Fin 1) a b) + ·) (Cert.TileOps.matmul_nt_apply _ _ _ a b)

theorem xt0 (x : Vec Ideal S64x8192 .f32) (tv : Vec Ideal S1x8192 .f32) (p : Vec Ideal S1x64x1 .f32) (a : Fin 64) :
    k0_pay9 (F := Ideal) x tv p (ix3 (0 : Fin 1) a (0 : Fin 1)) = p (ix3 (0 : Fin 1) a (0 : Fin 1)) + chunkXt x tv a := by
  unfold k0_pay9 k0_pay6 k0_pay7
  dsimp only
  rw [shapeCast_self, shapeCast_self, shapeCast_ab_1ab_apply, addf_apply, shapeCast_1ab_ab_apply, shapeCast_a_a1_apply,
    rowSums_apply]
  refine congrArg (p (ix3 (0 : Fin 1) a (0 : Fin 1)) + ·) (Finset.sum_congr rfl fun l _ => ?_)
  rw [mulf_apply, broadcastTo_1b_ab_apply]

theorem tt0 (tv : Vec Ideal S1x8192 .f32) (p : Vec Ideal S1x1x1 .f32) :
    k0_pay11 (F := Ideal) (k0_pay10 tv p) (ix3 (0 : Fin 1) (0 : Fin 1) (0 : Fin 1)) = p (ix3 (0 : Fin 1) (0 : Fin 1) (0 : Fin 1)) + chunkTt tv := by
  unfold k0_pay11 k0_pay10 k0_pay7
  dsimp only
  rw [shapeCast_self, shapeCast_ab_1ab_apply, addf_apply, shapeCast_1ab_ab_apply, shapeCast_a_a1_apply, rowSums_apply]
  rfl

theorem sq0 (x : Vec Ideal S64x8192 .f32) (p : Vec Ideal S1x64x1 .f32) (a : Fin 64) :
    k0_pay12 (F := Ideal) (k0_pay6 x) p (ix3 (0 : Fin 1) a (0 : Fin 1)) = p (ix3 (0 : Fin 1) a (0 : Fin 1)) + chunkSq x a := by
  unfold k0_pay12 k0_pay6
  dsimp only
  rw [shapeCast_self, shapeCast_ab_1ab_apply, addf_apply, shapeCast_1ab_ab_apply, shapeCast_a_a1_apply, rowSums_apply]
  rfl

/-! ## Chunk 1 -/

theorem gram1 (x : Vec Ideal S64x8192 .f32) (p : Vec Ideal S1x64x64 .f32) (a b : Fin 64) :
    k0_pay15 (F := Ideal) x p (ix3 (0 : Fin 1) a b) = p (ix3 (0 : Fin 1) a b) + chunkGram x a b := by
  unfold k0_pay15 k0_pay13
  dsimp only
  rw [shapeCast_self, shapeCast_ab_1ab_apply, addf_apply, shapeCast_1ab_ab_apply]
  exact congrArg (p (ix3 (0 : Fin 1) a b) + ·) (Cert.TileOps.matmul_nt_apply _ _ _ a b)

theorem xt1 (x : Vec Ideal S64x8192 .f32) (tv : Vec Ideal S1x8192 .f32) (p : Vec Ideal S1x64x1 .f32) (a : Fin 64) :
    k0_pay17 (F := Ideal) (k0_pay16 x tv p) (ix3 (0 : Fin 1) a (0 : Fin 1)) = p (ix3 (0 : Fin 1) a (0 : Fin 1)) + chunkXt x tv a := by
  unfold k0_pay17 k0_pay16 k0_pay13 k0_pay14
  dsimp only
  rw [shapeCast_self, shapeCast_self, shapeCast_ab_1ab_apply, addf_apply, shapeCast_1ab_ab_apply, shapeCast_a_a1_apply,
    rowSums_apply]
  refine congrArg (p (ix3 (0 : Fin 1) a (0 : Fin 1)) + ·) (Finset.sum_congr rfl fun l _ => ?_)
  rw [mulf_apply, broadcastTo_1b_ab_apply]

theorem tt1 (tv : Vec Ideal S1x8192 .f32) (p : Vec Ideal S1x1x1 .f32) :
    k0_pay18 (F := Ideal) (k0_pay14 tv) p (ix3 (0 : Fin 1) (0 : Fin 1) (0 : Fin 1)) = p (ix3 (0 : Fin 1) (0 : Fin 1) (0 : Fin 1)) + chunkTt tv := by
  unfold k0_pay18 k0_pay14
  dsimp only
  rw [shapeCast_self, shapeCast_ab_1ab_apply, addf_apply, shapeCast_1ab_ab_apply, shapeCast_a_a1_apply, rowSums_apply]
  rfl

theorem sq1 (x : Vec Ideal S64x8192 .f32) (p : Vec Ideal S1x64x1 .f32) (a : Fin 64) :
    k0_pay19 (F := Ideal) (k0_pay13 x) p (ix3 (0 : Fin 1) a (0 : Fin 1)) = p (ix3 (0 : Fin 1) a (0 : Fin 1)) + chunkSq x a := by
  unfold k0_pay19 k0_pay13
  dsimp only
  rw [shapeCast_self, shapeCast_ab_1ab_apply, addf_apply, shapeCast_1ab_ab_apply, shapeCast_a_a1_apply, rowSums_apply]
  rfl

/-! ## Chunk 2 -/

theorem gram2 (x : Vec Ideal S64x8192 .f32) (p : Vec Ideal S1x64x64 .f32) (a b : Fin 64) :
    k0_pay23 (F := Ideal) (k0_pay22 x p) (ix3 (0 : Fin 1) a b) = p (ix3 (0 : Fin 1) a b) + chunkGram x a b := by
  unfold k0_pay23 k0_pay22 k0_pay20
  dsimp only
  rw [shapeCast_self, shapeCast_ab_1ab_apply, addf_apply, shapeCast_1ab_ab_apply]
  exact congrArg (p (ix3 (0 : Fin 1) a b) + ·) (Cert.TileOps.matmul_nt_apply _ _ _ a b)

theorem xt2 (x : Vec Ideal S64x8192 .f32) (tv : Vec Ideal S1x8192 .f32) (p : Vec Ideal S1x64x1 .f32) (a : Fin 64) :
    k0_pay24 (F := Ideal) (k0_pay20 x) (k0_pay21 tv) p (ix3 (0 : Fin 1) a (0 : Fin 1)) = p (ix3 (0 : Fin 1) a (0 : Fin 1)) + chunkXt x tv a := by
  unfold k0_pay24 k0_pay20 k0_pay21
  dsimp only
  rw [shapeCast_self, shapeCast_self, shapeCast_ab_1ab_apply, addf_apply, shapeCast_1ab_ab_apply, shapeCast_a_a1_apply,
    rowSums_apply]
  refine congrArg (p (ix3 (0 : Fin 1) a (0 : Fin 1)) + ·) (Finset.sum_congr rfl fun l _ => ?_)
  rw [mulf_apply, broadcastTo_1b_ab_apply]

theorem tt2 (tv : Vec Ideal S1x8192 .f32) (p : Vec Ideal S1x1x1 .f32) :
    k0_pay25 (F := Ideal) (k0_pay21 tv) p (ix3 (0 : Fin 1) (0 : Fin 1) (0 : Fin 1)) = p (ix3 (0 : Fin 1) (0 : Fin 1) (0 : Fin 1)) + chunkTt tv := by
  unfold k0_pay25 k0_pay21
  dsimp only
  rw [shapeCast_self, shapeCast_ab_1ab_apply, addf_apply, shapeCast_1ab_ab_apply, shapeCast_a_a1_apply, rowSums_apply]
  rfl

theorem sq2 (x : Vec Ideal S64x8192 .f32) (p : Vec Ideal S1x64x1 .f32) (a : Fin 64) :
    k0_pay26 (F := Ideal) (k0_pay20 x) p (ix3 (0 : Fin 1) a (0 : Fin 1)) = p (ix3 (0 : Fin 1) a (0 : Fin 1)) + chunkSq x a := by
  unfold k0_pay26 k0_pay20
  dsimp only
  rw [shapeCast_self, shapeCast_ab_1ab_apply, addf_apply, shapeCast_1ab_ab_apply, shapeCast_a_a1_apply, rowSums_apply]
  rfl

/-! ## Chunk 3 -/

theorem gram3 (x : Vec Ideal S64x8192 .f32) (p : Vec Ideal S1x64x64 .f32) (a b : Fin 64) :
    k0_pay29 (F := Ideal) (k0_pay27 x) p (ix3 (0 : Fin 1) a b) = p (ix3 (0 : Fin 1) a b) + chunkGram x a b := by
  unfold k0_pay29 k0_pay27
  dsimp only
  rw [shapeCast_self, shapeCast_ab_1ab_apply, addf_apply, shapeCast_1ab_ab_apply]
  exact congrArg (p (ix3 (0 : Fin 1) a b) + ·) (Cert.TileOps.matmul_nt_apply _ _ _ a b)

theorem xt3 (x : Vec Ideal S64x8192 .f32) (tv : Vec Ideal S1x8192 .f32) (p : Vec Ideal S1x64x1 .f32) (a : Fin 64) :
    k0_pay30 (F := Ideal) (k0_pay27 x) tv p (ix3 (0 : Fin 1) a (0 : Fin 1)) = p (ix3 (0 : Fin 1) a (0 : Fin 1)) + chunkXt x tv a := by
  unfold k0_pay30 k0_pay27 k0_pay28
  dsimp only
  rw [shapeCast_self, shapeCast_self, shapeCast_ab_1ab_apply, addf_apply, shapeCast_1ab_ab_apply, shapeCast_a_a1_apply,
    rowSums_apply]
  refine congrArg (p (ix3 (0 : Fin 1) a (0 : Fin 1)) + ·) (Finset.sum_congr rfl fun l _ => ?_)
  rw [mulf_apply, broadcastTo_1b_ab_apply]

theorem tt3 (tv : Vec Ideal S1x8192 .f32) (p : Vec Ideal S1x1x1 .f32) :
    k0_pay31 (F := Ideal) tv p (ix3 (0 : Fin 1) (0 : Fin 1) (0 : Fin 1)) = p (ix3 (0 : Fin 1) (0 : Fin 1) (0 : Fin 1)) + chunkTt tv := by
  unfold k0_pay31 k0_pay28
  dsimp only
  rw [shapeCast_self, shapeCast_ab_1ab_apply, addf_apply, shapeCast_1ab_ab_apply, shapeCast_a_a1_apply, rowSums_apply]
  rfl

theorem sq3 (x : Vec Ideal S64x8192 .f32) (p : Vec Ideal S1x64x1 .f32) (a : Fin 64) :
    k0_pay1 (F := Ideal) (k0_pay27 x) (k0_pay32 p) (ix3 (0 : Fin 1) a (0 : Fin 1)) = p (ix3 (0 : Fin 1) a (0 : Fin 1)) + chunkSq x a := by
  unfold k0_pay1 k0_pay27 k0_pay32
  dsimp only
  rw [shapeCast_self, shapeCast_ab_1ab_apply, addf_apply, shapeCast_1ab_ab_apply, shapeCast_a_a1_apply, rowSums_apply]
  rfl

/-! ## The reset values -/

theorem reset_gram (a b : Fin 64) : k0_pay2 (F := Ideal) (ix3 (0 : Fin 1) a b) = 0 := by
  unfold k0_pay2
  rw [shapeCast_ab_1ab_apply, broadcast_apply]
  exact Ideal.ofBits_zero_f32

theorem reset_xt (a : Fin 64) : k0_pay3 (F := Ideal) (ix3 (0 : Fin 1) a (0 : Fin 1)) = 0 := by
  unfold k0_pay3
  rw [shapeCast_ab_1ab_apply, broadcast_apply]
  exact Ideal.ofBits_zero_f32

theorem reset_tt : k0_pay4 (F := Ideal) (ix3 (0 : Fin 1) (0 : Fin 1) (0 : Fin 1)) = 0 := by
  unfold k0_pay4
  rw [shapeCast_ab_1ab_apply, broadcast_apply]
  exact Ideal.ofBits_zero_f32

theorem reset_sq (a : Fin 64) : k0_pay5 (F := Ideal) (ix3 (0 : Fin 1) a (0 : Fin 1)) = 0 := by
  unfold k0_pay5
  rw [shapeCast_ab_1ab_apply, broadcast_apply]
  exact Ideal.ofBits_zero_f32

end Cert.KernelIdeal.Chunks
-- ==== Proof.IdealTileSums.lean ====
/-
  The four chunks of one tile, composed. A tile is 32768 lanes, handled as four chunks of 8192; chunk q
  reads lanes q·8192 … q·8192 + 8191 of the tile's blocks. Each accumulator ends the tile at "what it held,
  plus the sum over the four chunks of the chunk's sum", that is plus the sum over all the tile's lanes,
  written as a sum over the chunk q and the lane l within it, the lane being q·8192 + l.
-/
import proofs.«113203_j56899726737831_2_alg».proof.Proof.IdealLeaves
import proofs.«113203_j56899726737831_2_alg».proof.Proof.IdealChunks
import Idealize.ShloMosaic.Lib.Pipeline.Value

noncomputable section

namespace Cert.KernelIdeal.Chunks

open Idealize.ShloMosaic Idealize.ShloMosaic.ValueIdx Cert.KernelIdeal Cert.KernelIdeal.Gen
open scoped BigOperators

/-! ## A chunk read at an entry -/

/-- A chunk of the samples' block, read at (a, l): the block at (a, off + l), `off` the chunk's first lane. -/
theorem ld_x (x0 : Vec Ideal S64x32768 .f32) (off : ℕ)
    (inb : ∀ a, (![0, off] : Fin 2 → ℕ) a + S64x8192.size a ≤ S64x32768.size a)
    (a : Fin 64) (l : Fin 8192) (k : Fin 32768) (hk : k.val = off + l.val) :
    (View.ld x0 (Rect.unit ![0, off] S64x8192.size inb) : Vec Ideal S64x8192 .f32) (ix2 a l) = x0 (ix2 a k) := by
  refine congrArg x0 (funext fun ax => Fin.ext ?_)
  match ax with
  | ⟨0, _⟩ => show 0 + 1 * a.val = a.val; omega
  | ⟨1, _⟩ => show off + 1 * l.val = k.val; omega

/-- A chunk of the target's block, read at (0, l): the block at (0, off + l). -/
theorem ld_t (x1 : Vec Ideal S1x32768 .f32) (off : ℕ)
    (inb : ∀ a, (![0, off] : Fin 2 → ℕ) a + S1x8192.size a ≤ S1x32768.size a)
    (u : Fin 1) (l : Fin 8192) (k : Fin 32768) (hk : k.val = off + l.val) :
    (View.ld x1 (Rect.unit ![0, off] S1x8192.size inb) : Vec Ideal S1x8192 .f32) (ix2 u l) = x1 (ix2 u k) := by
  refine congrArg x1 (funext fun ax => Fin.ext ?_)
  match ax with
  | ⟨0, _⟩ => show 0 + 1 * u.val = u.val; omega
  | ⟨1, _⟩ => show off + 1 * l.val = k.val; omega

/-! ## The tile sums -/

/-- The tile's part of the inner product of rows `a` and `b`. -/
def tileGram (x0 : Vec Ideal S64x32768 .f32) (a b : Fin 64) : EReal :=
  ∑ q : Fin 4, ∑ l : Fin 8192, x0 (ix2 a ⟨q.val * 8192 + l.val, by omega⟩) * x0 (ix2 b ⟨q.val * 8192 + l.val, by omega⟩)

/-- The tile's part of the inner product of row `a` with the target. -/
def tileXt (x0 : Vec Ideal S64x32768 .f32) (x1 : Vec Ideal S1x32768 .f32) (a : Fin 64) : EReal :=
  ∑ q : Fin 4, ∑ l : Fin 8192, x0 (ix2 a ⟨q.val * 8192 + l.val, by omega⟩) * x1 (ix2 (0 : Fin 1) ⟨q.val * 8192 + l.val, by omega⟩)

/-- The tile's part of the target's squared norm. -/
def tileTt (x1 : Vec Ideal S1x32768 .f32) : EReal :=
  ∑ q : Fin 4, ∑ l : Fin 8192, x1 (ix2 (0 : Fin 1) ⟨q.val * 8192 + l.val, by omega⟩) * x1 (ix2 (0 : Fin 1) ⟨q.val * 8192 + l.val, by omega⟩)

/-- The tile's part of the squared norm of row `a`. -/
def tileSq (x0 : Vec Ideal S64x32768 .f32) (a : Fin 64) : EReal :=
  ∑ q : Fin 4, ∑ l : Fin 8192, x0 (ix2 a ⟨q.val * 8192 + l.val, by omega⟩) * x0 (ix2 a ⟨q.val * 8192 + l.val, by omega⟩)

/-! ## A chunk's sum over the tile's lanes -/

theorem chunkGram_ld (x0 : Vec Ideal S64x32768 .f32) (off : ℕ)
    (inb : ∀ a, (![0, off] : Fin 2 → ℕ) a + S64x8192.size a ≤ S64x32768.size a) (q : Fin 4) (hq : off = q.val * 8192)
    (a b : Fin 64) :
    chunkGram (View.ld x0 (Rect.unit ![0, off] S64x8192.size inb)) a b
      = ∑ l : Fin 8192, x0 (ix2 a ⟨q.val * 8192 + l.val, by omega⟩) * x0 (ix2 b ⟨q.val * 8192 + l.val, by omega⟩) := by
  unfold chunkGram
  exact Finset.sum_congr rfl fun l _ => by
    rw [ld_x x0 off inb a l ⟨q.val * 8192 + l.val, by omega⟩ (by show q.val * 8192 + l.val = off + l.val; omega), ld_x x0 off inb b l ⟨q.val * 8192 + l.val, by omega⟩ (by show q.val * 8192 + l.val = off + l.val; omega)]

theorem chunkXt_ld (x0 : Vec Ideal S64x32768 .f32) (x1 : Vec Ideal S1x32768 .f32) (off : ℕ)
    (inb : ∀ a, (![0, off] : Fin 2 → ℕ) a + S64x8192.size a ≤ S64x32768.size a)
    (inb' : ∀ a, (![0, off] : Fin 2 → ℕ) a + S1x8192.size a ≤ S1x32768.size a) (q : Fin 4) (hq : off = q.val * 8192)
    (a : Fin 64) :
    chunkXt (View.ld x0 (Rect.unit ![0, off] S64x8192.size inb)) (View.ld x1 (Rect.unit ![0, off] S1x8192.size inb')) a
      = ∑ l : Fin 8192, x0 (ix2 a ⟨q.val * 8192 + l.val, by omega⟩) * x1 (ix2 (0 : Fin 1) ⟨q.val * 8192 + l.val, by omega⟩) := by
  unfold chunkXt
  exact Finset.sum_congr rfl fun l _ => by
    rw [ld_x x0 off inb a l ⟨q.val * 8192 + l.val, by omega⟩ (by show q.val * 8192 + l.val = off + l.val; omega), ld_t x1 off inb' (0 : Fin 1) l ⟨q.val * 8192 + l.val, by omega⟩ (by show q.val * 8192 + l.val = off + l.val; omega)]

theorem chunkTt_ld (x1 : Vec Ideal S1x32768 .f32) (off : ℕ)
    (inb' : ∀ a, (![0, off] : Fin 2 → ℕ) a + S1x8192.size a ≤ S1x32768.size a) (q : Fin 4) (hq : off = q.val * 8192) :
    chunkTt (View.ld x1 (Rect.unit ![0, off] S1x8192.size inb'))
      = ∑ l : Fin 8192, x1 (ix2 (0 : Fin 1) ⟨q.val * 8192 + l.val, by omega⟩) * x1 (ix2 (0 : Fin 1) ⟨q.val * 8192 + l.val, by omega⟩) := by
  unfold chunkTt
  exact Finset.sum_congr rfl fun l _ => by
    rw [ld_t x1 off inb' (0 : Fin 1) l ⟨q.val * 8192 + l.val, by omega⟩ (by show q.val * 8192 + l.val = off + l.val; omega)]

theorem chunkSq_ld (x0 : Vec Ideal S64x32768 .f32) (off : ℕ)
    (inb : ∀ a, (![0, off] : Fin 2 → ℕ) a + S64x8192.size a ≤ S64x32768.size a) (q : Fin 4) (hq : off = q.val * 8192)
    (a : Fin 64) :
    chunkSq (View.ld x0 (Rect.unit ![0, off] S64x8192.size inb)) a
      = ∑ l : Fin 8192, x0 (ix2 a ⟨q.val * 8192 + l.val, by omega⟩) * x0 (ix2 a ⟨q.val * 8192 + l.val, by omega⟩) := by
  unfold chunkSq
  exact Finset.sum_congr rfl fun l _ => by
    rw [ld_x x0 off inb a l ⟨q.val * 8192 + l.val, by omega⟩ (by show q.val * 8192 + l.val = off + l.val; omega)]

/-! ## A tile's additions to the four accumulators -/

theorem addGram_apply (x0 : Vec Ideal S64x32768 .f32) (p : Vec Ideal S1x64x64 .f32) (a b : Fin 64) :
    Cert.KernelIdeal.Around.addGram (F := Ideal) x0 p (ix3 (0 : Fin 1) a b) = p (ix3 (0 : Fin 1) a b) + tileGram x0 a b := by
  unfold Cert.KernelIdeal.Around.addGram tileGram
  rw [gram3, gram2, gram1, gram0, Fin.sum_univ_four,
    chunkGram_ld x0 0 _ 0 rfl, chunkGram_ld x0 8192 _ 1 rfl, chunkGram_ld x0 16384 _ 2 rfl,
    chunkGram_ld x0 24576 _ 3 rfl]
  simp only [add_assoc]

theorem addXt_apply (x0 : Vec Ideal S64x32768 .f32) (x1 : Vec Ideal S1x32768 .f32) (p : Vec Ideal S1x64x1 .f32) (a : Fin 64) :
    Cert.KernelIdeal.Around.addXt (F := Ideal) x0 x1 p (ix3 (0 : Fin 1) a (0 : Fin 1))
      = p (ix3 (0 : Fin 1) a (0 : Fin 1)) + tileXt x0 x1 a := by
  unfold Cert.KernelIdeal.Around.addXt tileXt
  rw [xt3, xt2, xt1, xt0, Fin.sum_univ_four,
    chunkXt_ld x0 x1 0 _ _ 0 rfl, chunkXt_ld x0 x1 8192 _ _ 1 rfl, chunkXt_ld x0 x1 16384 _ _ 2 rfl,
    chunkXt_ld x0 x1 24576 _ _ 3 rfl]
  simp only [add_assoc]

theorem addTt_apply (x1 : Vec Ideal S1x32768 .f32) (p : Vec Ideal S1x1x1 .f32) :
    Cert.KernelIdeal.Around.addTt (F := Ideal) x1 p (ix3 (0 : Fin 1) (0 : Fin 1) (0 : Fin 1))
      = p (ix3 (0 : Fin 1) (0 : Fin 1) (0 : Fin 1)) + tileTt x1 := by
  unfold Cert.KernelIdeal.Around.addTt tileTt
  rw [tt3, tt2, tt1, tt0, Fin.sum_univ_four,
    chunkTt_ld x1 0 _ 0 rfl, chunkTt_ld x1 8192 _ 1 rfl, chunkTt_ld x1 16384 _ 2 rfl,
    chunkTt_ld x1 24576 _ 3 rfl]
  simp only [add_assoc]

theorem addSq_apply (x0 : Vec Ideal S64x32768 .f32) (p : Vec Ideal S1x64x1 .f32) (a : Fin 64) :
    Cert.KernelIdeal.Around.addSq (F := Ideal) x0 p (ix3 (0 : Fin 1) a (0 : Fin 1))
      = p (ix3 (0 : Fin 1) a (0 : Fin 1)) + tileSq x0 a := by
  unfold Cert.KernelIdeal.Around.addSq tileSq
  rw [sq3, sq2, sq1, sq0, Fin.sum_univ_four,
    chunkSq_ld x0 0 _ 0 rfl, chunkSq_ld x0 8192 _ 1 rfl, chunkSq_ld x0 16384 _ 2 rfl,
    chunkSq_ld x0 24576 _ 3 rfl]
  simp only [add_assoc]

end Cert.KernelIdeal.Chunks
-- ==== Proof.RunningSum.lean ====
/-
  An accumulator over positions 0, 1, 2, … that is reset at every position divisible by eight and otherwise adds the
  position's term to what it held is, at every position, the sum of the terms from the last reset on; at the eighth
  position of a block it is the sum of the block's eight terms.
-/
import Mathlib.Algebra.BigOperators.Intervals
import Mathlib.Algebra.BigOperators.Fin
import Mathlib.Algebra.Order.Group.Nat
import Mathlib.Algebra.Order.Interval.Finset.SuccPred
import Mathlib.Tactic.Ring

namespace Cert.RunningSum

open Finset

variable {α : Type*} [AddCommMonoid α]

/-- From the last reset on. -/
theorem running_eq_sum (acc tile : ℕ → α) (N : ℕ)
    (h0 : ∀ n, n < N → n % 8 = 0 → acc n = tile n)
    (hs : ∀ n, n + 1 < N → (n + 1) % 8 ≠ 0 → acc (n + 1) = acc n + tile (n + 1)) :
    ∀ n, n < N → acc n = ∑ j ∈ Icc (8 * (n / 8)) n, tile j := by
  intro n
  induction n with
  | zero =>
    intro h
    rw [h0 0 h rfl]
    simp
  | succ n ih =>
    intro h
    by_cases h8 : (n + 1) % 8 = 0
    · rw [h0 (n + 1) h h8]
      have e : 8 * ((n + 1) / 8) = n + 1 := by omega
      rw [e, Icc_self, sum_singleton]
    · rw [hs n h h8, ih (by omega)]
      have e : 8 * ((n + 1) / 8) = 8 * (n / 8) := by omega
      rw [e, sum_Icc_succ_top (by omega : 8 * (n / 8) ≤ n + 1)]

/-- At the eighth position of block `b`: the block's eight terms. -/
theorem block_sum (acc tile : ℕ → α) (N : ℕ)
    (h0 : ∀ n, n < N → n % 8 = 0 → acc n = tile n)
    (hs : ∀ n, n + 1 < N → (n + 1) % 8 ≠ 0 → acc (n + 1) = acc n + tile (n + 1))
    (b : ℕ) (hb : 8 * b + 7 < N) : acc (8 * b + 7) = ∑ j : Fin 8, tile (8 * b + j.val) := by
  rw [running_eq_sum acc tile N h0 hs (8 * b + 7) hb]
  have e : 8 * ((8 * b + 7) / 8) = 8 * b := by omega
  rw [e, ← Finset.Ico_add_one_right_eq_Icc, sum_Ico_eq_sum_range]
  have e2 : 8 * b + 7 + 1 - 8 * b = 8 := by omega
  rw [e2, Finset.sum_range]

end Cert.RunningSum
-- ==== Proof.Spec.lean ====
/-
  The specification: the score both programs compute, as one function of the two reshaped
  arguments, X : 64 × 524288 (the generated samples, one row per sample) and t : 524288 (the
  target sample), over the extended reals.

  Row statistics: sq X i = Σ_k X(i,k)², gram X i j = Σ_k X(i,k)·X(j,k), xt X t i = Σ_k X(i,k)·t(k),
  tt t = Σ_k t(k)². The squared distance of row i to the target is written in two ways:
  dt2R, the sum of the squared differences, and dt2K, max(sq − 2·xt + tt, 0), the expansion of the
  square clamped at zero. Everything after the row statistics is shared (`tail`): the pairwise squared
  distances d2 = max(sq_i + sq_j − 2·gram_ij, 0), the kernel matrix exp(−d2), its sum off the
  diagonal scaled by 1/4 and divided by 4032 = 64·63, minus the mean over the rows of
  exp(−dt2), clamped to [−10, 10].

  The float constants stay as the bit patterns that denote them (2, −1, 1/4, 4032, 64, −10, 10, 0),
  and each max, min, product and difference keeps the order of its operands in the programs, so that a
  program's term rewrites to these definitions without evaluating anything. A sum that a program takes
  from an initial value 0 is written `zero + Σ …` where the shared tail takes it.
-/
import Idealize.ShloMosaic.PureOps.Ideal

noncomputable section

namespace Cert.Spec

open Idealize.ShloMosaic
open scoped BigOperators

/-! ## The constants -/

/-- 0.0 -/
abbrev zero : EReal := Ideal.ofBits .f32 0x00000000#32
/-- 2.0 -/
abbrev two : EReal := Ideal.ofBits .f32 0x40000000#32
/-- −1.0 -/
abbrev negone : EReal := Ideal.ofBits .f32 0xBF800000#32
/-- 0.25 -/
abbrev quarter : EReal := Ideal.ofBits .f32 0x3E800000#32
/-- 4032.0 -/
abbrev c4032 : EReal := Ideal.ofBits .f32 0x457C0000#32
/-- 64.0 -/
abbrev c64 : EReal := Ideal.ofBits .f32 0x42800000#32
/-- −10.0 -/
abbrev negten : EReal := Ideal.ofBits .f32 0xC1200000#32
/-- 10.0 -/
abbrev ten : EReal := Ideal.ofBits .f32 0x41200000#32

/-! ## The row statistics -/

/-- The squared norm of row `i`. -/
def sq (X : Fin 64 → Fin 524288 → EReal) (i : Fin 64) : EReal := ∑ k, X i k * X i k

/-- The inner product of rows `i` and `j`. -/
def gram (X : Fin 64 → Fin 524288 → EReal) (i j : Fin 64) : EReal := ∑ k, X i k * X j k

/-- The inner product of row `i` with the target. -/
def xt (X : Fin 64 → Fin 524288 → EReal) (t : Fin 524288 → EReal) (i : Fin 64) : EReal := ∑ k, X i k * t k

/-- The squared norm of the target. -/
def tt (t : Fin 524288 → EReal) : EReal := ∑ k, t k * t k

/-- The squared distance of row `i` to the target, as the sum of the squared differences. -/
def dt2R (X : Fin 64 → Fin 524288 → EReal) (t : Fin 524288 → EReal) (i : Fin 64) : EReal :=
  ∑ k, (X i k - t k) * (X i k - t k)

/-- The same distance from the expanded square, `(sq − 2·xt) + tt`, clamped at zero. -/
def dt2K (X : Fin 64 → Fin 524288 → EReal) (t : Fin 524288 → EReal) (i : Fin 64) : EReal :=
  max (sq X i - two * xt X t i + tt t) zero

/-! ## The shared tail -/

/-- The pairwise squared distance from the squared norms `sqv` and the inner products `g`, clamped at zero. -/
def d2 (sqv : Fin 64 → EReal) (g : Fin 64 → Fin 64 → EReal) (i j : Fin 64) : EReal :=
  max (sqv i + sqv j - two * g i j) zero

/-- The kernel matrix `exp (−d2)`. -/
def kmat (sqv : Fin 64 → EReal) (g : Fin 64 → Fin 64 → EReal) (i j : Fin 64) : EReal :=
  Ideal.exp (negone * d2 sqv g i j)

/-- The sum of the kernel matrix. -/
def total (sqv : Fin 64 → EReal) (g : Fin 64 → Fin 64 → EReal) : EReal :=
  zero + ∑ i, ∑ j, kmat sqv g i j

/-- The sum of its diagonal. -/
def trace (sqv : Fin 64 → EReal) (g : Fin 64 → Fin 64 → EReal) : EReal :=
  zero + ∑ i, ∑ j, if i = j then kmat sqv g i j else zero

/-- The scaled mean of the off-diagonal entries. -/
def cross (sqv : Fin 64 → EReal) (g : Fin 64 → Fin 64 → EReal) : EReal :=
  Ideal.div (quarter * (total sqv g - trace sqv g)) c4032

/-- The mean over the rows of `exp (−d i)`, `d i` the squared distance of row `i` to the target. -/
def target (d : Fin 64 → EReal) : EReal :=
  Ideal.div (zero + ∑ i, Ideal.exp (negone * d i)) c64

/-- Everything after the row statistics: the clamped difference of the two means. -/
def tail (sqv : Fin 64 → EReal) (g : Fin 64 → Fin 64 → EReal) (d : Fin 64 → EReal) : EReal :=
  min ten (max negten (cross sqv g - target d))

/-! ## The two scores -/

/-- The score with the distance to the target as the sum of squared differences. -/
def scoreRef (X : Fin 64 → Fin 524288 → EReal) (t : Fin 524288 → EReal) : EReal :=
  tail (sq X) (gram X) (dt2R X t)

/-- The score with the distance to the target from the expanded square. -/
def scoreKer (X : Fin 64 → Fin 524288 → EReal) (t : Fin 524288 → EReal) : EReal :=
  tail (sq X) (gram X) (dt2K X t)

end Cert.Spec
-- ==== Proof.SpecLaws.lean ====
/-
  The laws of the specification, over the extended reals.

  * `sum_lanes`: a sum over the 524288 lanes regroups as a sum over 2 halves × 8 tiles × 4 chunks ×
    8192 lanes, the lane of (c, j, q, l) being ((c·8 + j)·4 + q)·8192 + l. Addition on the extended
    reals is commutative and associative, so this is a re-indexing along the bijection
    Fin a × Fin b ≃ Fin (a·b), three times.
  * `dt2_eq`: when every entry is a real number, Σ_k (X(i,k) − t(k))² = Σ X² − 2·Σ X·t + Σ t², the sum of
    squares is nonnegative, and so the clamp at zero of the expanded form changes nothing.
  * `score_eq`: hence the two scores agree.
-/
import Mathlib.Algebra.BigOperators.Fin
import Mathlib.Algebra.Order.BigOperators.Ring.Finset
import Mathlib.Tactic.Ring
import Mathlib.Tactic.NormNum
import Idealize.ShloMosaic.PureOps.Ideal
import Idealize.ShloMosaic.PureOps.Ideal.Laws
import proofs.«113203_j56899726737831_2_alg».proof.Proof.Spec

noncomputable section

namespace Cert.Spec

open Idealize.ShloMosaic
open scoped BigOperators

/-! ## Regrouping a sum over the lanes -/

/-- A sum over `Fin n`, `n = a · b`, as a double sum: the index of `(i, j)` is `i · b + j`. -/
theorem sum_fin_mul {M : Type*} [AddCommMonoid M] (a b n : ℕ) (h : a * b = n) (f : Fin n → M) :
    ∑ k, f k = ∑ i : Fin a, ∑ j : Fin b,
      f ⟨i.val * b + j.val, h ▸ (calc i.val * b + j.val < i.val * b + b := Nat.add_lt_add_left j.isLt _
          _ = (i.val + 1) * b := (Nat.succ_mul _ _).symm
          _ ≤ a * b := Nat.mul_le_mul_right b i.isLt)⟩ := by
  subst h
  rw [← Equiv.sum_comp finProdFinEquiv f, Fintype.sum_prod_type]
  refine Finset.sum_congr rfl fun i _ => Finset.sum_congr rfl fun j _ => congrArg f (Fin.ext ?_)
  show j.val + b * i.val = i.val * b + j.val
  rw [Nat.mul_comm, Nat.add_comm]

/-- The 524288 lanes as 2 halves × 8 tiles × 4 chunks × 8192 lanes. -/
theorem sum_lanes (f : Fin 524288 → EReal) :
    ∑ k, f k = ∑ c : Fin 2, ∑ j : Fin 8, ∑ q : Fin 4, ∑ l : Fin 8192,
      f ⟨((c.val * 8 + j.val) * 4 + q.val) * 8192 + l.val, by omega⟩ := by
  rw [sum_fin_mul 2 262144 524288 rfl f]
  refine Finset.sum_congr rfl fun c _ => ?_
  refine (sum_fin_mul 8 32768 262144 rfl _).trans ?_
  refine Finset.sum_congr rfl fun j _ => ?_
  refine (sum_fin_mul 4 8192 32768 rfl _).trans ?_
  refine Finset.sum_congr rfl fun q _ => Finset.sum_congr rfl fun l _ => congrArg f (Fin.ext ?_)
  dsimp only
  omega

/-! ## The two forms of the distance to the target -/

/-- The coercion of the reals into the extended reals commutes with finite sums. -/
theorem coe_sum {ι : Type*} (s : Finset ι) (g : ι → ℝ) :
    ((∑ k ∈ s, g k : ℝ) : EReal) = ∑ k ∈ s, (g k : EReal) := by
  classical
  induction s using Finset.induction_on with
  | empty => simp
  | insert a s ha ih => rw [Finset.sum_insert ha, Finset.sum_insert ha, EReal.coe_add, ih]

/-- The pattern of `2.0` denotes the real `2`. -/
theorem two_eq : two = ((2 : ℝ) : EReal) := by
  simp [two, Ideal.ofBits, Ideal.ieee, -EReal.coe_mul]; norm_num

/-- The pattern of `0.0` denotes `0`. -/
theorem zero_eq : zero = 0 := Ideal.ofBits_zero_f32

/-- On real entries the expanded square, clamped at zero, is the sum of the squared differences. -/
theorem dt2_eq {X : Fin 64 → Fin 524288 → EReal} {t : Fin 524288 → EReal}
    (hX : ∀ i k, ∃ r : ℝ, X i k = r) (ht : ∀ k, ∃ r : ℝ, t k = r) (i : Fin 64) :
    dt2K X t i = dt2R X t i := by
  choose x hx using hX
  choose s hs using ht
  have hsq : sq X i = ((∑ k, x i k * x i k : ℝ) : EReal) := by
    rw [sq, coe_sum]; exact Finset.sum_congr rfl fun k _ => by rw [hx, EReal.coe_mul]
  have hxt : xt X t i = ((∑ k, x i k * s k : ℝ) : EReal) := by
    rw [xt, coe_sum]; exact Finset.sum_congr rfl fun k _ => by rw [hx, hs, EReal.coe_mul]
  have htt : tt t = ((∑ k, s k * s k : ℝ) : EReal) := by
    rw [tt, coe_sum]; exact Finset.sum_congr rfl fun k _ => by rw [hs, EReal.coe_mul]
  have hR : dt2R X t i = ((∑ k, (x i k - s k) * (x i k - s k) : ℝ) : EReal) := by
    rw [dt2R, coe_sum]
    exact Finset.sum_congr rfl fun k _ => by rw [hx, hs, EReal.coe_mul, EReal.coe_sub]
  have hexp : (∑ k, x i k * x i k) - 2 * (∑ k, x i k * s k) + (∑ k, s k * s k)
      = ∑ k, (x i k - s k) * (x i k - s k) := by
    rw [Finset.mul_sum, ← Finset.sum_sub_distrib, ← Finset.sum_add_distrib]
    exact Finset.sum_congr rfl fun k _ => by ring
  have hnn : (0 : ℝ) ≤ ∑ k, (x i k - s k) * (x i k - s k) :=
    Finset.sum_nonneg fun k _ => mul_self_nonneg _
  rw [dt2K, hsq, hxt, htt, hR, two_eq, zero_eq, ← EReal.coe_mul, ← EReal.coe_sub, ← EReal.coe_add, hexp]
  exact max_eq_left (EReal.coe_nonneg.mpr hnn)

/-- On real entries the two scores agree. -/
theorem score_eq {X : Fin 64 → Fin 524288 → EReal} {t : Fin 524288 → EReal}
    (hX : ∀ i k, ∃ r : ℝ, X i k = r) (ht : ∀ k, ∃ r : ℝ, t k = r) :
    scoreKer X t = scoreRef X t := by
  rw [scoreKer, scoreRef, show dt2K X t = dt2R X t from funext (dt2_eq hX ht)]

end Cert.Spec
-- ==== Proof.IdealSumGram.lean ====
/-
  The region's four outputs as sums over lanes, at the extended reals: after each tile an accumulator's entry is what it
  held plus the tile's 4 × 8192 products; a half's first tile starts from zero; so after the half's eighth tile the entry
  is the sum over the half's 8 × 4 × 8192 lanes, and the two halves together are the sum over all 524288 lanes — the
  Gram entries, the products with the target, the target's squares and the samples' squares of the flattened arrays.
-/
import proofs.«113203_j56899726737831_2_alg».proof.Proof.IdealHalves
import proofs.«113203_j56899726737831_2_alg».proof.Proof.IdealBlocks
import proofs.«113203_j56899726737831_2_alg».proof.Proof.IdealTileSums
import proofs.«113203_j56899726737831_2_alg».proof.Proof.RunningSum
import proofs.«113203_j56899726737831_2_alg».proof.Proof.SpecLaws

set_option maxRecDepth 16384

noncomputable section

namespace Cert.KernelIdeal.Around

open Idealize.ShloMosaic Idealize.ShloMosaic.TcCoe Idealize.ShloMosaic.ValueIdx
open Idealize.SL.Sem
open Cert.KernelIdeal Cert.KernelIdeal.Gen Cert.KernelIdeal.Chunks

variable (m : (ℓ : Loc nD τ sig) → Buf (Elt Ideal) ℓ)

/-! ## The Gram -/

/-- The accumulator's entry after position `n` (zero past the grid), and the entry's term at position `n`. -/
def accG (c : Dev nD) (a b : Fin 64) (n : ℕ) : EReal := if h : n < cfg0.N then (outsAt0 (F := Ideal) m c n h).1 (ix3 (0 : Fin 1) a b) else 0
def termG (c : Dev nD) (a b : Fin 64) (n : ℕ) : EReal := if h : n < cfg0.N then tileGram (iblk m c 0 ⟨n, h⟩) a b else 0

set_option maxHeartbeats 1600000 in
theorem accG_reset (c : Dev nD) (a b : Fin 64) (n : ℕ) (hn : n < cfg0.N) (h8 : n % 8 = 0) : accG m c a b n = termG m c a b n := by
  unfold accG termG
  rw [dif_pos hn, dif_pos hn]
  have e0 : (outsAt0 (F := Ideal) m c n hn).1 = outReset_4 c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) ((hcond0_0 ⟨n, hn⟩).mpr h8) (iblk m c 0 ⟨n, hn⟩) (iblk m c 1 ⟨n, hn⟩) :=
    congrArg Prod.fst (outsAt0_reset m c ⟨n, hn⟩ h8)
  have e1 := e0.trans (leavesReset_4 c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) ((hcond0_0 ⟨n, hn⟩).mpr h8) (iblk m c 0 ⟨n, hn⟩) (iblk m c 1 ⟨n, hn⟩))
  rw [e1, addGram_apply, reset_gram a b, zero_add]

set_option maxHeartbeats 1600000 in
theorem accG_step (c : Dev nD) (a b : Fin 64) (n : ℕ) (hn : n + 1 < cfg0.N) (h8 : (n + 1) % 8 ≠ 0) :
    accG m c a b (n + 1) = accG m c a b n + termG m c a b (n + 1) := by
  unfold accG termG
  rw [dif_pos hn, dif_pos hn, dif_pos (Nat.lt_of_succ_lt hn)]
  have e0 : (outsAt0 (F := Ideal) m c (n + 1) hn).1 = outAccum_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h8 ((hcond0_0 ⟨n + 1, hn⟩).mp h)) (iblk m c 0 ⟨n + 1, hn⟩) (iblk m c 1 ⟨n + 1, hn⟩) (outsAt0 (F := Ideal) m c n (Nat.lt_of_succ_lt hn)).1 (outsAt0 (F := Ideal) m c n (Nat.lt_of_succ_lt hn)).2.1 (outsAt0 (F := Ideal) m c n (Nat.lt_of_succ_lt hn)).2.2.1 (outsAt0 (F := Ideal) m c n (Nat.lt_of_succ_lt hn)).2.2.2 :=
    congrArg Prod.fst (outsAt0_accum m c ⟨n + 1, hn⟩ h8)
  have e1 := e0.trans (leavesAccum_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h8 ((hcond0_0 ⟨n + 1, hn⟩).mp h)) (iblk m c 0 ⟨n + 1, hn⟩) (iblk m c 1 ⟨n + 1, hn⟩) (outsAt0 (F := Ideal) m c n (Nat.lt_of_succ_lt hn)).1 (outsAt0 (F := Ideal) m c n (Nat.lt_of_succ_lt hn)).2.1 (outsAt0 (F := Ideal) m c n (Nat.lt_of_succ_lt hn)).2.2.1 (outsAt0 (F := Ideal) m c n (Nat.lt_of_succ_lt hn)).2.2.2)
  rw [e1, addGram_apply]

/-- After a half's eighth tile: the half's eight tiles' terms. -/
theorem half2_tiles (c : Dev nD) (a b : Fin 64) (h : Fin 2) :
    half2 (F := Ideal) m c (ix3 h a b) = ∑ j : Fin 8, termG m c a b (8 * h.val + j.val) := by
  have hb : 8 * h.val + 7 < cfg0.N := ltN (by have := h.isLt; omega)
  rw [← Cert.RunningSum.block_sum (accG m c a b) (termG m c a b) cfg0.N (accG_reset m c a b) (accG_step m c a b) h.val hb]
  unfold half2 accG
  rw [dif_pos hb]

/-- A tile's term, lane by lane, over the flattened arrays. -/
theorem termG_lanes (c : Dev nD) (a b : Fin 64) (h : Fin 2) (j : Fin 8) :
    termG m c a b (8 * h.val + j.val) = ∑ q : Fin 4, ∑ l : Fin 8192,
      Xk m c a ⟨((h.val * 8 + j.val) * 4 + q.val) * 8192 + l.val, by have := h.isLt; have := j.isLt; have := q.isLt; have := l.isLt; omega⟩ * Xk m c b ⟨((h.val * 8 + j.val) * 4 + q.val) * 8192 + l.val, by have := h.isLt; have := j.isLt; have := q.isLt; have := l.isLt; omega⟩ := by
  have hn : 8 * h.val + j.val < cfg0.N := ltN (by have := h.isLt; have := j.isLt; omega)
  unfold termG
  rw [dif_pos hn]
  unfold tileGram
  refine Finset.sum_congr rfl fun q _ => Finset.sum_congr rfl fun l _ => ?_
  rw [iblk0_apply m c _ a ⟨q.val * 8192 + l.val, by have := q.isLt; have := l.isLt; omega⟩, iblk0_apply m c _ b ⟨q.val * 8192 + l.val, by have := q.isLt; have := l.isLt; omega⟩]
  have e : (8 * h.val + j.val) * 32768 + (q.val * 8192 + l.val) = ((h.val * 8 + j.val) * 4 + q.val) * 8192 + l.val := by ring
  simp only [e]

/-- The two halves together: the sum over all 524288 lanes. -/
theorem sumG (c : Dev nD) (a b : Fin 64) :
    half2 (F := Ideal) m c (ix3 (0 : Fin 2) a b) + half2 (F := Ideal) m c (ix3 (1 : Fin 2) a b) = Cert.Spec.gram (Xk m c) a b := by
  unfold Cert.Spec.gram
  rw [Cert.Spec.sum_lanes, Fin.sum_univ_two, half2_tiles, half2_tiles]
  simp only [termG_lanes]

end Cert.KernelIdeal.Around

end
-- ==== Proof.IdealSumXt.lean ====
/-
  The region's four outputs as sums over lanes, at the extended reals: after each tile an accumulator's entry is what it
  held plus the tile's 4 × 8192 products; a half's first tile starts from zero; so after the half's eighth tile the entry
  is the sum over the half's 8 × 4 × 8192 lanes, and the two halves together are the sum over all 524288 lanes — the
  Gram entries, the products with the target, the target's squares and the samples' squares of the flattened arrays.
-/
import proofs.«113203_j56899726737831_2_alg».proof.Proof.IdealHalves
import proofs.«113203_j56899726737831_2_alg».proof.Proof.IdealBlocks
import proofs.«113203_j56899726737831_2_alg».proof.Proof.IdealTileSums
import proofs.«113203_j56899726737831_2_alg».proof.Proof.RunningSum
import proofs.«113203_j56899726737831_2_alg».proof.Proof.SpecLaws

set_option maxRecDepth 16384

noncomputable section

namespace Cert.KernelIdeal.Around

open Idealize.ShloMosaic Idealize.ShloMosaic.TcCoe Idealize.ShloMosaic.ValueIdx
open Idealize.SL.Sem
open Cert.KernelIdeal Cert.KernelIdeal.Gen Cert.KernelIdeal.Chunks

variable (m : (ℓ : Loc nD τ sig) → Buf (Elt Ideal) ℓ)

/-! ## The products with the target -/

/-- The accumulator's entry after position `n` (zero past the grid), and the entry's term at position `n`. -/
def accXt (c : Dev nD) (a : Fin 64) (n : ℕ) : EReal := if h : n < cfg0.N then (outsAt0 (F := Ideal) m c n h).2.1 (ix3 (0 : Fin 1) a (0 : Fin 1)) else 0
def termXt (c : Dev nD) (a : Fin 64) (n : ℕ) : EReal := if h : n < cfg0.N then tileXt (iblk m c 0 ⟨n, h⟩) (iblk m c 1 ⟨n, h⟩) a else 0

set_option maxHeartbeats 1600000 in
theorem accXt_reset (c : Dev nD) (a : Fin 64) (n : ℕ) (hn : n < cfg0.N) (h8 : n % 8 = 0) : accXt m c a n = termXt m c a n := by
  unfold accXt termXt
  rw [dif_pos hn, dif_pos hn]
  have e0 : (outsAt0 (F := Ideal) m c n hn).2.1 = outReset_5 c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) ((hcond0_0 ⟨n, hn⟩).mpr h8) (iblk m c 0 ⟨n, hn⟩) (iblk m c 1 ⟨n, hn⟩) :=
    congrArg (fun z => z.2.1) (outsAt0_reset m c ⟨n, hn⟩ h8)
  have e1 := e0.trans (leavesReset_5 c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) ((hcond0_0 ⟨n, hn⟩).mpr h8) (iblk m c 0 ⟨n, hn⟩) (iblk m c 1 ⟨n, hn⟩))
  rw [e1, addXt_apply, reset_xt a, zero_add]

set_option maxHeartbeats 1600000 in
theorem accXt_step (c : Dev nD) (a : Fin 64) (n : ℕ) (hn : n + 1 < cfg0.N) (h8 : (n + 1) % 8 ≠ 0) :
    accXt m c a (n + 1) = accXt m c a n + termXt m c a (n + 1) := by
  unfold accXt termXt
  rw [dif_pos hn, dif_pos hn, dif_pos (Nat.lt_of_succ_lt hn)]
  have e0 : (outsAt0 (F := Ideal) m c (n + 1) hn).2.1 = outAccum_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h8 ((hcond0_0 ⟨n + 1, hn⟩).mp h)) (iblk m c 0 ⟨n + 1, hn⟩) (iblk m c 1 ⟨n + 1, hn⟩) (outsAt0 (F := Ideal) m c n (Nat.lt_of_succ_lt hn)).1 (outsAt0 (F := Ideal) m c n (Nat.lt_of_succ_lt hn)).2.1 (outsAt0 (F := Ideal) m c n (Nat.lt_of_succ_lt hn)).2.2.1 (outsAt0 (F := Ideal) m c n (Nat.lt_of_succ_lt hn)).2.2.2 :=
    congrArg (fun z => z.2.1) (outsAt0_accum m c ⟨n + 1, hn⟩ h8)
  have e1 := e0.trans (leavesAccum_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h8 ((hcond0_0 ⟨n + 1, hn⟩).mp h)) (iblk m c 0 ⟨n + 1, hn⟩) (iblk m c 1 ⟨n + 1, hn⟩) (outsAt0 (F := Ideal) m c n (Nat.lt_of_succ_lt hn)).1 (outsAt0 (F := Ideal) m c n (Nat.lt_of_succ_lt hn)).2.1 (outsAt0 (F := Ideal) m c n (Nat.lt_of_succ_lt hn)).2.2.1 (outsAt0 (F := Ideal) m c n (Nat.lt_of_succ_lt hn)).2.2.2)
  rw [e1, addXt_apply]

/-- After a half's eighth tile: the half's eight tiles' terms. -/
theorem half3_tiles (c : Dev nD) (a : Fin 64) (h : Fin 2) :
    half3 (F := Ideal) m c (ix3 h a (0 : Fin 1)) = ∑ j : Fin 8, termXt m c a (8 * h.val + j.val) := by
  have hb : 8 * h.val + 7 < cfg0.N := ltN (by have := h.isLt; omega)
  rw [← Cert.RunningSum.block_sum (accXt m c a) (termXt m c a) cfg0.N (accXt_reset m c a) (accXt_step m c a) h.val hb]
  unfold half3 accXt
  rw [dif_pos hb]

/-- A tile's term, lane by lane, over the flattened arrays. -/
theorem termXt_lanes (c : Dev nD) (a : Fin 64) (h : Fin 2) (j : Fin 8) :
    termXt m c a (8 * h.val + j.val) = ∑ q : Fin 4, ∑ l : Fin 8192,
      Xk m c a ⟨((h.val * 8 + j.val) * 4 + q.val) * 8192 + l.val, by have := h.isLt; have := j.isLt; have := q.isLt; have := l.isLt; omega⟩ * Tk m c ⟨((h.val * 8 + j.val) * 4 + q.val) * 8192 + l.val, by have := h.isLt; have := j.isLt; have := q.isLt; have := l.isLt; omega⟩ := by
  have hn : 8 * h.val + j.val < cfg0.N := ltN (by have := h.isLt; have := j.isLt; omega)
  unfold termXt
  rw [dif_pos hn]
  unfold tileXt
  refine Finset.sum_congr rfl fun q _ => Finset.sum_congr rfl fun l _ => ?_
  rw [iblk0_apply m c _ a ⟨q.val * 8192 + l.val, by have := q.isLt; have := l.isLt; omega⟩, iblk1_apply m c _ ⟨q.val * 8192 + l.val, by have := q.isLt; have := l.isLt; omega⟩]
  have e : (8 * h.val + j.val) * 32768 + (q.val * 8192 + l.val) = ((h.val * 8 + j.val) * 4 + q.val) * 8192 + l.val := by ring
  simp only [e]

/-- The two halves together: the sum over all 524288 lanes. -/
theorem sumXt (c : Dev nD) (a : Fin 64) :
    half3 (F := Ideal) m c (ix3 (0 : Fin 2) a (0 : Fin 1)) + half3 (F := Ideal) m c (ix3 (1 : Fin 2) a (0 : Fin 1)) = Cert.Spec.xt (Xk m c) (Tk m c) a := by
  unfold Cert.Spec.xt
  rw [Cert.Spec.sum_lanes, Fin.sum_univ_two, half3_tiles, half3_tiles]
  simp only [termXt_lanes]

end Cert.KernelIdeal.Around

end
-- ==== Proof.IdealSumTt.lean ====
/-
  The region's four outputs as sums over lanes, at the extended reals: after each tile an accumulator's entry is what it
  held plus the tile's 4 × 8192 products; a half's first tile starts from zero; so after the half's eighth tile the entry
  is the sum over the half's 8 × 4 × 8192 lanes, and the two halves together are the sum over all 524288 lanes — the
  Gram entries, the products with the target, the target's squares and the samples' squares of the flattened arrays.
-/
import proofs.«113203_j56899726737831_2_alg».proof.Proof.IdealHalves
import proofs.«113203_j56899726737831_2_alg».proof.Proof.IdealBlocks
import proofs.«113203_j56899726737831_2_alg».proof.Proof.IdealTileSums
import proofs.«113203_j56899726737831_2_alg».proof.Proof.RunningSum
import proofs.«113203_j56899726737831_2_alg».proof.Proof.SpecLaws

set_option maxRecDepth 16384

noncomputable section

namespace Cert.KernelIdeal.Around

open Idealize.ShloMosaic Idealize.ShloMosaic.TcCoe Idealize.ShloMosaic.ValueIdx
open Idealize.SL.Sem
open Cert.KernelIdeal Cert.KernelIdeal.Gen Cert.KernelIdeal.Chunks

variable (m : (ℓ : Loc nD τ sig) → Buf (Elt Ideal) ℓ)

/-! ## The target's squares -/

/-- The accumulator's entry after position `n` (zero past the grid), and the entry's term at position `n`. -/
def accTt (c : Dev nD)  (n : ℕ) : EReal := if h : n < cfg0.N then (outsAt0 (F := Ideal) m c n h).2.2.1 (ix3 (0 : Fin 1) (0 : Fin 1) (0 : Fin 1)) else 0
def termTt (c : Dev nD)  (n : ℕ) : EReal := if h : n < cfg0.N then tileTt (iblk m c 1 ⟨n, h⟩) else 0

set_option maxHeartbeats 1600000 in
theorem accTt_reset (c : Dev nD)  (n : ℕ) (hn : n < cfg0.N) (h8 : n % 8 = 0) : accTt m c  n = termTt m c  n := by
  unfold accTt termTt
  rw [dif_pos hn, dif_pos hn]
  have e0 : (outsAt0 (F := Ideal) m c n hn).2.2.1 = outReset_6 c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) ((hcond0_0 ⟨n, hn⟩).mpr h8) (iblk m c 0 ⟨n, hn⟩) (iblk m c 1 ⟨n, hn⟩) :=
    congrArg (fun z => z.2.2.1) (outsAt0_reset m c ⟨n, hn⟩ h8)
  have e1 := e0.trans (leavesReset_6 c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) ((hcond0_0 ⟨n, hn⟩).mpr h8) (iblk m c 0 ⟨n, hn⟩) (iblk m c 1 ⟨n, hn⟩))
  rw [e1, addTt_apply, reset_tt, zero_add]

set_option maxHeartbeats 1600000 in
theorem accTt_step (c : Dev nD)  (n : ℕ) (hn : n + 1 < cfg0.N) (h8 : (n + 1) % 8 ≠ 0) :
    accTt m c  (n + 1) = accTt m c  n + termTt m c  (n + 1) := by
  unfold accTt termTt
  rw [dif_pos hn, dif_pos hn, dif_pos (Nat.lt_of_succ_lt hn)]
  have e0 : (outsAt0 (F := Ideal) m c (n + 1) hn).2.2.1 = outAccum_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h8 ((hcond0_0 ⟨n + 1, hn⟩).mp h)) (iblk m c 0 ⟨n + 1, hn⟩) (iblk m c 1 ⟨n + 1, hn⟩) (outsAt0 (F := Ideal) m c n (Nat.lt_of_succ_lt hn)).1 (outsAt0 (F := Ideal) m c n (Nat.lt_of_succ_lt hn)).2.1 (outsAt0 (F := Ideal) m c n (Nat.lt_of_succ_lt hn)).2.2.1 (outsAt0 (F := Ideal) m c n (Nat.lt_of_succ_lt hn)).2.2.2 :=
    congrArg (fun z => z.2.2.1) (outsAt0_accum m c ⟨n + 1, hn⟩ h8)
  have e1 := e0.trans (leavesAccum_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h8 ((hcond0_0 ⟨n + 1, hn⟩).mp h)) (iblk m c 0 ⟨n + 1, hn⟩) (iblk m c 1 ⟨n + 1, hn⟩) (outsAt0 (F := Ideal) m c n (Nat.lt_of_succ_lt hn)).1 (outsAt0 (F := Ideal) m c n (Nat.lt_of_succ_lt hn)).2.1 (outsAt0 (F := Ideal) m c n (Nat.lt_of_succ_lt hn)).2.2.1 (outsAt0 (F := Ideal) m c n (Nat.lt_of_succ_lt hn)).2.2.2)
  rw [e1, addTt_apply]

/-- After a half's eighth tile: the half's eight tiles' terms. -/
theorem half4_tiles (c : Dev nD)  (h : Fin 2) :
    half4 (F := Ideal) m c (ix3 h (0 : Fin 1) (0 : Fin 1)) = ∑ j : Fin 8, termTt m c  (8 * h.val + j.val) := by
  have hb : 8 * h.val + 7 < cfg0.N := ltN (by have := h.isLt; omega)
  rw [← Cert.RunningSum.block_sum (accTt m c ) (termTt m c ) cfg0.N (accTt_reset m c ) (accTt_step m c ) h.val hb]
  unfold half4 accTt
  rw [dif_pos hb]

/-- A tile's term, lane by lane, over the flattened arrays. -/
theorem termTt_lanes (c : Dev nD)  (h : Fin 2) (j : Fin 8) :
    termTt m c  (8 * h.val + j.val) = ∑ q : Fin 4, ∑ l : Fin 8192,
      Tk m c ⟨((h.val * 8 + j.val) * 4 + q.val) * 8192 + l.val, by have := h.isLt; have := j.isLt; have := q.isLt; have := l.isLt; omega⟩ * Tk m c ⟨((h.val * 8 + j.val) * 4 + q.val) * 8192 + l.val, by have := h.isLt; have := j.isLt; have := q.isLt; have := l.isLt; omega⟩ := by
  have hn : 8 * h.val + j.val < cfg0.N := ltN (by have := h.isLt; have := j.isLt; omega)
  unfold termTt
  rw [dif_pos hn]
  unfold tileTt
  refine Finset.sum_congr rfl fun q _ => Finset.sum_congr rfl fun l _ => ?_
  rw [iblk1_apply m c _ ⟨q.val * 8192 + l.val, by have := q.isLt; have := l.isLt; omega⟩]
  have e : (8 * h.val + j.val) * 32768 + (q.val * 8192 + l.val) = ((h.val * 8 + j.val) * 4 + q.val) * 8192 + l.val := by ring
  simp only [e]

/-- The two halves together: the sum over all 524288 lanes. -/
theorem sumTt (c : Dev nD)  :
    half4 (F := Ideal) m c (ix3 (0 : Fin 2) (0 : Fin 1) (0 : Fin 1)) + half4 (F := Ideal) m c (ix3 (1 : Fin 2) (0 : Fin 1) (0 : Fin 1)) = Cert.Spec.tt (Tk m c) := by
  unfold Cert.Spec.tt
  rw [Cert.Spec.sum_lanes, Fin.sum_univ_two, half4_tiles, half4_tiles]
  simp only [termTt_lanes]

end Cert.KernelIdeal.Around

end
-- ==== Proof.IdealSumSq.lean ====
/-
  The region's four outputs as sums over lanes, at the extended reals: after each tile an accumulator's entry is what it
  held plus the tile's 4 × 8192 products; a half's first tile starts from zero; so after the half's eighth tile the entry
  is the sum over the half's 8 × 4 × 8192 lanes, and the two halves together are the sum over all 524288 lanes — the
  Gram entries, the products with the target, the target's squares and the samples' squares of the flattened arrays.
-/
import proofs.«113203_j56899726737831_2_alg».proof.Proof.IdealHalves
import proofs.«113203_j56899726737831_2_alg».proof.Proof.IdealBlocks
import proofs.«113203_j56899726737831_2_alg».proof.Proof.IdealTileSums
import proofs.«113203_j56899726737831_2_alg».proof.Proof.RunningSum
import proofs.«113203_j56899726737831_2_alg».proof.Proof.SpecLaws

set_option maxRecDepth 16384

noncomputable section

namespace Cert.KernelIdeal.Around

open Idealize.ShloMosaic Idealize.ShloMosaic.TcCoe Idealize.ShloMosaic.ValueIdx
open Idealize.SL.Sem
open Cert.KernelIdeal Cert.KernelIdeal.Gen Cert.KernelIdeal.Chunks

variable (m : (ℓ : Loc nD τ sig) → Buf (Elt Ideal) ℓ)

/-! ## The samples' squares -/

/-- The accumulator's entry after position `n` (zero past the grid), and the entry's term at position `n`. -/
def accSq (c : Dev nD) (a : Fin 64) (n : ℕ) : EReal := if h : n < cfg0.N then (outsAt0 (F := Ideal) m c n h).2.2.2 (ix3 (0 : Fin 1) a (0 : Fin 1)) else 0
def termSq (c : Dev nD) (a : Fin 64) (n : ℕ) : EReal := if h : n < cfg0.N then tileSq (iblk m c 0 ⟨n, h⟩) a else 0

set_option maxHeartbeats 1600000 in
theorem accSq_reset (c : Dev nD) (a : Fin 64) (n : ℕ) (hn : n < cfg0.N) (h8 : n % 8 = 0) : accSq m c a n = termSq m c a n := by
  unfold accSq termSq
  rw [dif_pos hn, dif_pos hn]
  have e0 : (outsAt0 (F := Ideal) m c n hn).2.2.2 = outReset_7 c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) ((hcond0_0 ⟨n, hn⟩).mpr h8) (iblk m c 0 ⟨n, hn⟩) (iblk m c 1 ⟨n, hn⟩) :=
    congrArg (fun z => z.2.2.2) (outsAt0_reset m c ⟨n, hn⟩ h8)
  have e1 := e0.trans (leavesReset_7 c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) ((hcond0_0 ⟨n, hn⟩).mpr h8) (iblk m c 0 ⟨n, hn⟩) (iblk m c 1 ⟨n, hn⟩))
  rw [e1, addSq_apply, reset_sq a, zero_add]

set_option maxHeartbeats 1600000 in
theorem accSq_step (c : Dev nD) (a : Fin 64) (n : ℕ) (hn : n + 1 < cfg0.N) (h8 : (n + 1) % 8 ≠ 0) :
    accSq m c a (n + 1) = accSq m c a n + termSq m c a (n + 1) := by
  unfold accSq termSq
  rw [dif_pos hn, dif_pos hn, dif_pos (Nat.lt_of_succ_lt hn)]
  have e0 : (outsAt0 (F := Ideal) m c (n + 1) hn).2.2.2 = outAccum_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h8 ((hcond0_0 ⟨n + 1, hn⟩).mp h)) (iblk m c 0 ⟨n + 1, hn⟩) (iblk m c 1 ⟨n + 1, hn⟩) (outsAt0 (F := Ideal) m c n (Nat.lt_of_succ_lt hn)).1 (outsAt0 (F := Ideal) m c n (Nat.lt_of_succ_lt hn)).2.1 (outsAt0 (F := Ideal) m c n (Nat.lt_of_succ_lt hn)).2.2.1 (outsAt0 (F := Ideal) m c n (Nat.lt_of_succ_lt hn)).2.2.2 :=
    congrArg (fun z => z.2.2.2) (outsAt0_accum m c ⟨n + 1, hn⟩ h8)
  have e1 := e0.trans (leavesAccum_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h8 ((hcond0_0 ⟨n + 1, hn⟩).mp h)) (iblk m c 0 ⟨n + 1, hn⟩) (iblk m c 1 ⟨n + 1, hn⟩) (outsAt0 (F := Ideal) m c n (Nat.lt_of_succ_lt hn)).1 (outsAt0 (F := Ideal) m c n (Nat.lt_of_succ_lt hn)).2.1 (outsAt0 (F := Ideal) m c n (Nat.lt_of_succ_lt hn)).2.2.1 (outsAt0 (F := Ideal) m c n (Nat.lt_of_succ_lt hn)).2.2.2)
  rw [e1, addSq_apply]

/-- After a half's eighth tile: the half's eight tiles' terms. -/
theorem half5_tiles (c : Dev nD) (a : Fin 64) (h : Fin 2) :
    half5 (F := Ideal) m c (ix3 h a (0 : Fin 1)) = ∑ j : Fin 8, termSq m c a (8 * h.val + j.val) := by
  have hb : 8 * h.val + 7 < cfg0.N := ltN (by have := h.isLt; omega)
  rw [← Cert.RunningSum.block_sum (accSq m c a) (termSq m c a) cfg0.N (accSq_reset m c a) (accSq_step m c a) h.val hb]
  unfold half5 accSq
  rw [dif_pos hb]

/-- A tile's term, lane by lane, over the flattened arrays. -/
theorem termSq_lanes (c : Dev nD) (a : Fin 64) (h : Fin 2) (j : Fin 8) :
    termSq m c a (8 * h.val + j.val) = ∑ q : Fin 4, ∑ l : Fin 8192,
      Xk m c a ⟨((h.val * 8 + j.val) * 4 + q.val) * 8192 + l.val, by have := h.isLt; have := j.isLt; have := q.isLt; have := l.isLt; omega⟩ * Xk m c a ⟨((h.val * 8 + j.val) * 4 + q.val) * 8192 + l.val, by have := h.isLt; have := j.isLt; have := q.isLt; have := l.isLt; omega⟩ := by
  have hn : 8 * h.val + j.val < cfg0.N := ltN (by have := h.isLt; have := j.isLt; omega)
  unfold termSq
  rw [dif_pos hn]
  unfold tileSq
  refine Finset.sum_congr rfl fun q _ => Finset.sum_congr rfl fun l _ => ?_
  rw [iblk0_apply m c _ a ⟨q.val * 8192 + l.val, by have := q.isLt; have := l.isLt; omega⟩]
  have e : (8 * h.val + j.val) * 32768 + (q.val * 8192 + l.val) = ((h.val * 8 + j.val) * 4 + q.val) * 8192 + l.val := by ring
  simp only [e]

/-- The two halves together: the sum over all 524288 lanes. -/
theorem sumSq (c : Dev nD) (a : Fin 64) :
    half5 (F := Ideal) m c (ix3 (0 : Fin 2) a (0 : Fin 1)) + half5 (F := Ideal) m c (ix3 (1 : Fin 2) a (0 : Fin 1)) = Cert.Spec.sq (Xk m c) a := by
  unfold Cert.Spec.sq
  rw [Cert.Spec.sum_lanes, Fin.sum_univ_two, half5_tiles, half5_tiles]
  simp only [termSq_lanes]

end Cert.KernelIdeal.Around

end
-- ==== Proof.IdealHalfSums.lean ====
/-
  The region's four outputs as sums over all 524288 lanes (the two halves together): the Gram entries, the products
  with the target, the target's squares and the samples' squares of the flattened arrays — one module each.
-/
import proofs.«113203_j56899726737831_2_alg».proof.Proof.IdealSumGram
import proofs.«113203_j56899726737831_2_alg».proof.Proof.IdealSumXt
import proofs.«113203_j56899726737831_2_alg».proof.Proof.IdealSumTt
import proofs.«113203_j56899726737831_2_alg».proof.Proof.IdealSumSq
-- ==== Proof.IdealTail.lean ====
/-
  The lines of @main after its one region, as one function of the four arrays the region leaves: per half of the
  lanes the partial Gram matrix, the partial inner products with the target, the partial squared norm of the target
  and the partial squared norms of the rows. Each stage of the lines is a named function, and the contents of the
  result buffer after the lines is their composition applied to the four arrays.
-/
import proofs.«113203_j56899726737831_2_alg».proof.Proof.IdealAround
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Tail

open Idealize.ShloMosaic Idealize.ShloMosaic.TcCoe Idealize.ShloMosaic.Tactic
open Idealize.SL Idealize.SL.RA Idealize.SL.BI
open Cert.KernelIdeal Cert.KernelIdeal.Gen Cert.KernelIdeal.Around

variable {F : FTy → Type} [FloatOps F]

/-! ## The lines after the region as one function of the four arrays the region leaves

The region leaves, per half of the lanes, the partial Gram matrix, the partial inner products with the target, the
partial squared norm of the target and the partial squared norms of the rows. The lines after it add the two halves of
each, form the pairwise squared distances and the kernel matrix, sum it with and without its diagonal, form the squared
distances to the target and the mean of their kernel values, and clamp the difference of the two means. Each stage is
named here, with the operands in the order the program has them. -/

/-- The two halves of the Gram partial sums added. -/
def gramK (g : (⟨S2x64x64, .f32⟩ : BufTy).Contents (Elt F)) : (⟨S64x64, .f32⟩ : BufTy).Contents (Elt F) :=
  addf (shapeCast S64x64 (extractStridedSlice S1x64x64 ![0, 0, 0] g slices_S2x64x64_S1x64x64_0_0_0) shapeCasts_S1x64x64_S64x64)
    (shapeCast S64x64 (extractStridedSlice S1x64x64 ![1, 0, 0] g slices_S2x64x64_S1x64x64_1_0_0) shapeCasts_S1x64x64_S64x64)

/-- The two halves of a column of per-row partial sums added (the inner products with the target, the squared norms). -/
def colK (x : (⟨S2x64x1, .f32⟩ : BufTy).Contents (Elt F)) : (⟨S64x1, .f32⟩ : BufTy).Contents (Elt F) :=
  addf (shapeCast S64x1 (extractStridedSlice S1x64x1 ![0, 0, 0] x slices_S2x64x1_S1x64x1_0_0_0) shapeCasts_S1x64x1_S64x1)
    (shapeCast S64x1 (extractStridedSlice S1x64x1 ![1, 0, 0] x slices_S2x64x1_S1x64x1_1_0_0) shapeCasts_S1x64x1_S64x1)

/-- The two halves of the target's squared norm added. -/
def ttK (t : (⟨S2x1x1, .f32⟩ : BufTy).Contents (Elt F)) : (⟨S1x1, .f32⟩ : BufTy).Contents (Elt F) :=
  addf (shapeCast S1x1 (extractStridedSlice S1x1x1 ![0, 0, 0] t slices_S2x1x1_S1x1x1_0_0_0) shapeCasts_S1x1x1_S1x1)
    (shapeCast S1x1 (extractStridedSlice S1x1x1 ![1, 0, 0] t slices_S2x1x1_S1x1x1_1_0_0) shapeCasts_S1x1x1_S1x1)

/-- The pairwise squared distances: the squared norms down the columns plus the same along the rows, minus twice the
    Gram matrix, clamped at zero. -/
def d2K (sq : (⟨S64x1, .f32⟩ : BufTy).Contents (Elt F)) (gram : (⟨S64x64, .f32⟩ : BufTy).Contents (Elt F)) : (⟨S64x64, .f32⟩ : BufTy).Contents (Elt F) :=
  maximumf
    (subf
      (addf (broadcastInDim S64x64 ![0, 1] bcast_S64x1_S64x64_0_1 sq)
        (broadcastInDim S64x64 ![0, 1] bcast_S1x64_S64x64_0_1 (transpose S1x64 [1, 0] sq transposes_S64x1_S1x64_1_0)))
      (mulf (broadcastInDim S64x64 ![] bcast_S_S64x64 (constant S_ .f32 0x40000000#32)) gram))
    (broadcastInDim S64x64 ![] bcast_S_S64x64 (constant S_ .f32 0x00000000#32))

/-- The kernel matrix: the exponential of minus the squared distances. -/
def kmatK (d2 : (⟨S64x64, .f32⟩ : BufTy).Contents (Elt F)) : (⟨S64x64, .f32⟩ : BufTy).Contents (Elt F) :=
  Host.exp (mulf (broadcastInDim S64x64 ![] bcast_S_S64x64 (constant S_ .f32 0xBF800000#32)) d2)

/-- The sum of all entries of the kernel matrix, from zero. -/
def totalK (k : (⟨S64x64, .f32⟩ : BufTy).Contents (Elt F)) : (⟨S_, .f32⟩ : BufTy).Contents (Elt F) :=
  Host.reduceAdd k (constant S_ .f32 0x00000000#32) reducesTo_S64x64_S_d0_1 h_S_

/-- The kernel matrix with everything off the diagonal replaced by zero. -/
def diagK (k : (⟨S64x64, .f32⟩ : BufTy).Contents (Elt F)) : (⟨S64x64, .f32⟩ : BufTy).Contents (Elt F) :=
  select (cmpi .eq (iotaInDim S64x64 32 0) (iotaInDim S64x64 32 1)) k
    (broadcastInDim S64x64 ![] bcast_S_S64x64 (constant S_ .f32 0x00000000#32))

/-- The sum of the diagonal of the kernel matrix, from zero. -/
def traceK (k : (⟨S64x64, .f32⟩ : BufTy).Contents (Elt F)) : (⟨S_, .f32⟩ : BufTy).Contents (Elt F) :=
  Host.reduceAdd (diagK k) (constant S_ .f32 0x00000000#32) reducesTo_S64x64_S_d0_1 h_S_

/-- A quarter of the off-diagonal sum, divided by 4032. -/
def crossK (k : (⟨S64x64, .f32⟩ : BufTy).Contents (Elt F)) : (⟨S_, .f32⟩ : BufTy).Contents (Elt F) :=
  Host.divf (mulf (constant S_ .f32 0x3E800000#32) (subf (totalK k) (traceK k))) (constant S_ .f32 0x457C0000#32)

/-- The squared distances of the rows to the target from the expanded square, clamped at zero. -/
def dt2K (sq xt : (⟨S64x1, .f32⟩ : BufTy).Contents (Elt F)) (tt : (⟨S1x1, .f32⟩ : BufTy).Contents (Elt F)) : (⟨S64x1, .f32⟩ : BufTy).Contents (Elt F) :=
  maximumf
    (addf (subf sq (mulf (broadcastInDim S64x1 ![] bcast_S_S64x1 (constant S_ .f32 0x40000000#32)) xt))
      (broadcastInDim S64x1 ![0, 1] bcast_S1x1_S64x1_0_1 tt))
    (broadcastInDim S64x1 ![] bcast_S_S64x1 (constant S_ .f32 0x00000000#32))

/-- The mean over the rows of the exponential of minus the squared distance to the target. -/
def targetK (d : (⟨S64x1, .f32⟩ : BufTy).Contents (Elt F)) : (⟨S_, .f32⟩ : BufTy).Contents (Elt F) :=
  Host.divf
    (Host.reduceAdd (Host.exp (mulf (broadcastInDim S64x1 ![] bcast_S_S64x1 (constant S_ .f32 0xBF800000#32)) d))
      (constant S_ .f32 0x00000000#32) reducesTo_S64x1_S_d0_1 h_S_)
    (constant S_ .f32 0x42800000#32)

/-- A value clamped to the interval from −10 to 10: the lower bound first, then the upper. -/
def clipK (x : (⟨S_, .f32⟩ : BufTy).Contents (Elt F)) : (⟨S_, .f32⟩ : BufTy).Contents (Elt F) :=
  minimumf (constant S_ .f32 0x41200000#32) (maximumf (constant S_ .f32 0xC1200000#32) x)

/-- The score as a function of the four arrays the region leaves. -/
def tailTerm (g : (⟨S2x64x64, .f32⟩ : BufTy).Contents (Elt F)) (xt : (⟨S2x64x1, .f32⟩ : BufTy).Contents (Elt F)) (tt : (⟨S2x1x1, .f32⟩ : BufTy).Contents (Elt F)) (xsq : (⟨S2x64x1, .f32⟩ : BufTy).Contents (Elt F)) : (⟨S_, .f32⟩ : BufTy).Contents (Elt F) :=
  shapeCast S_
    (clipK (subf (crossK (kmatK (d2K (colK xsq) (gramK g)))) (targetK (dt2K (colK xsq) (colK xt) (ttK tt)))))
    shapeCasts_S_S_

/-- The region's arrays read back from the contents the region leaves. -/
theorem withArrays_g (c : Dev nD) (V₀ : Valuation τ sig (Elt F))
    (Y : (w : Fin 6) → Buf (Elt F) ((spec0 w).arr.view.loc (c.tc : Thread nD τ))) :
    Pipeline.withArrays spec0 c V₀ Y (Proc.devRef .tc main_v2_0) = Y 2 :=
  Pipeline.withArrays_arr spec0 launch0.win.arr_inj c V₀ Y 2
theorem withArrays_xt (c : Dev nD) (V₀ : Valuation τ sig (Elt F))
    (Y : (w : Fin 6) → Buf (Elt F) ((spec0 w).arr.view.loc (c.tc : Thread nD τ))) :
    Pipeline.withArrays spec0 c V₀ Y (Proc.devRef .tc main_v2_1) = Y 3 :=
  Pipeline.withArrays_arr spec0 launch0.win.arr_inj c V₀ Y 3
theorem withArrays_tt (c : Dev nD) (V₀ : Valuation τ sig (Elt F))
    (Y : (w : Fin 6) → Buf (Elt F) ((spec0 w).arr.view.loc (c.tc : Thread nD τ))) :
    Pipeline.withArrays spec0 c V₀ Y (Proc.devRef .tc main_v2_2) = Y 4 :=
  Pipeline.withArrays_arr spec0 launch0.win.arr_inj c V₀ Y 4
theorem withArrays_xsq (c : Dev nD) (V₀ : Valuation τ sig (Elt F))
    (Y : (w : Fin 6) → Buf (Elt F) ((spec0 w).arr.view.loc (c.tc : Thread nD τ))) :
    Pipeline.withArrays spec0 c V₀ Y (Proc.devRef .tc main_v2_3) = Y 5 :=
  Pipeline.withArrays_arr spec0 launch0.win.arr_inj c V₀ Y 5

/-- After the lines that follow the region, the result buffer holds the score computed from the four arrays. -/
theorem tail_after (c : Dev nD) (V₀ : Valuation τ sig (Elt F))
    (Y : (w : Fin 6) → Buf (Elt F) ((spec0 w).arr.view.loc (c.tc : Thread nD τ))) :
    StableHlo.after (tailOps (F := F)).flatten (Pipeline.withArrays spec0 c V₀ Y) (Proc.devRef .tc main_v58)
      = tailTerm (Y 2) (Y 3) (Y 4) (Y 5) := by
  simp only [tailOps, hostOps1, hostOps1_1, hostOps1_2, hostOps1_3, hostOps1_4, List.flatten_cons, List.flatten_nil,
    List.append_nil, List.cons_append, List.nil_append]
  after_results_simp
  rw [withArrays_g, withArrays_xt, withArrays_tt, withArrays_xsq]
  rfl

end Cert.KernelIdeal.Tail
-- ==== Proof.IdealTailRead.lean ====
/-
  The lines of @main after its one region, read at the extended reals: each stage at an index is the arithmetic it
  names — the halves added, the pairwise squared distance max(sq_i + sq_j − 2·gram_ij, 0), the kernel value
  exp(−d2), the diagonal mask as "row = column", the host's sums as zero plus a double sum over the coordinates —
  and their composition is the specification's shared tail applied to the halves' sums, with the distance to the
  target from the expanded square.
-/
import proofs.«113203_j56899726737831_2_alg».proof.Proof.IdealTail
import proofs.«113203_j56899726737831_2_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Tail

open Idealize.ShloMosaic Idealize.ShloMosaic.TcCoe Idealize.ShloMosaic.ValueIdx
open Cert.KernelIdeal Cert.KernelIdeal.Gen
open scoped BigOperators

/-! ## The halves added, read at an index -/

theorem gramK_apply (g : (⟨S2x64x64, .f32⟩ : BufTy).Contents (Elt Ideal)) (i j : Fin 64) :
    gramK (F := Ideal) g (ix2 i j) = g (ix3 (0 : Fin 2) i j) + g (ix3 (1 : Fin 2) i j) := by
  unfold gramK
  refine (addf_apply _ _ _).trans ?_
  refine congrArg₂ (· + ·) ?_ ?_
  · refine (shapeCast_1ab_ab_apply _ _ i j).trans ?_
    exact extractStridedSlice_apply _ _ _ _ _ fun a => match a with
      | ⟨0, _⟩ => rfl | ⟨1, _⟩ => by show i.val = 0 + i.val; omega | ⟨2, _⟩ => by show j.val = 0 + j.val; omega
  · refine (shapeCast_1ab_ab_apply _ _ i j).trans ?_
    exact extractStridedSlice_apply _ _ _ _ _ fun a => match a with
      | ⟨0, _⟩ => rfl | ⟨1, _⟩ => by show i.val = 0 + i.val; omega | ⟨2, _⟩ => by show j.val = 0 + j.val; omega

theorem colK_apply (x : (⟨S2x64x1, .f32⟩ : BufTy).Contents (Elt Ideal)) (i : Fin 64) :
    colK (F := Ideal) x (ix2 i (0 : Fin 1)) = x (ix3 (0 : Fin 2) i (0 : Fin 1)) + x (ix3 (1 : Fin 2) i (0 : Fin 1)) := by
  unfold colK
  refine (addf_apply _ _ _).trans ?_
  refine congrArg₂ (· + ·) ?_ ?_
  · refine (shapeCast_1ab_ab_apply _ _ i (0 : Fin 1)).trans ?_
    exact extractStridedSlice_apply _ _ _ _ _ fun a => match a with
      | ⟨0, _⟩ => rfl | ⟨1, _⟩ => by show i.val = 0 + i.val; omega | ⟨2, _⟩ => rfl
  · refine (shapeCast_1ab_ab_apply _ _ i (0 : Fin 1)).trans ?_
    exact extractStridedSlice_apply _ _ _ _ _ fun a => match a with
      | ⟨0, _⟩ => rfl | ⟨1, _⟩ => by show i.val = 0 + i.val; omega | ⟨2, _⟩ => rfl

theorem ttK_apply (t : (⟨S2x1x1, .f32⟩ : BufTy).Contents (Elt Ideal)) :
    ttK (F := Ideal) t (ix2 (0 : Fin 1) (0 : Fin 1))
      = t (ix3 (0 : Fin 2) (0 : Fin 1) (0 : Fin 1)) + t (ix3 (1 : Fin 2) (0 : Fin 1) (0 : Fin 1)) := by
  unfold ttK
  refine (addf_apply _ _ _).trans ?_
  refine congrArg₂ (· + ·) ?_ ?_
  · refine (shapeCast_1ab_ab_apply _ _ (0 : Fin 1) (0 : Fin 1)).trans ?_
    exact extractStridedSlice_apply _ _ _ _ _ fun a => match a with
      | ⟨0, _⟩ => rfl | ⟨1, _⟩ => rfl | ⟨2, _⟩ => rfl
  · refine (shapeCast_1ab_ab_apply _ _ (0 : Fin 1) (0 : Fin 1)).trans ?_
    exact extractStridedSlice_apply _ _ _ _ _ fun a => match a with
      | ⟨0, _⟩ => rfl | ⟨1, _⟩ => rfl | ⟨2, _⟩ => rfl

/-! ## The distance stages read at an index -/

theorem d2K_apply (sq : (⟨S64x1, .f32⟩ : BufTy).Contents (Elt Ideal)) (gram : (⟨S64x64, .f32⟩ : BufTy).Contents (Elt Ideal)) (i j : Fin 64) :
    d2K (F := Ideal) sq gram (ix2 i j)
      = max (sq (ix2 i (0 : Fin 1)) + sq (ix2 j (0 : Fin 1)) - Cert.Spec.two * gram (ix2 i j)) Cert.Spec.zero := by
  unfold d2K
  refine (maximumf_apply _ _ _).trans ?_
  refine congrArg₂ max ?_ rfl
  refine (subf_apply _ _ _).trans ?_
  refine congrArg₂ (· - ·) ?_ rfl
  refine (addf_apply _ _ _).trans ?_
  refine congrArg₂ (· + ·) ?_ ?_
  · exact broadcastInDim_apply _ _ _ (ix2 i j) (ix2 i (0 : Fin 1)) fun a => match a with
      | ⟨0, _⟩ => rfl | ⟨1, _⟩ => rfl
  · refine (broadcastInDim_apply _ _ _ (ix2 i j) (ix2 (0 : Fin 1) j) fun a => match a with
      | ⟨0, _⟩ => rfl | ⟨1, _⟩ => rfl).trans ?_
    exact transpose_ix2_apply _ _ (0 : Fin 1) j

theorem kmatK_apply (d2 : (⟨S64x64, .f32⟩ : BufTy).Contents (Elt Ideal)) (i j : Fin 64) :
    kmatK (F := Ideal) d2 (ix2 i j) = Ideal.exp (Cert.Spec.negone * d2 (ix2 i j)) := rfl

theorem dt2K_apply (sq xt : (⟨S64x1, .f32⟩ : BufTy).Contents (Elt Ideal)) (tt : (⟨S1x1, .f32⟩ : BufTy).Contents (Elt Ideal)) (i : Fin 64) :
    dt2K (F := Ideal) sq xt tt (ix2 i (0 : Fin 1))
      = max (sq (ix2 i (0 : Fin 1)) - Cert.Spec.two * xt (ix2 i (0 : Fin 1)) + tt (ix2 (0 : Fin 1) (0 : Fin 1))) Cert.Spec.zero := by
  unfold dt2K
  refine (maximumf_apply _ _ _).trans ?_
  refine congrArg₂ max ?_ rfl
  refine (addf_apply _ _ _).trans ?_
  refine congrArg₂ (· + ·) rfl ?_
  exact broadcastInDim_apply _ _ _ (ix2 i (0 : Fin 1)) (ix2 (0 : Fin 1) (0 : Fin 1)) fun a => match a with
    | ⟨0, _⟩ => rfl | ⟨1, _⟩ => rfl

/-! ## The diagonal mask -/

/-- The row number equals the column number, as 32-bit words, exactly when the coordinates are equal. -/
theorem diag_mask (i j : Fin 64) :
    cmpi .eq (iotaInDim S64x64 32 0) (iotaInDim S64x64 32 1) (ix2 i j) = if i = j then 1#1 else 0#1 := by
  show IntOp.cmpi .eq (BitVec.ofNat 32 i.val) (BitVec.ofNat 32 j.val) = _
  unfold IntOp.cmpi
  by_cases h : i = j
  · subst h; simp
  · rw [if_neg h]
    have hne : (BitVec.ofNat 32 i.val == BitVec.ofNat 32 j.val) = false := by
      rw [beq_eq_false_iff_ne]
      intro e
      have e' := congrArg BitVec.toNat e
      simp only [BitVec.toNat_ofNat] at e'
      exact h (Fin.ext (by have := i.isLt; have := j.isLt; omega))
    simp only [hne]; rfl

theorem diagK_apply (k : (⟨S64x64, .f32⟩ : BufTy).Contents (Elt Ideal)) (i j : Fin 64) :
    diagK (F := Ideal) k (ix2 i j) = if i = j then k (ix2 i j) else Cert.Spec.zero := by
  unfold diagK
  refine (select_apply _ _ _ _).trans ?_
  rw [diag_mask]
  by_cases h : i = j
  · rw [if_pos h, if_pos h]; exact select_one _ _
  · rw [if_neg h, if_neg h]; exact select_zero _ _

/-! ## The sums -/

theorem totalK_eq (k : (⟨S64x64, .f32⟩ : BufTy).Contents (Elt Ideal)) :
    totalK (F := Ideal) k = fun _ => Cert.Spec.zero + ∑ i : Fin 64, ∑ j : Fin 64, k (ix2 i j) := by
  funext idx
  refine (Ideal.hostReduceAdd_total reducesTo_S64x64_S_d0_1 (fun b => b.elim0) k Cert.Spec.zero idx).trans ?_
  rw [sum_idx2]

theorem traceK_eq (k : (⟨S64x64, .f32⟩ : BufTy).Contents (Elt Ideal)) :
    traceK (F := Ideal) k
      = fun _ => Cert.Spec.zero + ∑ i : Fin 64, ∑ j : Fin 64, if i = j then k (ix2 i j) else Cert.Spec.zero := by
  show totalK (F := Ideal) (diagK k) = _
  rw [totalK_eq]
  simp only [diagK_apply]

theorem crossK_eq (k : (⟨S64x64, .f32⟩ : BufTy).Contents (Elt Ideal)) (K : Fin 64 → Fin 64 → EReal) (hk : ∀ i j, k (ix2 i j) = K i j) (idx : S_.Idx) :
    crossK (F := Ideal) k idx
      = Ideal.div (Cert.Spec.quarter * ((Cert.Spec.zero + ∑ i : Fin 64, ∑ j : Fin 64, K i j)
          - (Cert.Spec.zero + ∑ i : Fin 64, ∑ j : Fin 64, if i = j then K i j else Cert.Spec.zero))) Cert.Spec.c4032 := by
  show Ideal.div (Cert.Spec.quarter * (totalK (F := Ideal) k idx - traceK (F := Ideal) k idx)) Cert.Spec.c4032 = _
  rw [totalK_eq, traceK_eq]
  simp only [hk]

theorem targetK_eq (d : (⟨S64x1, .f32⟩ : BufTy).Contents (Elt Ideal)) (D : Fin 64 → EReal) (hd : ∀ i, d (ix2 i (0 : Fin 1)) = D i) (idx : S_.Idx) :
    targetK (F := Ideal) d idx = Cert.Spec.target D := by
  unfold Cert.Spec.target
  show Ideal.div (Ideal.hostReduceAdd reducesTo_S64x1_S_d0_1
      (fun q => Ideal.exp (Cert.Spec.negone * d q)) Cert.Spec.zero idx) Cert.Spec.c64 = _
  rw [Ideal.hostReduceAdd_total reducesTo_S64x1_S_d0_1 (fun b => b.elim0), sum_idx2]
  simp only [Fin.sum_univ_one, hd]

/-! ## The score -/

theorem kmat_read (g : (⟨S2x64x64, .f32⟩ : BufTy).Contents (Elt Ideal)) (xsq : (⟨S2x64x1, .f32⟩ : BufTy).Contents (Elt Ideal)) (i j : Fin 64) :
    kmatK (F := Ideal) (d2K (colK xsq) (gramK g)) (ix2 i j)
      = Cert.Spec.kmat (fun i => xsq (ix3 (0 : Fin 2) i (0 : Fin 1)) + xsq (ix3 (1 : Fin 2) i (0 : Fin 1)))
          (fun i j => g (ix3 (0 : Fin 2) i j) + g (ix3 (1 : Fin 2) i j)) i j := by
  rw [kmatK_apply, d2K_apply, colK_apply, colK_apply, gramK_apply]
  rfl

theorem dt2_read (xt : (⟨S2x64x1, .f32⟩ : BufTy).Contents (Elt Ideal)) (tt : (⟨S2x1x1, .f32⟩ : BufTy).Contents (Elt Ideal)) (xsq : (⟨S2x64x1, .f32⟩ : BufTy).Contents (Elt Ideal)) (i : Fin 64) :
    dt2K (F := Ideal) (colK xsq) (colK xt) (ttK tt) (ix2 i (0 : Fin 1))
      = max ((xsq (ix3 (0 : Fin 2) i (0 : Fin 1)) + xsq (ix3 (1 : Fin 2) i (0 : Fin 1)))
          - Cert.Spec.two * (xt (ix3 (0 : Fin 2) i (0 : Fin 1)) + xt (ix3 (1 : Fin 2) i (0 : Fin 1)))
          + (tt (ix3 (0 : Fin 2) (0 : Fin 1) (0 : Fin 1)) + tt (ix3 (1 : Fin 2) (0 : Fin 1) (0 : Fin 1)))) Cert.Spec.zero := by
  rw [dt2K_apply, colK_apply, colK_apply, ttK_apply]

/-- The lines after the region compute the shared tail of the specification from the two halves' sums: the squared
    norms and the Gram matrix as the halves added, the distance to the target from the expanded square. -/
theorem tailTerm_eq (g : (⟨S2x64x64, .f32⟩ : BufTy).Contents (Elt Ideal)) (xt : (⟨S2x64x1, .f32⟩ : BufTy).Contents (Elt Ideal)) (tt : (⟨S2x1x1, .f32⟩ : BufTy).Contents (Elt Ideal)) (xsq : (⟨S2x64x1, .f32⟩ : BufTy).Contents (Elt Ideal)) :
    tailTerm (F := Ideal) g xt tt xsq = fun _ => Cert.Spec.tail
      (fun i => xsq (ix3 (0 : Fin 2) i (0 : Fin 1)) + xsq (ix3 (1 : Fin 2) i (0 : Fin 1)))
      (fun i j => g (ix3 (0 : Fin 2) i j) + g (ix3 (1 : Fin 2) i j))
      (fun i => max ((xsq (ix3 (0 : Fin 2) i (0 : Fin 1)) + xsq (ix3 (1 : Fin 2) i (0 : Fin 1)))
          - Cert.Spec.two * (xt (ix3 (0 : Fin 2) i (0 : Fin 1)) + xt (ix3 (1 : Fin 2) i (0 : Fin 1)))
          + (tt (ix3 (0 : Fin 2) (0 : Fin 1) (0 : Fin 1)) + tt (ix3 (1 : Fin 2) (0 : Fin 1) (0 : Fin 1)))) Cert.Spec.zero) := by
  funext idx
  unfold tailTerm
  refine (shapeCast_apply _ _ idx idx rfl).trans ?_
  unfold clipK Cert.Spec.tail
  refine (minimumf_apply _ _ _).trans ?_
  refine congrArg₂ min rfl ?_
  refine (maximumf_apply _ _ _).trans ?_
  refine congrArg₂ max rfl ?_
  refine (subf_apply _ _ _).trans ?_
  refine congrArg₂ (· - ·) ?_ ?_
  · exact crossK_eq _ _ (kmat_read g xsq) idx
  · exact targetK_eq _ _ (dt2_read xt tt xsq) idx

end Cert.KernelIdeal.Tail
-- ==== Proof.Reshapes.lean ====
/-
  Three re-indexings read at an index, over literal shapes and any element type: an array flattened in
  row-major order reads, at a flat position, the entry of the original at the coordinates with the same
  row-major position. A 64 × 4096 × 128 array as 64 × 524288: position k of row a is the entry
  (a, k / 128, k % 128), since (a·4096 + k / 128)·128 + k % 128 = a·524288 + k. A 4096 × 128 array as a vector
  of 524288 entries, or as a single row 1 × 524288: position k is the entry (k / 128, k % 128), since
  (k / 128)·128 + k % 128 = k.
-/
import Idealize.ShloMosaic.PureOps
import Idealize.ShloMosaic.Lib.ValueIdx
import Idealize.ShloMosaic.Lib.Pipeline.Value

namespace Cert.Reshapes

open Idealize.ShloMosaic Idealize.ShloMosaic.ValueIdx

/-- A 64 × 4096 × 128 array flattened to 64 × 524288, at (a, k): the entry (a, k / 128, k % 128). -/
theorem flatten3 {α : Type} (x : (⟨3, ![64, 4096, 128]⟩ : Shape).Idx → α)
    (h : (⟨3, ![64, 4096, 128]⟩ : Shape).ShapeCasts ⟨2, ![64, 524288]⟩) (a : Fin 64) (k : Fin 524288) :
    shapeCast ⟨2, ![64, 524288]⟩ x h (ValueIdx.ix2 a k)
      = x (ValueIdx.ix3 a ⟨k.val / 128, by have := k.isLt; omega⟩ ⟨k.val % 128, Nat.mod_lt _ (by decide)⟩) := by
  refine shapeCast_apply x h (ValueIdx.ix2 a k) _ ?_
  rw [Shape.rowMajor_val_three, Shape.rowMajor_val_two]
  show (a.val * 4096 + k.val / 128) * 128 + k.val % 128 = a.val * 524288 + k.val
  omega

/-- A 4096 × 128 array flattened to a vector of 524288 entries, at k: the entry (k / 128, k % 128). -/
theorem flatten2 {α : Type} (x : (⟨2, ![4096, 128]⟩ : Shape).Idx → α)
    (h : (⟨2, ![4096, 128]⟩ : Shape).ShapeCasts ⟨1, ![524288]⟩) (k : Fin 524288) :
    shapeCast ⟨1, ![524288]⟩ x h (ValueIdx.ix1 k)
      = x (ValueIdx.ix2 ⟨k.val / 128, by have := k.isLt; omega⟩ ⟨k.val % 128, Nat.mod_lt _ (by decide)⟩) := by
  refine shapeCast_apply x h (ValueIdx.ix1 k) _ ?_
  rw [Shape.rowMajor_val_two, Shape.rowMajor_val_one]
  show (k.val / 128) * 128 + k.val % 128 = k.val
  omega

/-- A 4096 × 128 array flattened to a single row 1 × 524288, at (0, k): the entry (k / 128, k % 128). -/
theorem flatten2row {α : Type} (x : (⟨2, ![4096, 128]⟩ : Shape).Idx → α)
    (h : (⟨2, ![4096, 128]⟩ : Shape).ShapeCasts ⟨2, ![1, 524288]⟩) (k : Fin 524288) :
    shapeCast ⟨2, ![1, 524288]⟩ x h (ValueIdx.ix2 (0 : Fin 1) k)
      = x (ValueIdx.ix2 ⟨k.val / 128, by have := k.isLt; omega⟩ ⟨k.val % 128, Nat.mod_lt _ (by decide)⟩) := by
  refine shapeCast_apply x h (ValueIdx.ix2 (0 : Fin 1) k) _ ?_
  rw [Shape.rowMajor_val_two, Shape.rowMajor_val_two]
  show (k.val / 128) * 128 + k.val % 128 = 0 * 524288 + k.val
  omega

end Cert.Reshapes
-- ==== Proof.Finite.lean ====
/-
  From the precondition to real entries. The precondition says, of each argument array, that every
  entry's absolute value is below +∞ (a conjunction of three such statements, each a reduction by
  `and` over the whole array). On the extended reals |x| = max x (−x) is +∞ exactly at x = ±∞, so
  an entry below +∞ in absolute value is neither infinity: it is a real number.
-/
import proofs.«113203_j56899726737831_2_alg».proof.Pre_finite_inputs
import proofs.«113203_j56899726737831_2_alg».proof.Proof.Gen.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.Finite

open Idealize.ShloMosaic

/-- The pattern of `+inf` denotes `⊤`. -/
theorem ofBits_inf : Ideal.ofBits .f32 0x7F800000#32 = ⊤ := by
  simp [Ideal.ofBits, Ideal.ieee]

/-- An extended real whose absolute value compares below `+inf` is a real number. -/
theorem real_of_abs_lt (x : EReal)
    (h : Ideal.cmp .olt (max x (-x)) (Ideal.ofBits .f32 0x7F800000#32) = 1#1) : ∃ r : ℝ, x = r := by
  rw [ofBits_inf] at h
  induction x using EReal.rec with
  | bot => simp [Ideal.cmp] at h
  | top => simp [Ideal.cmp] at h
  | coe r => exact ⟨r, rfl⟩

/-- The scalar shape has one index. -/
instance : Subsingleton Cert.Pre_finite_inputs.S_.Idx := ⟨fun a b => funext fun d => d.elim0⟩

/-- Under the precondition every entry of the first two arguments is a real number. -/
theorem real_of_pre
    (a0 : (⟨Cert.Pre_finite_inputs.S64x4096x128, .f32⟩ : BufTy).Contents (Elt Ideal))
    (a1 : (⟨Cert.Pre_finite_inputs.S4096x128, .f32⟩ : BufTy).Contents (Elt Ideal))
    (a2 : (⟨Cert.Pre_finite_inputs.S4096, .f32⟩ : BufTy).Contents (Elt Ideal))
    (h : Cert.Pre_finite_inputs.fn (F := Ideal) a0 a1 a2 = fun _ => 1#1) :
    (∀ i, ∃ r : ℝ, a0 i = r) ∧ (∀ i, ∃ r : ℝ, a1 i = r) := by
  have h0 := congrFun h ValueIdx.ix0
  dsimp only [Cert.Pre_finite_inputs.fn] at h0
  obtain ⟨h01, _⟩ := IntOp.andi_eq_one.1 h0
  obtain ⟨hA, hB⟩ := IntOp.andi_eq_one.1 h01
  exact ⟨fun i => real_of_abs_lt (a0 i) (Host.reduce_andi_all _ _ _ _ _ hA i),
    fun i => real_of_abs_lt (a1 i) (Host.reduce_andi_all _ _ _ _ _ hB i)⟩

end Cert.Finite
-- ==== Proof.IdealEntries.lean ====
/-
  The flattened samples and target, as the region finds them, are entries of the arguments: lane k of row a of the
  64 × 524288 array is entry (a, k / 128, k % 128) of the 64 × 4096 × 128 argument, and lane k of the 1 × 524288 array is
  entry (k / 128, k % 128) of the 4096 × 128 argument — a reshape keeps the row-major position. Under the precondition
  every entry of the two arguments is a real number, so every entry of the flattened arrays is.
-/
import proofs.«113203_j56899726737831_2_alg».proof.Proof.IdealBlocks
import proofs.«113203_j56899726737831_2_alg».proof.Proof.Reshapes
import proofs.«113203_j56899726737831_2_alg».proof.Proof.Finite
import proofs.«113203_j56899726737831_2_alg».proof.Defs
import Idealize.ShloMosaic.Lib.Pipeline.Value
import Idealize.ShloMosaic.Lib.ValueIdx

set_option maxRecDepth 16384

noncomputable section

namespace Cert.KernelIdeal.Entries

open Idealize.ShloMosaic Idealize.ShloMosaic.TcCoe Idealize.ShloMosaic.ValueIdx
open Idealize.SL.Sem
open Cert.KernelIdeal Cert.KernelIdeal.Gen Cert.KernelIdeal.Around
open Cert.Reshapes

/-! ## The flattened arrays as entries of the arguments -/

variable (m : (ℓ : Loc nD τ sig) → Buf (Elt Ideal) ℓ)

theorem Xk_apply (c : Dev nD) (a : Fin 64) (k : Fin 524288) :
    Xk (F := Ideal) m c a k
      = m ((c : Thread nD τ).loc main_arg0)
          (ix3 a ⟨k.val / 128, by have := k.isLt; omega⟩ ⟨k.val % 128, Nat.mod_lt _ (by decide)⟩) :=
  (congrFun (V_main_v0 m c) (ix2 a k)).trans (flatten3 _ _ a k)

theorem Tk_apply (c : Dev nD) (k : Fin 524288) :
    Tk (F := Ideal) m c k
      = m ((c : Thread nD τ).loc main_arg1)
          (ix2 ⟨k.val / 128, by have := k.isLt; omega⟩ ⟨k.val % 128, Nat.mod_lt _ (by decide)⟩) :=
  (congrFun (V_main_v1 m c) (ix2 (0 : Fin 1) k)).trans (flatten2row _ _ k)

/-! ## Real entries -/

theorem Xk_real (hpre : Cert.Pre_KernelIdeal m) (c : Dev nD) :
    ∀ (a : Fin 64) (k : Fin 524288), ∃ r : ℝ, Xk (F := Ideal) m c a k = r := fun a k => by
  rw [Xk_apply]
  exact (Cert.Finite.real_of_pre _ _ _ (hpre c)).1 _

theorem Tk_real (hpre : Cert.Pre_KernelIdeal m) (c : Dev nD) :
    ∀ k : Fin 524288, ∃ r : ℝ, Tk (F := Ideal) m c k = r := fun k => by
  rw [Tk_apply]
  exact (Cert.Finite.real_of_pre _ _ _ (hpre c)).2 _

end Cert.KernelIdeal.Entries
-- ==== Proof.RefReadStats.lean ====
/-
  The reference's row statistics read entry by entry at the ideal values, where a host sum is the exact sum
  from its initial value and a matrix product is the exact sum of products.
  With X the samples as a 64 × 524288 matrix and t the target as a vector of 524288 entries:
  the squared norm of row i is Σ_k X(i,k)·X(i,k) (the sum's initial value, the bit pattern of zero, is the
  extended real 0 and drops out); the Gram matrix at (i, j) is Σ_k X(i,k)·X(j,k) (the product of X with its
  transpose, the transpose read back at (k, j) as X(j,k); the contraction runs over one axis, re-indexed by
  its one coordinate); the squared distance of row i to the target is Σ_k (X(i,k) − t(k))·(X(i,k) − t(k))
  (the target spread over the rows reads t(k) at every (i, k)). The two re-indexings of the arguments keep
  the row-major position: the matrix at (i, k) is the 64 × 4096 × 128 array at (i, k / 128, k % 128), the
  vector at k the 4096 × 128 array at (k / 128, k % 128).
-/
import proofs.«113203_j56899726737831_2_alg».proof.Proof.RefRun
import proofs.«113203_j56899726737831_2_alg».proof.Proof.Spec
import proofs.«113203_j56899726737831_2_alg».proof.Proof.Reshapes
import Idealize.ShloMosaic.Lib.ValueIdx
import Idealize.ShloMosaic.Lib.IdealHost
import Idealize.ShloMosaic.Lib.ValueLayout
import Idealize.ShloMosaic.Lib.Pipeline.Value
import Idealize.ShloMosaic.PureOps.Ideal.Laws

noncomputable section

namespace Cert.ReferenceIdeal.RefRead

open Cert.ReferenceIdeal Cert.ReferenceIdeal.Gen Cert.ReferenceIdeal.RefRun Idealize.ShloMosaic Idealize.ShloMosaic.ValueIdx
open scoped BigOperators

/-- The matrix's entry (i, k). -/
def mat (X : FVec Ideal S64x524288 .f32) : Fin 64 → Fin 524288 → EReal := fun i k => X (ix2 i k)

/-- The vector's entry k. -/
def vec (t : FVec Ideal S524288 .f32) : Fin 524288 → EReal := fun k => t (ix1 k)

theorem reduces_rows : S64x524288.Reduces [1] S64 := by decide

/-- Summing over the second axis at row i visits the entries (i, k). -/
theorem lift_rows (i : Fin 64) (k : Fin 524288) : reduces_rows.lift (ix1 i) k = ix2 i k :=
  funext fun a => Fin.ext (by match a with | ⟨0, _⟩ => rfl | ⟨1, _⟩ => rfl)

/-- The host sum's initial value is the extended real zero. -/
theorem zero_first : (RefRun.zero (F := Ideal)) (Shape.Idx.first h_S_) = 0 := Ideal.ofBits_zero_f32

/-- The squared norm of row i is the plain sum of the squares of its entries. -/
theorem sq_apply (X : FVec Ideal S64x524288 .f32) (i : Fin 64) :
    RefRun.sq (F := Ideal) X (ix1 i) = Cert.Spec.sq (mat X) i := by
  unfold RefRun.sq Cert.Spec.sq
  rw [hostReduceAdd_apply, Ideal.hostReduceAdd_single reducesTo_S64x524288_S64_d1 reduces_rows, zero_first, zero_add]
  refine Finset.sum_congr rfl fun k _ => ?_
  exact (congrArg (mulf X X) (lift_rows i k)).trans rfl

/-- The samples minus the target at (i, k). -/
theorem diff_apply (X : FVec Ideal S64x524288 .f32) (t : FVec Ideal S524288 .f32) (i : Fin 64) (k : Fin 524288) :
    RefRun.diff (F := Ideal) X t (ix2 i k) = mat X i k - vec t k := by
  unfold RefRun.diff
  rw [subf_apply]
  refine congrArg (mat X i k - ·) ?_
  refine (broadcastInDim_apply _ _ _ (ix2 i k) (ix2 (0 : Fin 1) k) fun a => by match a with | ⟨0, _⟩ => rfl | ⟨1, _⟩ => rfl).trans ?_
  exact broadcastInDim_apply _ _ _ (ix2 (0 : Fin 1) k) (ix1 k) fun a => by match a with | ⟨0, _⟩ => rfl

/-- The squared distance of row i to the target is the plain sum of the squared differences. -/
theorem dt2_apply (X : FVec Ideal S64x524288 .f32) (t : FVec Ideal S524288 .f32) (i : Fin 64) :
    RefRun.dt2 (F := Ideal) X t (ix1 i) = Cert.Spec.dt2R (mat X) (vec t) i := by
  unfold RefRun.dt2 Cert.Spec.dt2R
  rw [hostReduceAdd_apply, Ideal.hostReduceAdd_single reducesTo_S64x524288_S64_d1 reduces_rows, zero_first, zero_add]
  refine Finset.sum_congr rfl fun k _ => ?_
  exact (congrArg (mulf (RefRun.diff X t) (RefRun.diff X t)) (lift_rows i k)).trans
    (congrArg₂ (· * ·) (diff_apply X t i k) (diff_apply X t i k))

/-- The contraction of the Gram product runs over one axis of 524288 positions. -/
abbrev gramDims := dot_S64x524288_S524288x64_S64x64_1_0_0_1_n_n

/-- The Gram matrix's entry (i, j) is the plain sum of the products of rows i and j. -/
theorem gram_apply (X : FVec Ideal S64x524288 .f32) (i j : Fin 64) :
    RefRun.gram (F := Ideal) X (ix2 i j) = Cert.Spec.gram (mat X) i j := by
  unfold RefRun.gram Cert.Spec.gram
  show FloatOps.dotGeneral gramDims none _ X _ (ix2 i j) = _
  rw [Ideal.dotGeneral_apply, ← Equiv.sum_comp (contrEquiv1 gramDims 524288 rfl rfl).symm]
  refine Finset.sum_congr rfl fun k _ => ?_
  have hl : gramDims.lhsIdx (ix2 i j) ((contrEquiv1 gramDims 524288 rfl rfl).symm k) = ix2 i k :=
    funext fun a => Fin.ext (by
      match a with
      | ⟨0, _⟩ => rfl
      | ⟨1, _⟩ => exact (gramDims.lhsIdx_val_of_single (cl := (1 : Fin 2)) rfl _ _).trans (contrEquiv1_symm_val gramDims 524288 rfl rfl k))
  have hr : gramDims.rhsIdx (ix2 i j) ((contrEquiv1 gramDims 524288 rfl rfl).symm k) = ix2 k j :=
    funext fun a => Fin.ext (by
      match a with
      | ⟨0, _⟩ => exact (gramDims.rhsIdx_val_of_single (cr := (0 : Fin 2)) rfl _ _).trans (contrEquiv1_symm_val gramDims 524288 rfl rfl k)
      | ⟨1, _⟩ => rfl)
  rw [hl, hr]
  exact congrArg (mat X i k * ·) (transpose_ix2_apply X _ k j)

/-- The samples' matrix at (i, k) is the array at (i, k / 128, k % 128): the same row-major position. -/
theorem xmat_apply (a0 : FVec Ideal S64x4096x128 .f32) (i : Fin 64) (k : Fin 524288) :
    RefRun.xmat (F := Ideal) a0 (ix2 i k)
      = a0 (ix3 i ⟨k.val / 128, by have := k.isLt; omega⟩ ⟨k.val % 128, Nat.mod_lt _ (by decide)⟩) := by
  unfold RefRun.xmat
  exact Cert.Reshapes.flatten3 a0 _ i k

/-- The target vector at k is the array at (k / 128, k % 128): the same row-major position. -/
theorem tvec_apply (a1 : FVec Ideal S4096x128 .f32) (k : Fin 524288) :
    RefRun.tvec (F := Ideal) a1 (ix1 k)
      = a1 (ix2 ⟨k.val / 128, by have := k.isLt; omega⟩ ⟨k.val % 128, Nat.mod_lt _ (by decide)⟩) := by
  unfold RefRun.tvec
  exact Cert.Reshapes.flatten2 a1 _ k

end Cert.ReferenceIdeal.RefRead

end
-- ==== Proof.RefReadTail.lean ====
/-
  Everything the reference computes after the row statistics, read at the ideal values from the squared norms s,
  the inner products g and the squared distances to the target d, entry by entry.
  At (i, j) the clamped squared distance is max(s_i + s_j − 2·g_ij, 0): s spread down the rows reads s_i, spread
  along the columns s_j, a scalar constant spread over the matrix reads itself. The kernel matrix is exp(−1·d2).
  Its total is the host sum's zero plus the double sum over rows and columns (the sum over all indices of a
  rank-two shape, split by coordinates). Its diagonal sum selects by the mask "row index plus the integer zero
  equals column index", two 32-bit words that are equal exactly when the two coordinates are, both being
  below 64: so the summand is the entry when i = j and the zero otherwise. The cross term is
  0.25·(total − diagonal)/4032, the target term (zero + Σ_i exp(−1·d_i))/64 (a sum over all indices of a rank-one
  shape, re-indexed by its coordinate), and the score their difference clamped, min(10, max(−10, ·)).
  The float constants stay as their bit patterns; none is evaluated.
-/
import proofs.«113203_j56899726737831_2_alg».proof.Proof.RefRun
import proofs.«113203_j56899726737831_2_alg».proof.Proof.Spec
import Idealize.ShloMosaic.Lib.ValueIdx
import Idealize.ShloMosaic.Lib.IdealHost
import Idealize.ShloMosaic.Lib.ValueLayout
import Idealize.ShloMosaic.Lib.Pipeline.Value
import Idealize.ShloMosaic.PureOps.Ideal.Laws

noncomputable section

namespace Cert.ReferenceIdeal.RefRead

open Cert.ReferenceIdeal Cert.ReferenceIdeal.Gen Cert.ReferenceIdeal.RefRun Idealize.ShloMosaic Idealize.ShloMosaic.ValueIdx
open scoped BigOperators

/-! ## The 64 × 64 stages at an entry -/

/-- A vector spread down the rows reads, at (i, j), its entry i. -/
theorem rows_apply (s : FVec Ideal S64 .f32) (i j : Fin 64) : RefRun.rows (F := Ideal) s (ix2 i j) = s (ix1 i) := by
  unfold RefRun.rows
  refine (broadcastInDim_apply _ _ _ (ix2 i j) (ix2 i (0 : Fin 1)) fun a => by match a with | ⟨0, _⟩ => rfl | ⟨1, _⟩ => rfl).trans ?_
  exact broadcastInDim_apply _ _ _ (ix2 i (0 : Fin 1)) (ix1 i) fun a => by match a with | ⟨0, _⟩ => rfl

/-- A vector spread along the columns reads, at (i, j), its entry j. -/
theorem cols_apply (s : FVec Ideal S64 .f32) (i j : Fin 64) : RefRun.cols (F := Ideal) s (ix2 i j) = s (ix1 j) := by
  unfold RefRun.cols
  refine (broadcastInDim_apply _ _ _ (ix2 i j) (ix2 (0 : Fin 1) j) fun a => by match a with | ⟨0, _⟩ => rfl | ⟨1, _⟩ => rfl).trans ?_
  exact broadcastInDim_apply _ _ _ (ix2 (0 : Fin 1) j) (ix1 j) fun a => by match a with | ⟨0, _⟩ => rfl

/-- A scalar constant spread over the matrix reads that constant everywhere. -/
theorem splat_apply (b : BitVec 32) (j : S64x64.Idx) : RefRun.splat (F := Ideal) b j = Ideal.ofBits .f32 b := rfl

/-- The kernel matrix at (i, j), from the squared norms and the inner products entry by entry. -/
theorem kmat_apply (s : FVec Ideal S64 .f32) (g : FVec Ideal S64x64 .f32) (i j : Fin 64) :
    RefRun.kmat (F := Ideal) s g (ix2 i j)
      = Cert.Spec.kmat (fun i => s (ix1 i)) (fun i j => g (ix2 i j)) i j := by
  unfold RefRun.kmat RefRun.d2 Cert.Spec.kmat Cert.Spec.d2
  show Ideal.exp (Ideal.ofBits .f32 0xBF800000#32
      * max (RefRun.rows s (ix2 i j) + RefRun.cols s (ix2 i j) - Ideal.ofBits .f32 0x40000000#32 * g (ix2 i j))
          (Ideal.ofBits .f32 0x00000000#32)) = _
  rw [rows_apply, cols_apply]

/-- The diagonal's mask is set at (i, j) exactly when i = j: the two coordinates, as 32-bit words, are equal
    exactly when they are (both are below 64). -/
theorem diag_apply (i j : Fin 64) : RefRun.diag (ix2 i j) = if i = j then 1#1 else 0#1 := by
  show BitVec.ofBool (BitVec.ofNat 32 i.val + 0#32 == BitVec.ofNat 32 j.val) = _
  rw [BitVec.add_zero]
  by_cases h : i = j
  · subst h; simp
  · have hne : BitVec.ofNat 32 i.val ≠ BitVec.ofNat 32 j.val := fun e => h (Fin.ext (by
      have e' := congrArg BitVec.toNat e
      simp only [BitVec.toNat_ofNat] at e'
      have := i.isLt; have := j.isLt; omega))
    rw [if_neg h, beq_eq_false_iff_ne.mpr hne]; rfl

/-- The matrix kept on the diagonal and zero elsewhere, at (i, j). -/
theorem onDiag_apply (K : FVec Ideal S64x64 .f32) (i j : Fin 64) :
    select RefRun.diag K (RefRun.splat (F := Ideal) 0x00000000#32) (ix2 i j)
      = if i = j then K (ix2 i j) else Cert.Spec.zero := by
  rw [select_apply, diag_apply]
  by_cases h : i = j
  · rw [if_pos h, if_pos h]; exact select_one _ _
  · rw [if_neg h, if_neg h]; exact select_zero _ _

/-! ## The sums and the score -/

/-- The sum of all entries, from the host sum's zero. -/
theorem total_apply (K : FVec Ideal S64x64 .f32) (j0 : S_.Idx) :
    RefRun.total (F := Ideal) K j0 = Cert.Spec.zero + ∑ i, ∑ j, K (ix2 i j) := by
  unfold RefRun.total
  rw [hostReduceAdd_apply, Ideal.hostReduceAdd_total reducesTo_S64x64_S_d0_1 (fun b => b.elim0), sum_idx2]
  rfl

/-- The sum of the diagonal entries, from the host sum's zero. -/
theorem trace_apply (K : FVec Ideal S64x64 .f32) (j0 : S_.Idx) :
    RefRun.trace (F := Ideal) K j0 = Cert.Spec.zero + ∑ i, ∑ j, if i = j then K (ix2 i j) else Cert.Spec.zero := by
  unfold RefRun.trace
  rw [hostReduceAdd_apply, Ideal.hostReduceAdd_total reducesTo_S64x64_S_d0_1 (fun b => b.elim0), sum_idx2]
  refine congrArg (Cert.Spec.zero + ·) ?_
  exact Finset.sum_congr rfl fun i _ => Finset.sum_congr rfl fun j _ => onDiag_apply K i j

/-- The cross term from the squared norms and the inner products. -/
theorem cross_apply (s : FVec Ideal S64 .f32) (g : FVec Ideal S64x64 .f32) (j0 : S_.Idx) :
    RefRun.cross (F := Ideal) (RefRun.kmat s g) j0
      = Cert.Spec.cross (fun i => s (ix1 i)) (fun i j => g (ix2 i j)) := by
  unfold RefRun.cross Cert.Spec.cross Cert.Spec.total Cert.Spec.trace
  show Ideal.div (Ideal.ofBits .f32 0x3E800000#32 * (RefRun.total (RefRun.kmat s g) j0 - RefRun.trace (RefRun.kmat s g) j0))
      (Ideal.ofBits .f32 0x457C0000#32) = _
  rw [total_apply, trace_apply]
  simp only [kmat_apply]

/-- A rank-one index set is its one coordinate's range, so a sum over it is the sum over that coordinate. -/
theorem sum_idx1 {M : Type*} [AddCommMonoid M] {n : Nat} (f : (⟨1, ![n]⟩ : Shape).Idx → M) :
    ∑ i, f i = ∑ a : Fin n, f (ix1 a) :=
  (Equiv.sum_comp
    (⟨fun i => i 0, ix1, fun i => (eq_ix1 i).symm, fun _ => rfl⟩ : (⟨1, ![n]⟩ : Shape).Idx ≃ Fin n).symm f).symm

/-- The target term from the squared distances to the target. -/
theorem target_apply (d : FVec Ideal S64 .f32) (j0 : S_.Idx) :
    RefRun.target (F := Ideal) d j0 = Cert.Spec.target (fun i => d (ix1 i)) := by
  unfold RefRun.target Cert.Spec.target
  rw [hostDivf_apply, hostReduceAdd_apply, Ideal.hostReduceAdd_total reducesTo_S64_S_d0 (fun b => b.elim0), sum_idx1]
  rfl

/-- The score from the three row statistics, entry by entry. -/
theorem tail_apply (s : FVec Ideal S64 .f32) (g : FVec Ideal S64x64 .f32) (d : FVec Ideal S64 .f32) (j0 : S_.Idx) :
    RefRun.tail (F := Ideal) s g d j0
      = Cert.Spec.tail (fun i => s (ix1 i)) (fun i j => g (ix2 i j)) (fun i => d (ix1 i)) := by
  unfold RefRun.tail RefRun.clip Cert.Spec.tail
  show min (Ideal.ofBits .f32 0x41200000#32) (max (Ideal.ofBits .f32 0xC1200000#32)
      (RefRun.cross (RefRun.kmat s g) j0 - RefRun.target d j0)) = _
  rw [cross_apply, target_apply]

end Cert.ReferenceIdeal.RefRead

end
-- ==== Proof.RefRead.lean ====
/-
  The reference's result at the ideal values is the specification's score of the two arguments re-indexed:
  X(i, k) the first argument at (i, k / 128, k % 128) and t(k) the second at (k / 128, k % 128).
  The score is the shared tail of the three row statistics; each statistic of the re-indexed matrix and vector is
  the specification's (the squared norms, the inner products, the sums of squared differences), and the
  re-indexings keep the row-major position.
-/
import proofs.«113203_j56899726737831_2_alg».proof.Proof.RefRun
import proofs.«113203_j56899726737831_2_alg».proof.Proof.Spec
import proofs.«113203_j56899726737831_2_alg».proof.Proof.RefReadStats
import proofs.«113203_j56899726737831_2_alg».proof.Proof.RefReadTail
import Idealize.ShloMosaic.Lib.ValueIdx
import Idealize.ShloMosaic.Lib.IdealHost
import Idealize.ShloMosaic.Lib.ValueLayout
import Idealize.ShloMosaic.Lib.Pipeline.Value
import Idealize.ShloMosaic.PureOps.Ideal.Laws

noncomputable section

namespace Cert.ReferenceIdeal.RefRead

open Cert.ReferenceIdeal Cert.ReferenceIdeal.Gen Cert.ReferenceIdeal.RefRun Idealize.ShloMosaic Idealize.ShloMosaic.ValueIdx
open scoped BigOperators

/-- The samples as a matrix, straight from the argument: entry (i, k) is the array at (i, k / 128, k % 128). -/
def samples (a0 : FVec Ideal S64x4096x128 .f32) : Fin 64 → Fin 524288 → EReal :=
  fun i k => a0 (ix3 i ⟨k.val / 128, by have := k.isLt; omega⟩ ⟨k.val % 128, Nat.mod_lt _ (by decide)⟩)

/-- The target as a vector, straight from the argument: entry k is the array at (k / 128, k % 128). -/
def targetVec (a1 : FVec Ideal S4096x128 .f32) : Fin 524288 → EReal :=
  fun k => a1 (ix2 ⟨k.val / 128, by have := k.isLt; omega⟩ ⟨k.val % 128, Nat.mod_lt _ (by decide)⟩)

theorem mat_xmat (a0 : FVec Ideal S64x4096x128 .f32) : mat (RefRun.xmat (F := Ideal) a0) = samples a0 :=
  funext fun i => funext fun k => xmat_apply a0 i k

theorem vec_tvec (a1 : FVec Ideal S4096x128 .f32) : vec (RefRun.tvec (F := Ideal) a1) = targetVec a1 :=
  funext fun k => tvec_apply a1 k

/-- The score of a matrix against a vector is the specification's, of their entries. -/
theorem score_apply (X : FVec Ideal S64x524288 .f32) (t : FVec Ideal S524288 .f32) (j0 : S_.Idx) :
    RefRun.score (F := Ideal) X t j0 = Cert.Spec.scoreRef (mat X) (vec t) := by
  have h1 : (fun i => RefRun.sq (F := Ideal) X (ix1 i)) = Cert.Spec.sq (mat X) := funext (sq_apply X)
  have h2 : (fun i j => RefRun.gram (F := Ideal) X (ix2 i j)) = Cert.Spec.gram (mat X) :=
    funext fun i => funext (gram_apply X i)
  have h3 : (fun i => RefRun.dt2 (F := Ideal) X t (ix1 i)) = Cert.Spec.dt2R (mat X) (vec t) := funext (dt2_apply X t)
  unfold RefRun.score Cert.Spec.scoreRef
  rw [tail_apply, h1, h2, h3]

/-- The reference's result is the specification's score of the re-indexed arguments, at its one index. -/
theorem result_eq_samples (a0 : FVec Ideal S64x4096x128 .f32) (a1 : FVec Ideal S4096x128 .f32) :
    RefRun.result (F := Ideal) a0 a1 = fun _ => Cert.Spec.scoreRef (samples a0) (targetVec a1) := by
  funext j0
  unfold RefRun.result
  rw [score_apply, mat_xmat, vec_tvec]

/-- The same with the two re-indexings written out. -/
theorem result_eq_spec (a0 : (⟨S64x4096x128, .f32⟩ : BufTy).Contents (Elt Ideal))
    (a1 : (⟨S4096x128, .f32⟩ : BufTy).Contents (Elt Ideal)) :
    RefRun.result (F := Ideal) a0 a1 = fun _ => Cert.Spec.scoreRef
      (fun i k => a0 (ix3 i ⟨k.val / 128, by have := k.isLt; omega⟩ ⟨k.val % 128, Nat.mod_lt _ (by decide)⟩))
      (fun k => a1 (ix2 ⟨k.val / 128, by have := k.isLt; omega⟩ ⟨k.val % 128, Nat.mod_lt _ (by decide)⟩)) :=
  result_eq_samples a0 a1

end Cert.ReferenceIdeal.RefRead

end
-- ==== Proof.ValueClaim.lean ====
/-
  The value claim. At the extended reals the kernel program's result is the score computed from the two halves' partial
  sums — which are the full Gram matrix, products with the target, target's squares and samples' squares of the flattened
  arguments — with the distance to the target as max(sq − 2·xt + tt, 0); the reference's result is the same score with
  that distance as Σ (x − t)². For real entries the two distances agree (expand the square; a sum of squares is not
  negative), and the precondition says every entry is real.
-/
import proofs.«113203_j56899726737831_2_alg».proof.Defs
import proofs.«113203_j56899726737831_2_alg».proof.Proof.IdealHalfSums
import proofs.«113203_j56899726737831_2_alg».proof.Proof.IdealTailRead
import proofs.«113203_j56899726737831_2_alg».proof.Proof.IdealEntries
import proofs.«113203_j56899726737831_2_alg».proof.Proof.RefRead
import proofs.«113203_j56899726737831_2_alg».proof.Proof.SpecLaws
import proofs.«113203_j56899726737831_2_alg».proof.Proof.FrameClaims

set_option maxRecDepth 16384

noncomputable section

namespace Cert.Proof.ValueClaim

open Idealize.ShloMosaic Idealize.ShloMosaic.TcCoe Idealize.ShloMosaic.ValueIdx Idealize.SL.Sem
open Cert.KernelIdeal Cert.KernelIdeal.Gen Cert.KernelIdeal.Around

/-- What the later lines leave in the result buffer: the score of the flattened arrays, kernel's form. -/
theorem result_eq (m : (ℓ : Loc nD τ sig) → Buf (Elt Ideal) ℓ) (c : Dev nD) :
    Pipeline.afterTail₀ cfgs (dats m) 0 (V0 m) tailOps c main_v58 = fun _ => Cert.Spec.scoreKer (Xk m c) (Tk m c) := by
  unfold Pipeline.afterTail₀
  rw [Cert.KernelIdeal.Tail.tail_after c (V0 m c) (fun w => (dats m 0 c).arrAt w cfg0.N)]
  rw [final2, final3, final4, final5, Cert.KernelIdeal.Tail.tailTerm_eq]
  have h1 : _ = Cert.Spec.sq (Xk m c) := funext fun i => sumSq m c i
  have h2 : _ = Cert.Spec.gram (Xk m c) := funext fun i => funext fun j => sumG m c i j
  have h3 : _ = Cert.Spec.dt2K (Xk m c) (Tk m c) := funext fun i => by
    unfold Cert.Spec.dt2K
    rw [← sumSq m c i, ← sumXt m c i, ← sumTt m c]
  funext _
  exact congr (congr (congrArg Cert.Spec.tail h1) h2) h3

/-- The kernel program's run, read: the result buffer at that score, the arguments as launched. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v58) = (fun _ => Cert.Spec.scoreKer (Xk m c) (Tk m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v58 (Pipeline.mem_restRefs_of main_v58 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

open Cert.Proof.FrameClaims in
/-- Both programs end at the same extended real. -/
theorem algebraic : Cert.algebraic_KernelIdeal_ReferenceIdeal := by
  intro m ρ m' ρ' hpre hagree
  refine ⟨_, kernel_run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, Cert.ReferenceIdeal.RefRead.result_eq_spec,
    Cert.Spec.score_eq (Cert.KernelIdeal.Entries.Xk_real m hpre c) (Cert.KernelIdeal.Entries.Tk_real m hpre c),
    show Xk m c = _ from funext fun a => funext fun k => Cert.KernelIdeal.Entries.Xk_apply m c a k,
    show Tk m c = _ from funext fun k => Cert.KernelIdeal.Entries.Tk_apply m c k]
  rfl

end Cert.Proof.ValueClaim

end
-- ==== Proof.lean ====
/-
  The certificate of a pairwise kernel score. From X, the 64 samples flattened to 524288 lanes each, and t, the target
  flattened likewise, both programs compute

      clip( (1/4)·(Σᵢⱼ Kᵢⱼ − Σᵢ Kᵢᵢ)/4032 − (Σᵢ exp(−dᵢ))/64 , −10, 10 ),   Kᵢⱼ = exp(−max(sqᵢ + sqⱼ − 2·gramᵢⱼ, 0)),

  with sqᵢ = Σₖ Xᵢₖ², gramᵢⱼ = Σₖ XᵢₖXⱼₖ. The kernel accumulates sq, gram, xtᵢ = Σₖ Xᵢₖtₖ and tt = Σₖ tₖ² in one pass over
  the lanes — two halves, eight tiles a half, four chunks of 8192 lanes a tile — and takes dᵢ = max(sqᵢ − 2·xtᵢ + tt, 0);
  the reference takes dᵢ = Σₖ (Xᵢₖ − tₖ)². Over the extended reals sums regroup freely, so the kernel's four accumulated
  arrays are exactly those sums; and for real entries Σ (x − t)² = sq − 2·xt + tt ≥ 0, so the two distances agree — that
  is where the precondition (every input finite) is used.

  The five claims: each kernel program (at words, and at extended reals) runs to the end around its one region and
  leaves its arguments as launched; the reference, host operations only, does too; the idealization rewrote nothing;
  and at the extended reals both programs end with the same score.
-/
import proofs.«113203_j56899726737831_2_alg».proof.Defs
import proofs.«113203_j56899726737831_2_alg».proof.Proof.Gen.Kernel
import proofs.«113203_j56899726737831_2_alg».proof.Proof.Gen.KernelIdeal
import proofs.«113203_j56899726737831_2_alg».proof.Proof.Gen.ReferenceIdeal
import proofs.«113203_j56899726737831_2_alg».proof.Proof.Gen.Pre_finite_inputs
import proofs.«113203_j56899726737831_2_alg».proof.Proof.FrameClaims
import proofs.«113203_j56899726737831_2_alg».proof.Proof.ValueClaim

noncomputable section

namespace Cert.Proof

theorem claim : Cert.Claim :=
  ⟨Cert.Kernel.Gen.facts, Cert.KernelIdeal.Gen.facts, Cert.ReferenceIdeal.Gen.facts, Cert.Pre_finite_inputs.Gen.facts,
    FrameClaims.frame_k, FrameClaims.frame_ki, FrameClaims.frame_ri, FrameClaims.preserves, ValueClaim.algebraic⟩

end Cert.Proof

end
